-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S32x64 : Shape := ⟨2, ![32, 64]⟩
abbrev S32 : Shape := ⟨1, ![32]⟩
abbrev S32x32 : Shape := ⟨2, ![32, 32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part3 {F : FTy → Type} [FloatOps F] (main_arg12 : FVec F S32 .f32) (main_arg13 : FVec F S32x32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  main_v63

def fn_part2 {F : FTy → Type} [FloatOps F] (main_arg8 : FVec F S32x32 .f32) (main_arg9 : FVec F S32 .f32) (main_arg10 : FVec F S32x32 .f32) (main_arg11 : FVec F S32x32 .f32) (main_arg12 : FVec F S32 .f32) (main_arg13 : FVec F S32x32 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg12 main_arg13 main_v48 main_v49 main_v50

def fn_part1 {F : FTy → Type} [FloatOps F] (main_arg5 : FVec F S32x32 .f32) (main_arg6 : FVec F S32 .f32) (main_arg7 : FVec F S32x32 .f32) (main_arg8 : FVec F S32x32 .f32) (main_arg9 : FVec F S32 .f32) (main_arg10 : FVec F S32x32 .f32) (main_arg11 : FVec F S32x32 .f32) (main_arg12 : FVec F S32 .f32) (main_arg13 : FVec F S32x32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S32x64 .f32) (main_arg3 : FVec F S32 .f32) (main_arg4 : FVec F S32x64 .f32) (main_arg5 : FVec F S32x32 .f32) (main_arg6 : FVec F S32 .f32) (main_arg7 : FVec F S32x32 .f32) (main_arg8 : FVec F S32x32 .f32) (main_arg9 : FVec F S32 .f32) (main_arg10 : FVec F S32x32 .f32) (main_arg11 : FVec F S32x32 .f32) (main_arg12 : FVec F S32 .f32) (main_arg13 : FVec F S32x32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S32x64 : Shape := ⟨2, ![32, 64]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S64x32 : Shape := ⟨2, ![64, 32]⟩
abbrev S1x32 : Shape := ⟨2, ![1, 32]⟩
abbrev S100000x32 : Shape := ⟨2, ![100000, 32]⟩
abbrev S1600000x32 : Shape := ⟨2, ![1600000, 32]⟩
abbrev S10000x64 : Shape := ⟨2, ![10000, 64]⟩
abbrev S10000x1 : Shape := ⟨2, ![10000, 1]⟩
abbrev S10000x32 : Shape := ⟨2, ![10000, 32]⟩

abbrev nBuf : Space → Nat
  | .hbm => 99
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S32x64, .f32⟩
  | .hbm, ⟨3, _⟩ => ⟨S32, .f32⟩
  | .hbm, ⟨4, _⟩ => ⟨S32x64, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32x32, .f32⟩
  | .hbm, ⟨12, _⟩ => ⟨S32, .f32⟩
  | .hbm, ⟨13, _⟩ => ⟨S32x32, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S64x32, .f32⟩
  | .hbm, ⟨45, _⟩ => ⟨S64x32, .f32⟩
  | .hbm, ⟨46, _⟩ => ⟨S1x32, .f32⟩
  | .hbm, ⟨47, _⟩ => ⟨S100000x32, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x32, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .hbm, ⟨61, _⟩ => ⟨S32x32, .f32⟩
  | .hbm, ⟨62, _⟩ => ⟨S32x32, .f32⟩
  | .hbm, ⟨63, _⟩ => ⟨S1x32, .f32⟩
  | .hbm, ⟨64, _⟩ => ⟨S100000x32, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x32, .f32⟩
  | .hbm, ⟨74, _⟩ => ⟨S_, .f32⟩
  | .hbm, ⟨75, _⟩ => ⟨S100000x32, .f32⟩
  | .hbm, ⟨76, _⟩ => ⟨S1600000x1, .i32⟩
  | .hbm, ⟨77, _⟩ => ⟨S100000x32, .f32⟩
  | .hbm, ⟨78, _⟩ => ⟨S32x32, .f32⟩
  | .hbm, ⟨79, _⟩ => ⟨S32x32, .f32⟩
  | .hbm, ⟨80, _⟩ => ⟨S1x32, .f32⟩
  | .hbm, ⟨81, _⟩ => ⟨S100000x32, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x32, .f32⟩
  | .hbm, ⟨91, _⟩ => ⟨S_, .f32⟩
  | .hbm, ⟨92, _⟩ => ⟨S100000x32, .f32⟩
  | .hbm, ⟨93, _⟩ => ⟨S1600000x1, .i32⟩
  | .hbm, ⟨94, _⟩ => ⟨S100000x32, .f32⟩
  | .hbm, ⟨95, _⟩ => ⟨S32x32, .f32⟩
  | .hbm, ⟨96, _⟩ => ⟨S32x32, .f32⟩
  | .hbm, ⟨97, _⟩ => ⟨S1x32, .f32⟩
  | .hbm, ⟨98, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x32, .f32⟩
  | .local _ .vmem, ⟨7, _⟩ => ⟨S1x32, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x1, .f32⟩
  | .local _ .vmem, ⟨14, _⟩ => ⟨S10000x1, .f32⟩
  | .local _ .vmem, ⟨15, _⟩ => ⟨S10000x32, .f32⟩
  | .local _ .vmem, ⟨16, _⟩ => ⟨S10000x32, .f32⟩
  | .local _ .vmem, ⟨17, _⟩ => ⟨S32x32, .f32⟩
  | .local _ .vmem, ⟨18, _⟩ => ⟨S1x32, .f32⟩
  | .local _ .vmem, ⟨19, _⟩ => ⟨S32x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x1, .f32⟩
  | .local _ .vmem, ⟨27, _⟩ => ⟨S10000x1, .f32⟩
  | .local _ .vmem, ⟨28, _⟩ => ⟨S10000x32, .f32⟩
  | .local _ .vmem, ⟨29, _⟩ => ⟨S10000x32, .f32⟩
  | .local _ .vmem, ⟨30, _⟩ => ⟨S32x32, .f32⟩
  | .local _ .vmem, ⟨31, _⟩ => ⟨S1x32, .f32⟩
  | .local _ .vmem, ⟨32, _⟩ => ⟨S32x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S10000x32, .f32⟩
  | .local _ .vmem, ⟨39, _⟩ => ⟨S10000x1, .f32⟩
  | .local _ .vmem, ⟨40, _⟩ => ⟨S10000x1, .f32⟩
  | .local _ .vmem, ⟨41, _⟩ => ⟨S10000x32, .f32⟩
  | .local _ .vmem, ⟨42, _⟩ => ⟨S10000x32, .f32⟩
  | .local _ .vmem, ⟨43, _⟩ => ⟨S32x32, .f32⟩
  | .local _ .vmem, ⟨44, _⟩ => ⟨S1x32, .f32⟩
  | .local _ .vmem, ⟨45, _⟩ => ⟨S32x32, .f32⟩
  | .local _ .vmem, ⟨46, _⟩ => ⟨S10000x32, .f32⟩
  | .local _ .vmem, ⟨47, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_cst : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_cst_2 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_c : Ref sig .tc := ⟨.hbm, 31, rfl⟩
abbrev main_call0_v13 : Ref sig .tc := ⟨.hbm, 32, rfl⟩
abbrev main_call0_v14 : Ref sig .tc := ⟨.hbm, 33, rfl⟩
abbrev main_call0_c_3 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_cst_4 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_c_5 : Ref sig .tc := ⟨.hbm, 48, rfl⟩
abbrev main_call0_v27 : Ref sig .tc := ⟨.hbm, 49, rfl⟩
abbrev main_call0_v28 : Ref sig .tc := ⟨.hbm, 50, rfl⟩
abbrev main_call0_c_6 : Ref sig .tc := ⟨.hbm, 51, rfl⟩
abbrev main_call0_v29 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_v33 : Ref sig .tc := ⟨.hbm, 56, rfl⟩
abbrev main_call0_cst_7 : Ref sig .tc := ⟨.hbm, 57, rfl⟩
abbrev main_call0_v34 : Ref sig .tc := ⟨.hbm, 58, rfl⟩
abbrev main_call0_v35 : Ref sig .tc := ⟨.hbm, 59, rfl⟩
abbrev main_call0_v36 : Ref sig .tc := ⟨.hbm, 60, rfl⟩
abbrev main_call0_v37 : Ref sig .tc := ⟨.hbm, 61, rfl⟩
abbrev main_call0_v38 : Ref sig .tc := ⟨.hbm, 62, rfl⟩
abbrev main_call0_v39 : Ref sig .tc := ⟨.hbm, 63, rfl⟩
abbrev main_call0_v40 : Ref sig .tc := ⟨.hbm, 64, rfl⟩
abbrev main_call0_c_8 : Ref sig .tc := ⟨.hbm, 65, rfl⟩
abbrev main_call0_v41 : Ref sig .tc := ⟨.hbm, 66, rfl⟩
abbrev main_call0_v42 : Ref sig .tc := ⟨.hbm, 67, rfl⟩
abbrev main_call0_c_9 : Ref sig .tc := ⟨.hbm, 68, rfl⟩
abbrev main_call0_v43 : Ref sig .tc := ⟨.hbm, 69, rfl⟩
abbrev main_call0_v44 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_cst_10 : Ref sig .tc := ⟨.hbm, 74, rfl⟩
abbrev main_call0_v48 : Ref sig .tc := ⟨.hbm, 75, rfl⟩
abbrev main_call0_v49 : Ref sig .tc := ⟨.hbm, 76, rfl⟩
abbrev main_call0_v50 : Ref sig .tc := ⟨.hbm, 77, rfl⟩
abbrev main_call0_v51 : Ref sig .tc := ⟨.hbm, 78, rfl⟩
abbrev main_call0_v52 : Ref sig .tc := ⟨.hbm, 79, rfl⟩
abbrev main_call0_v53 : Ref sig .tc := ⟨.hbm, 80, rfl⟩
abbrev main_call0_v54 : Ref sig .tc := ⟨.hbm, 81, rfl⟩
abbrev main_call0_c_11 : Ref sig .tc := ⟨.hbm, 82, rfl⟩
abbrev main_call0_v55 : Ref sig .tc := ⟨.hbm, 83, rfl⟩
abbrev main_call0_v56 : Ref sig .tc := ⟨.hbm, 84, rfl⟩
abbrev main_call0_c_12 : Ref sig .tc := ⟨.hbm, 85, rfl⟩
abbrev main_call0_v57 : Ref sig .tc := ⟨.hbm, 86, rfl⟩
abbrev main_call0_v58 : Ref sig .tc := ⟨.hbm, 87, rfl⟩
abbrev main_call0_v59 : Ref sig .tc := ⟨.hbm, 88, rfl⟩
abbrev main_call0_v60 : Ref sig .tc := ⟨.hbm, 89, rfl⟩
abbrev main_call0_v61 : Ref sig .tc := ⟨.hbm, 90, rfl⟩
abbrev main_call0_cst_13 : Ref sig .tc := ⟨.hbm, 91, rfl⟩
abbrev main_call0_v62 : Ref sig .tc := ⟨.hbm, 92, rfl⟩
abbrev main_call0_v63 : Ref sig .tc := ⟨.hbm, 93, rfl⟩
abbrev main_call0_v64 : Ref sig .tc := ⟨.hbm, 94, rfl⟩
abbrev main_call0_v65 : Ref sig .tc := ⟨.hbm, 95, rfl⟩
abbrev main_call0_v66 : Ref sig .tc := ⟨.hbm, 96, rfl⟩
abbrev main_call0_v67 : Ref sig .tc := ⟨.hbm, 97, rfl⟩
abbrev main_v0 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S10000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S10000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  transposes_S32x64_S64x32_1_0 : S32x64.Transposes [1, 0] S64x32
  shapeCasts_S32_S1x32 : S32.ShapeCasts S1x32
  bcast_S_S100000x32 : S_.BroadcastsInDim S100000x32 (![] : Fin 0 → Fin S100000x32.rank)
  transposes_S32x32_S32x32_1_0 : S32x32.Transposes [1, 0] S32x32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S10000x1_S10000x64 : S10000x1.Broadcasts S10000x64
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  broadcasts_S10000x1_S10000x32 : S10000x1.Broadcasts S10000x32
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x64_S64x32_S10000x32_1_0_0_1_n_n_wf : DotDims.WF S10000x64 S64x32 S10000x32 [1] [0] [0] [1] [] []
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x32.size a ≤ S100000x32.size a
  hwx1_7 : ∀ i : grid1.Coords, EltTy.bits .f32 = 32 ∨ (Rect.block (s := S100000x32) S10000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x32.size a ≤ S100000x32.size a
  hwx2_6 : ∀ i : grid2.Coords, EltTy.bits .f32 = 32 ∨ (Rect.block (s := S100000x32) S10000x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x32.size a ≤ S100000x32.size a
  hwx2_7 : ∀ i : grid2.Coords, EltTy.bits .f32 = 32 ∨ (Rect.block (s := S100000x32) S10000x32.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x32.size a ≤ S32x32.size a
  hwx3_3 : ∀ i : grid3.Coords, EltTy.bits .f32 = 32 ∨ (Rect.block (s := S32x32) S32x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x32.size a ≤ S32x32.size a
  hwx3_5 : ∀ i : grid3.Coords, EltTy.bits .f32 = 32 ∨ (Rect.block (s := S32x32) S32x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x32.size a ≤ S100000x32.size a
  hwx3_6 : ∀ i : grid3.Coords, EltTy.bits .f32 = 32 ∨ (Rect.block (s := S100000x32) S10000x32.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_call0_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v25) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v24) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v26) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v36) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v26) S10000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v37) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v39) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v38) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v26) S10000x32.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v40) S10000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v50) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v12) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v40) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v51) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v53) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v52) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v40) S10000x32.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_call0_v54) S10000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v64) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v12) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v54) S10000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v65) S32x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v67) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v66) S32x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v0) S10000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S32x64 : Shape := ⟨2, ![32, 64]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x32 : Shape := ⟨2, ![64, 32]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 161
  | .vmem => 0
  | .smem => 0
  | _ => 0

abbrev hbmTy0_0 (i : Nat) : BufTy := match i % 128 with
  | 0 => ⟨S100000x64, .f32⟩
  | 1 => ⟨S2x1600000, .i32⟩
  | 2 => ⟨S32x64, .f32⟩
  | 3 => ⟨S32, .f32⟩
  | 4 => ⟨S32x64, .f32⟩
  | 5 => ⟨S32x32, .f32⟩
  | 6 => ⟨S32, .f32⟩
  | 7 => ⟨S32x32, .f32⟩
  | 8 => ⟨S32x32, .f32⟩
  | 9 => ⟨S32, .f32⟩
  | 10 => ⟨S32x32, .f32⟩
  | 11 => ⟨S32x32, .f32⟩
  | 12 => ⟨S32, .f32⟩
  | 13 => ⟨S32x32, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x64, .f32⟩
  | 42 => ⟨S100000x64, .f32⟩
  | 43 => ⟨S64x32, .f32⟩
  | 44 => ⟨S100000x32, .f32⟩
  | 45 => ⟨S1x32, .f32⟩
  | 46 => ⟨S100000x32, .f32⟩
  | 47 => ⟨S100000x32, .f32⟩
  | 48 => ⟨S64x32, .f32⟩
  | 49 => ⟨S100000x32, .f32⟩
  | 50 => ⟨S100000x32, .f32⟩
  | 51 => ⟨S_, .f32⟩
  | 52 => ⟨S100000x32, .f32⟩
  | 53 => ⟨S100000x32, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x32, .f32⟩
  | 63 => ⟨S_, .f32⟩
  | 64 => ⟨S100000x32, .f32⟩
  | 65 => ⟨S1600000x1, .i32⟩
  | 66 => ⟨S100000x32, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x32, .f32⟩
  | 78 => ⟨S100000x32, .f32⟩
  | 79 => ⟨S32x32, .f32⟩
  | 80 => ⟨S100000x32, .f32⟩
  | 81 => ⟨S1x32, .f32⟩
  | 82 => ⟨S100000x32, .f32⟩
  | 83 => ⟨S100000x32, .f32⟩
  | 84 => ⟨S32x32, .f32⟩
  | 85 => ⟨S100000x32, .f32⟩
  | 86 => ⟨S100000x32, .f32⟩
  | 87 => ⟨S100000x32, .f32⟩
  | 88 => ⟨S_, .f32⟩
  | 89 => ⟨S100000x32, .f32⟩
  | 90 => ⟨S100000x32, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x32, .f32⟩
  | 100 => ⟨S_, .f32⟩
  | 101 => ⟨S100000x32, .f32⟩
  | 102 => ⟨S1600000x1, .i32⟩
  | 103 => ⟨S100000x32, .f32⟩
  | 104 => ⟨S_, .f32⟩
  | 105 => ⟨S1600000, .f32⟩
  | 106 => ⟨S_, .f32⟩
  | 107 => ⟨S100000, .f32⟩
  | 108 => ⟨S1600000x1, .i32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x32, .f32⟩
  | 115 => ⟨S100000x32, .f32⟩
  | 116 => ⟨S32x32, .f32⟩
  | 117 => ⟨S100000x32, .f32⟩
  | 118 => ⟨S1x32, .f32⟩
  | 119 => ⟨S100000x32, .f32⟩
  | 120 => ⟨S100000x32, .f32⟩
  | 121 => ⟨S32x32, .f32⟩
  | 122 => ⟨S100000x32, .f32⟩
  | 123 => ⟨S100000x32, .f32⟩
  | 124 => ⟨S100000x32, .f32⟩
  | 125 => ⟨S_, .f32⟩
  | 126 => ⟨S100000x32, .f32⟩
  | 127 => ⟨S100000x32, .f32⟩
  | _ => ⟨S100000x64, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x32, .f32⟩
  | 9 => ⟨S_, .f32⟩
  | 10 => ⟨S100000x32, .f32⟩
  | 11 => ⟨S1600000x1, .i32⟩
  | 12 => ⟨S100000x32, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x32, .f32⟩
  | 24 => ⟨S100000x32, .f32⟩
  | 25 => ⟨S32x32, .f32⟩
  | 26 => ⟨S100000x32, .f32⟩
  | 27 => ⟨S1x32, .f32⟩
  | 28 => ⟨S100000x32, .f32⟩
  | 29 => ⟨S100000x32, .f32⟩
  | 30 => ⟨S32x32, .f32⟩
  | 31 => ⟨S100000x32, .f32⟩
  | 32 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call1_cst : Ref sig .tc := ⟨.hbm, 88, rfl⟩
abbrev main_call1_v0 : Ref sig .tc := ⟨.hbm, 89, rfl⟩
abbrev main_v60 : Ref sig .tc := ⟨.hbm, 90, rfl⟩
abbrev main_c_10 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call2_cst : Ref sig .tc := ⟨.hbm, 125, rfl⟩
abbrev main_call2_v0 : Ref sig .tc := ⟨.hbm, 126, rfl⟩
abbrev main_v89 : Ref sig .tc := ⟨.hbm, 127, rfl⟩
abbrev main_c_16 : Ref sig .tc := ⟨.hbm, 128, rfl⟩
abbrev main_v90 : Ref sig .tc := ⟨.hbm, 129, rfl⟩
abbrev main_v91 : Ref sig .tc := ⟨.hbm, 130, rfl⟩
abbrev main_c_17 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_18 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_19 : Ref sig .tc := ⟨.hbm, 141, rfl⟩
abbrev main_v100 : Ref sig .tc := ⟨.hbm, 142, rfl⟩
abbrev main_cst_20 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S32x32_S32x32_1_0 : S32x32.Transposes [1, 0] S32x32
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.K.Dat0.lean ====
/- Region 0 of the kernel program (pallas_call 0, `cc0_kernel`, pipeline 0), first half: the DATA of its
   frame, at a parameter `V` (the TensorCore's buffer contents when the region is entered) and for any float instance.
   Each window's block at a grid point read off its array (`iblk0`); the rectangles the body loads and stores through,
   each the whole of its staging buffer; what the body's one store leaves in the output window's buffer as a function of
   the six input blocks (`out0_6`: the payload `k0_pay1` laid over the whole buffer); and the pipeline's proof data
   `dat0`: the arrays as `V` has them, after the body each input's buffer at its block and the output's at `out0_6` of
   the input blocks, the invariant the scoped rest and the generator register untouched, nothing owed, full shares. -/
import proofs.«165607_j15298673509107_2_alg».proof.Proof.Gen.Kernel.Launch
import proofs.«165607_j15298673509107_2_alg».proof.Proof.Gen.Kernel.Skeleton
import proofs.«165607_j15298673509107_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has ten thousand coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the store go through the whole of a staging buffer -/

abbrev r0_0 : Rect S10000x64 := Rect.unit (s := S10000x64) ![0, 0] S10000x64.size inb_S10000x64_S10000x64_0_0
abbrev r0_1 : Rect S10000x1 := Rect.unit (s := S10000x1) ![0, 0] S10000x1.size inb_S10000x1_S10000x1_0_0
abbrev r0_2 : Rect S64x32 := Rect.unit (s := S64x32) ![0, 0] S64x32.size inb_S64x32_S64x32_0_0
abbrev r0_3 : Rect S1x32 := Rect.unit (s := S1x32) ![0, 0] S1x32.size inb_S1x32_S1x32_0_0
abbrev r0_4 : Rect S10000x32 := Rect.unit (s := S10000x32) ![0, 0] S10000x32.size inb_S10000x32_S10000x32_0_0

/-! ## What the body leaves in the output window's buffer -/

/-- Window 6's staging buffer after the body, from the input windows' blocks `x0 … x5` (in window order): the one store's
    payload over the whole buffer. The payload takes what the body loaded in the order of its loads: windows 0, 1, 2, 3,
    then 5, then 4. -/
def out0_6 (x0 : Vec F S10000x64 .f32) (x1 : Vec F S10000x1 .f32) (x2 : Vec F S10000x64 .f32) (x3 : Vec F S64x32 .f32) (x4 : Vec F S1x32 .f32) (x5 : Vec F S64x32 .f32) : Vec F S10000x32 .f32 :=
  View.canon [⟨r0_4, k0_pay1 (View.ld x0 r0_0) (View.ld x1 r0_1) (View.ld x2 r0_0) (View.ld x3 r0_2) (View.ld x5 r0_2) (View.ld x4 r0_3)⟩]

/-! ## The pipeline's proof data -/

/-- The proof data of pipeline 0 on core `c`: the arrays as the region finds them (`V`); after the body at point `t` each
    input's buffer at its block and the output's at `out0_6` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

end Cert.Kernel.Hand

end
-- ==== Proof.K.Dat1.lean ====
import proofs.«165607_j15298673509107_2_alg».proof.Proof.Gen.Kernel.Launch
import proofs.«165607_j15298673509107_2_alg».proof.Proof.Gen.Kernel.Skeleton
import proofs.«165607_j15298673509107_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of the kernel program: the proof data of its pipeline

Pipeline 1 has eight windows: seven inputs (the neighbour sums, the inverse degrees, the layer's
input rows, the two weight matrices and the bias row, and a second window `prev` on the same array as
window 2) and one output. At every grid point the body reads each input window's whole block, computes
one value from them and stores it to the whole output block. This module states, at a parameter `V`
(the buffer contents when the region is entered), each window's block at a point, the output block
the body leaves as a function of the input blocks, and the pipeline's proof data. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region-entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each is the whole of its staging buffer -/

/-- The whole of a 10000×32 buffer (windows 0, 2, 6 and the output window 7). -/
abbrev r1_rows : Rect S10000x32 := Rect.unit (s := S10000x32) ![0, 0] S10000x32.size inb_S10000x32_S10000x32_0_0
/-- The whole of the 10000×1 buffer (window 1). -/
abbrev r1_col : Rect S10000x1 := Rect.unit (s := S10000x1) ![0, 0] S10000x1.size inb_S10000x1_S10000x1_0_0
/-- The whole of a 32×32 buffer (windows 3 and 5). -/
abbrev r1_mat : Rect S32x32 := Rect.unit (s := S32x32) ![0, 0] S32x32.size inb_S32x32_S32x32_0_0
/-- The whole of the 1×32 buffer (window 4). -/
abbrev r1_bias : Rect S1x32 := Rect.unit (s := S1x32) ![0, 0] S1x32.size inb_S1x32_S1x32_0_0

/-! ## What the body leaves in the output window's buffer -/

/-- Window 7's staging buffer after the body, from the seven input blocks (in window order): its one
    store, of the body's value at the loaded blocks. The body loads window 5 before window 4, and the
    value's arguments are in the order of the loads. -/
def out1_7 (x0 : Vec F S10000x32 .f32) (x1 : Vec F S10000x1 .f32) (x2 : Vec F S10000x32 .f32) (x3 : Vec F S32x32 .f32)
    (x4 : Vec F S1x32 .f32) (x5 : Vec F S32x32 .f32) (x6 : Vec F S10000x32 .f32) : Vec F S10000x32 .f32 :=
  View.canon [⟨r1_rows, k1_pay1 (View.ld x0 r1_rows) (View.ld x1 r1_col) (View.ld x2 r1_rows) (View.ld x3 r1_mat)
    (View.ld x5 r1_mat) (View.ld x4 r1_bias) (View.ld x6 r1_rows)⟩]

/-! ## The pipeline's proof data -/

/-- The proof data of pipeline 1 on core `c`: the arrays at the region-entry contents; after the body at
    point `t` each input's buffer at its block and the output's at `out1_7` of the input blocks; the
    invariant the scoped rest and the generator register, untouched; nothing owed. Windows 2 and 6 are two
    windows on one array and hold one half of it each; every other window's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare.right
    | ⟨7, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by
  dsimp only [dat1]

end Cert.Kernel.Hand

end
-- ==== Proof.K.Dat2.lean ====
import proofs.«165607_j15298673509107_2_alg».proof.Proof.Gen.Kernel.Launch
import proofs.«165607_j15298673509107_2_alg».proof.Proof.Gen.Kernel.Skeleton
import proofs.«165607_j15298673509107_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of the kernel program: the proof data of its pipeline

Pipeline 2 has eight windows: seven inputs (the neighbour sums, the inverse degrees, the layer's
input rows, the two weight matrices and the bias row, and a second window `prev` on the same array as
window 2) and one output. At every grid point the body reads each input window's whole block, computes
one value from them and stores it to the whole output block. This module states, at a parameter `V`
(the buffer contents when the region is entered), each window's block at a point, the output block
the body leaves as a function of the input blocks, and the pipeline's proof data. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region-entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each is the whole of its staging buffer -/

/-- The whole of a 10000×32 buffer (windows 0, 2, 6 and the output window 7). -/
abbrev r2_rows : Rect S10000x32 := Rect.unit (s := S10000x32) ![0, 0] S10000x32.size inb_S10000x32_S10000x32_0_0
/-- The whole of the 10000×1 buffer (window 1). -/
abbrev r2_col : Rect S10000x1 := Rect.unit (s := S10000x1) ![0, 0] S10000x1.size inb_S10000x1_S10000x1_0_0
/-- The whole of a 32×32 buffer (windows 3 and 5). -/
abbrev r2_mat : Rect S32x32 := Rect.unit (s := S32x32) ![0, 0] S32x32.size inb_S32x32_S32x32_0_0
/-- The whole of the 1×32 buffer (window 4). -/
abbrev r2_bias : Rect S1x32 := Rect.unit (s := S1x32) ![0, 0] S1x32.size inb_S1x32_S1x32_0_0

/-! ## What the body leaves in the output window's buffer -/

/-- Window 7's staging buffer after the body, from the seven input blocks (in window order): its one
    store, of the body's value at the loaded blocks. The body loads window 5 before window 4, and the
    value's arguments are in the order of the loads. -/
def out2_7 (x0 : Vec F S10000x32 .f32) (x1 : Vec F S10000x1 .f32) (x2 : Vec F S10000x32 .f32) (x3 : Vec F S32x32 .f32)
    (x4 : Vec F S1x32 .f32) (x5 : Vec F S32x32 .f32) (x6 : Vec F S10000x32 .f32) : Vec F S10000x32 .f32 :=
  View.canon [⟨r2_rows, k2_pay1 (View.ld x0 r2_rows) (View.ld x1 r2_col) (View.ld x2 r2_rows) (View.ld x3 r2_mat)
    (View.ld x5 r2_mat) (View.ld x4 r2_bias) (View.ld x6 r2_rows)⟩]

/-! ## The pipeline's proof data -/

/-- The proof data of pipeline 2 on core `c`: the arrays at the region-entry contents; after the body at
    point `t` each input's buffer at its block and the output's at `out2_7` of the input blocks; the
    invariant the scoped rest and the generator register, untouched; nothing owed. Windows 2 and 6 are two
    windows on one array and hold one half of it each; every other window's array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare.right
    | ⟨7, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by
  dsimp only [dat2]

end Cert.Kernel.Hand

end
-- ==== Proof.K.Dat3.lean ====
/- Region 3 of the kernel program (pallas_call 3, `cc3_kernel`, pipeline 3), first half: the DATA of its
   frame, at a parameter `V` (the TensorCore's buffer contents when the region is entered) and for any float instance.
   Each window's block at a grid point read off its array (`iblk3`); the rectangles the body loads and stores through,
   each the whole of its staging buffer; what the body's one store leaves in the output window's buffer as a function of
   the six input blocks (`out3_6`: the payload `k3_pay1` laid over the whole buffer); and the pipeline's proof data
   `dat3`: the arrays as `V` has them, after the body each input's buffer at its block and the output's at `out3_6` of
   the input blocks, the invariant the scoped rest and the generator register untouched, nothing owed, full shares. -/
import proofs.«165607_j15298673509107_2_alg».proof.Proof.Gen.Kernel.Launch
import proofs.«165607_j15298673509107_2_alg».proof.Proof.Gen.Kernel.Skeleton
import proofs.«165607_j15298673509107_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has ten thousand coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and the store go through the whole of a staging buffer -/

abbrev r3_0 : Rect S10000x32 := Rect.unit (s := S10000x32) ![0, 0] S10000x32.size inb_S10000x32_S10000x32_0_0
abbrev r3_1 : Rect S10000x1 := Rect.unit (s := S10000x1) ![0, 0] S10000x1.size inb_S10000x1_S10000x1_0_0
abbrev r3_2 : Rect S32x32 := Rect.unit (s := S32x32) ![0, 0] S32x32.size inb_S32x32_S32x32_0_0
abbrev r3_3 : Rect S1x32 := Rect.unit (s := S1x32) ![0, 0] S1x32.size inb_S1x32_S1x32_0_0

/-! ## What the body leaves in the output window's buffer -/

/-- Window 6's staging buffer after the body, from the input windows' blocks `x0 … x5` (in window order): the one store's
    payload over the whole buffer. The payload takes what the body loaded in the order of its loads: windows 0, 1, 2, 3,
    then 5, then 4. -/
def out3_6 (x0 : Vec F S10000x32 .f32) (x1 : Vec F S10000x1 .f32) (x2 : Vec F S10000x32 .f32) (x3 : Vec F S32x32 .f32) (x4 : Vec F S1x32 .f32) (x5 : Vec F S32x32 .f32) : Vec F S10000x32 .f32 :=
  View.canon [⟨r3_0, k3_pay1 (View.ld x0 r3_0) (View.ld x1 r3_1) (View.ld x2 r3_0) (View.ld x3 r3_2) (View.ld x5 r3_2) (View.ld x4 r3_3)⟩]

/-! ## The pipeline's proof data -/

/-- The proof data of pipeline 3 on core `c`: the arrays as the region finds them (`V`); after the body at point `t` each
    input's buffer at its block and the output's at `out3_6` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

end Cert.Kernel.Hand

end
-- ==== Proof.K.Bound.lean ====
/-
  The kernel program's buffer contents at each boundary between two segments of its run (four stretches of host
  operations alternating with four kernel regions): the launch memory, then each stretch's operations applied, then
  at a region's exit its output array replaced by what the region's write-backs leave. Every array of a region holds
  at the exit what the pipeline leaves there; every other buffer passes a region unchanged; a reference no stretch
  writes and no region changes ends as launched.
-/
import proofs.«165607_j15298673509107_2_alg».proof.Proof.Gen.Kernel.Launch
import proofs.«165607_j15298673509107_2_alg».proof.Proof.Gen.Kernel.Skeleton
import proofs.«165607_j15298673509107_2_alg».proof.Proof.Gen.Kernel.Points
import proofs.«165607_j15298673509107_2_alg».proof.Proof.Gen.Kernel.Regions
import proofs.«165607_j15298673509107_2_alg».proof.Proof.K.Dat0
import proofs.«165607_j15298673509107_2_alg».proof.Proof.K.Dat1
import proofs.«165607_j15298673509107_2_alg».proof.Proof.K.Dat2
import proofs.«165607_j15298673509107_2_alg».proof.Proof.K.Dat3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- Entering region 0: the contents after the host operations before it. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- Leaving region 0: only its output array has changed, to what the write-backs of all grid points leave. -/
def W2 (c : Dev nD) : Valuation τ sig (Elt F) :=
  Function.update (W1 m ρ c) (Proc.devRef .tc main_call0_v26) ((dat0 (V1 m ρ) c).arrAt 6 cfg0.N)
abbrev V2 : (c : Dev nD) → (b : Ref sig .tc) → Buf (Elt F) ((c : Thread nD τ).loc b) := fun c b => W2 m ρ c b
theorem W2_out (c : Dev nD) : W2 m ρ c (Proc.devRef .tc main_call0_v26) = (dat0 (V1 m ρ) c).arrAt 6 cfg0.N := by
  unfold W2; exact Function.update_self _ _ _
theorem W2_of_ne (c : Dev nD) (b : Ref sig .tc) (hb : b ≠ main_call0_v26) :
    W2 m ρ c (Proc.devRef .tc b) = W1 m ρ c (Proc.devRef .tc b) := by
  unfold W2; exact Function.update_of_ne (StableHlo.devRef_ne_of_ne hb) _ _
/-- At region 0's exit every one of its arrays holds what the pipeline leaves there: the output what the write-backs
    made, an input (never written back) its entry contents. -/
theorem hF0 (c : Dev nD) (w : Fin cfg0.W) : (dat0 (V1 m ρ) c).arrAt w cfg0.N = V2 m ρ c (Pipeline.arrRef spec0 w) := by
  by_cases hw : (cfg0.win w).isOut = true
  · obtain rfl : w = 6 := by revert hw; revert w; decide
    exact (W2_out m ρ c).symm
  · have hne : Pipeline.arrRef spec0 w ≠ main_call0_v26 := by revert hw; revert w; decide
    exact ((dat0 (V1 m ρ) c).arrAt_in w (by simpa using hw) cfg0.N).trans ((A_eq0 _ c w).trans (W2_of_ne m ρ c _ hne).symm)
theorem hrest0 (c : Dev nD) : ∀ b, b ∉ Finset.univ.image (Pipeline.arrRef spec0) → V2 m ρ c b = V1 m ρ c b :=
  fun b hb => W2_of_ne m ρ c b fun e => hb (e ▸ Finset.mem_image.mpr ⟨6, Finset.mem_univ _, rfl⟩)

/-- Entering region 1: the contents after the host operations before it. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- Leaving region 1: only its output array has changed, to what the write-backs of all grid points leave. -/
def W4 (c : Dev nD) : Valuation τ sig (Elt F) :=
  Function.update (W3 m ρ c) (Proc.devRef .tc main_call0_v40) ((dat1 (V3 m ρ) c).arrAt 7 cfg1.N)
abbrev V4 : (c : Dev nD) → (b : Ref sig .tc) → Buf (Elt F) ((c : Thread nD τ).loc b) := fun c b => W4 m ρ c b
theorem W4_out (c : Dev nD) : W4 m ρ c (Proc.devRef .tc main_call0_v40) = (dat1 (V3 m ρ) c).arrAt 7 cfg1.N := by
  unfold W4; exact Function.update_self _ _ _
theorem W4_of_ne (c : Dev nD) (b : Ref sig .tc) (hb : b ≠ main_call0_v40) :
    W4 m ρ c (Proc.devRef .tc b) = W3 m ρ c (Proc.devRef .tc b) := by
  unfold W4; exact Function.update_of_ne (StableHlo.devRef_ne_of_ne hb) _ _
/-- At region 1's exit every one of its arrays holds what the pipeline leaves there: the output what the write-backs
    made, an input (never written back) its entry contents. -/
theorem hF1 (c : Dev nD) (w : Fin cfg1.W) : (dat1 (V3 m ρ) c).arrAt w cfg1.N = V4 m ρ c (Pipeline.arrRef spec1 w) := by
  by_cases hw : (cfg1.win w).isOut = true
  · obtain rfl : w = 7 := by revert hw; revert w; decide
    exact (W4_out m ρ c).symm
  · have hne : Pipeline.arrRef spec1 w ≠ main_call0_v40 := by revert hw; revert w; decide
    exact ((dat1 (V3 m ρ) c).arrAt_in w (by simpa using hw) cfg1.N).trans ((A_eq1 _ c w).trans (W4_of_ne m ρ c _ hne).symm)
theorem hrest1 (c : Dev nD) : ∀ b, b ∉ Finset.univ.image (Pipeline.arrRef spec1) → V4 m ρ c b = V3 m ρ c b :=
  fun b hb => W4_of_ne m ρ c b fun e => hb (e ▸ Finset.mem_image.mpr ⟨7, Finset.mem_univ _, rfl⟩)

/-- Entering region 2: the contents after the host operations before it. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- Leaving region 2: only its output array has changed, to what the write-backs of all grid points leave. -/
def W6 (c : Dev nD) : Valuation τ sig (Elt F) :=
  Function.update (W5 m ρ c) (Proc.devRef .tc main_call0_v54) ((dat2 (V5 m ρ) c).arrAt 7 cfg2.N)
abbrev V6 : (c : Dev nD) → (b : Ref sig .tc) → Buf (Elt F) ((c : Thread nD τ).loc b) := fun c b => W6 m ρ c b
theorem W6_out (c : Dev nD) : W6 m ρ c (Proc.devRef .tc main_call0_v54) = (dat2 (V5 m ρ) c).arrAt 7 cfg2.N := by
  unfold W6; exact Function.update_self _ _ _
theorem W6_of_ne (c : Dev nD) (b : Ref sig .tc) (hb : b ≠ main_call0_v54) :
    W6 m ρ c (Proc.devRef .tc b) = W5 m ρ c (Proc.devRef .tc b) := by
  unfold W6; exact Function.update_of_ne (StableHlo.devRef_ne_of_ne hb) _ _
/-- At region 2's exit every one of its arrays holds what the pipeline leaves there: the output what the write-backs
    made, an input (never written back) its entry contents. -/
theorem hF2 (c : Dev nD) (w : Fin cfg2.W) : (dat2 (V5 m ρ) c).arrAt w cfg2.N = V6 m ρ c (Pipeline.arrRef spec2 w) := by
  by_cases hw : (cfg2.win w).isOut = true
  · obtain rfl : w = 7 := by revert hw; revert w; decide
    exact (W6_out m ρ c).symm
  · have hne : Pipeline.arrRef spec2 w ≠ main_call0_v54 := by revert hw; revert w; decide
    exact ((dat2 (V5 m ρ) c).arrAt_in w (by simpa using hw) cfg2.N).trans ((A_eq2 _ c w).trans (W6_of_ne m ρ c _ hne).symm)
theorem hrest2 (c : Dev nD) : ∀ b, b ∉ Finset.univ.image (Pipeline.arrRef spec2) → V6 m ρ c b = V5 m ρ c b :=
  fun b hb => W6_of_ne m ρ c b fun e => hb (e ▸ Finset.mem_image.mpr ⟨7, Finset.mem_univ _, rfl⟩)

/-- Entering region 3: the contents after the host operations before it. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- Leaving region 3: only its output array has changed, to what the write-backs of all grid points leave. -/
def W8 (c : Dev nD) : Valuation τ sig (Elt F) :=
  Function.update (W7 m ρ c) (Proc.devRef .tc main_v0) ((dat3 (V7 m ρ) c).arrAt 6 cfg3.N)
abbrev V8 : (c : Dev nD) → (b : Ref sig .tc) → Buf (Elt F) ((c : Thread nD τ).loc b) := fun c b => W8 m ρ c b
theorem W8_out (c : Dev nD) : W8 m ρ c (Proc.devRef .tc main_v0) = (dat3 (V7 m ρ) c).arrAt 6 cfg3.N := by
  unfold W8; exact Function.update_self _ _ _
theorem W8_of_ne (c : Dev nD) (b : Ref sig .tc) (hb : b ≠ main_v0) :
    W8 m ρ c (Proc.devRef .tc b) = W7 m ρ c (Proc.devRef .tc b) := by
  unfold W8; exact Function.update_of_ne (StableHlo.devRef_ne_of_ne hb) _ _
/-- At region 3's exit every one of its arrays holds what the pipeline leaves there: the output what the write-backs
    made, an input (never written back) its entry contents. -/
theorem hF3 (c : Dev nD) (w : Fin cfg3.W) : (dat3 (V7 m ρ) c).arrAt w cfg3.N = V8 m ρ c (Pipeline.arrRef spec3 w) := by
  by_cases hw : (cfg3.win w).isOut = true
  · obtain rfl : w = 6 := by revert hw; revert w; decide
    exact (W8_out m ρ c).symm
  · have hne : Pipeline.arrRef spec3 w ≠ main_v0 := by revert hw; revert w; decide
    exact ((dat3 (V7 m ρ) c).arrAt_in w (by simpa using hw) cfg3.N).trans ((A_eq3 _ c w).trans (W8_of_ne m ρ c _ hne).symm)
theorem hrest3 (c : Dev nD) : ∀ b, b ∉ Finset.univ.image (Pipeline.arrRef spec3) → V8 m ρ c b = V7 m ρ c b :=
  fun b hb => W8_of_ne m ρ c b fun e => hb (e ▸ Finset.mem_image.mpr ⟨6, Finset.mem_univ _, rfl⟩)

/-- A reference no host stretch writes and no region changes ends as launched. -/
theorem W8_kept (c : Dev nD) (b : Ref sig .tc) (h0 : b ∉ hostOps0_W) (h1 : b ∉ hostOps1_W) (h2 : b ∉ hostOps2_W) (h3 : b ∉ hostOps3_W)
    (n0 : b ≠ main_call0_v26) (n1 : b ≠ main_call0_v40) (n2 : b ≠ main_call0_v54) (n3 : b ≠ main_v0) :
    W8 m ρ c (Proc.devRef .tc b) = m ((c : Thread nD τ).loc b) :=
  (W8_of_ne m ρ c b n3).trans <| (StableHlo.after_of_writes_sub hostOps3 _ hostOps3_writes h3).trans <|
  (W6_of_ne m ρ c b n2).trans <| (StableHlo.after_of_writes_sub hostOps2 _ hostOps2_writes h2).trans <|
  (W4_of_ne m ρ c b n1).trans <| (StableHlo.after_of_writes_sub hostOps1 _ hostOps1_writes h1).trans <|
  (W2_of_ne m ρ c b n0).trans <| (StableHlo.after_of_writes_sub hostOps0 _ hostOps0_writes h0).trans rfl

end Cert.Kernel.Hand
end
-- ==== Proof.K.Body0.lean ====
/- Region 0 of the kernel program (pallas_call 0, `cc0_kernel`), second half: the BODY of its frame, at the
   region-entry contents `V` and for any float instance. The one store covers the output window's buffer; the body on
   whole staging buffers, the six inputs' at given read contents and the output's at anything, runs to the inputs' as they
   were and the output's at `out0_6` of the inputs'; every input window's current buffer holds that window's block at
   every grid point, whether the pipeline fetched it there or not (windows 3, 4, 5, whose block index never moves, are
   fetched once); hence the body obligation of the proof data `dat0` at every point. -/
import proofs.«165607_j15298673509107_2_alg».proof.Proof.K.Dat0

-- membership in a rectangle whose long axis has ten thousand coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The store covers the output buffer -/

/-- The one store's rectangle is the whole buffer, so it covers it. -/
theorem cover0_6 (p0 : Vec F S10000x32 .f32) (y : S10000x32.Idx) :
    ∃ pc ∈ ([⟨r0_4, p0⟩] : List (View.Piece (Elt F) S10000x32 .f32)), y ∈ pc.1.set :=
  View.cover_of_tiled [⟨r0_4, p0⟩] S10000x32.size (by rfl) y

/-! ## The body's triple -/

set_option maxHeartbeats 1000000 in
/-- The kernel body on whole staging memrefs, the inputs' at read contents `x0 … x5` and the output's at anything, runs
    to the continuation holding the inputs' as they were and the output's at `out0_6` of the inputs': the printed function is
    its skeleton of memory operations, run operation by operation; the output buffer's own load is read and dropped. -/
theorem sound_kernel0 (c : Dev nD) (E : Set ℕ) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S10000x32 .f32) (harg7 : arg7.IsWhole)
    (x0 : Vec F S10000x64 .f32) (x1 : Vec F S10000x1 .f32) (x2 : Vec F S10000x64 .f32) (x3 : Vec F S64x32 .f32) (x4 : Vec F S1x32 .f32) (x5 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## What the body finds in each input window's buffer -/

/-- Input window 0's current staging buffer holds its block at every point, where it is fetched; for any proof data whose array is
    `V`'s and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, where it is fetched; for any proof data whose array is
    `V`'s and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, where it is fetched; for any proof data whose array is
    `V`'s and whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, although it is fetched at the first point only: its block index never moves, so the block fetched first is every point's; for any proof data whose array is
    `V`'s and whose body leaves the block in place. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, although it is fetched at the first point only: its block index never moves, so the block fetched first is every point's; for any proof data whose array is
    `V`'s and whose body leaves the block in place. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, although it is fetched at the first point only: its block index never moves, so the block fetched first is every point's; for any proof data whose array is
    `V`'s and whose body leaves the block in place. The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks (`before0_w`), so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«165607_j15298673509107_2_alg».proof.Proof.K.Dat1

/-! # Region 1 of the kernel program: the body obligation of its pipeline

At every grid point the pipeline hands the body each window's current staging buffer. Every input
buffer then holds its window's block of the array (fetched at this point, or at an earlier point with
the block index unchanged since), so the body's run on whole buffers applies: it leaves the inputs as
they were and the output buffer at `out1_7` of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window's current staging buffer holds the window's block at every point, whether the block was
fetched there or not: where it was not, the block index has not moved since the fetch, and the body leaves
every input buffer as it found it. The windows are uncut and no point is idle for them. Stated for any
proof data whose array is the region-entry contents and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The output's one store covers its buffer -/

/-- The body's one store is of the whole output block, so every element of the buffer lies in it. -/
theorem cover1_7 (p0 : Vec F S10000x32 .f32) (y : S10000x32.Idx) :
    ∃ pc ∈ ([⟨r1_rows, p0⟩] : List (View.Piece (Elt F) S10000x32 .f32)), y ∈ pc.1.set :=
  View.cover_of_tiled [⟨r1_rows, p0⟩] S10000x32.size (by rfl) y

/-! ## The body's triple -/

set_option maxHeartbeats 1000000 in
/-- The kernel body on whole staging buffers, the inputs' at read contents `x0 … x6` and the output's at
    anything, runs to the continuation holding the inputs' as they were and the output's at `out1_7` of
    the inputs': the body is seven whole-buffer loads, a load of the output buffer whose value is unused, and
    one whole-buffer store of the value computed from the seven loads. -/
theorem sound_kernel1 (c : Dev nD) (E : Set ℕ) (i : grid1.Coords) (arg1 : Memref sig .tc .vmem S10000x32 .f32) (harg1 : arg1.IsWhole) (arg2 : Memref sig .tc .vmem S10000x1 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S10000x32 .f32) (harg7 : arg7.IsWhole) (arg8 : Memref sig .tc .vmem S10000x32 .f32) (harg8 : arg8.IsWhole)
    (x0 : Vec F S10000x32 .f32) (x1 : Vec F S10000x1 .f32) (x2 : Vec F S10000x32 .f32) (x3 : Vec F S32x32 .f32) (x4 : Vec F S1x32 .f32) (x5 : Vec F S32x32 .f32) (x6 : Vec F S10000x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The input buffers at the proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what the core owes, and every window's current
    staging buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same, every buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«165607_j15298673509107_2_alg».proof.Proof.K.Dat2

/-! # Region 2 of the kernel program: the body obligation of its pipeline

At every grid point the pipeline hands the body each window's current staging buffer. Every input
buffer then holds its window's block of the array (fetched at this point, or at an earlier point with
the block index unchanged since), so the body's run on whole buffers applies: it leaves the inputs as
they were and the output buffer at `out2_7` of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window's current staging buffer holds the window's block at every point, whether the block was
fetched there or not: where it was not, the block index has not moved since the fetch, and the body leaves
every input buffer as it found it. The windows are uncut and no point is idle for them. Stated for any
proof data whose array is the region-entry contents and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The output's one store covers its buffer -/

/-- The body's one store is of the whole output block, so every element of the buffer lies in it. -/
theorem cover2_7 (p0 : Vec F S10000x32 .f32) (y : S10000x32.Idx) :
    ∃ pc ∈ ([⟨r2_rows, p0⟩] : List (View.Piece (Elt F) S10000x32 .f32)), y ∈ pc.1.set :=
  View.cover_of_tiled [⟨r2_rows, p0⟩] S10000x32.size (by rfl) y

/-! ## The body's triple -/

set_option maxHeartbeats 1000000 in
/-- The kernel body on whole staging buffers, the inputs' at read contents `x0 … x6` and the output's at
    anything, runs to the continuation holding the inputs' as they were and the output's at `out2_7` of
    the inputs': the body is seven whole-buffer loads, a load of the output buffer whose value is unused, and
    one whole-buffer store of the value computed from the seven loads. -/
theorem sound_kernel2 (c : Dev nD) (E : Set ℕ) (i : grid2.Coords) (arg1 : Memref sig .tc .vmem S10000x32 .f32) (harg1 : arg1.IsWhole) (arg2 : Memref sig .tc .vmem S10000x1 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S10000x32 .f32) (harg7 : arg7.IsWhole) (arg8 : Memref sig .tc .vmem S10000x32 .f32) (harg8 : arg8.IsWhole)
    (x0 : Vec F S10000x32 .f32) (x1 : Vec F S10000x1 .f32) (x2 : Vec F S10000x32 .f32) (x3 : Vec F S32x32 .f32) (x4 : Vec F S1x32 .f32) (x5 : Vec F S32x32 .f32) (x6 : Vec F S10000x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The input buffers at the proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what the core owes, and every window's current
    staging buffer at what it then holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, every buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/- Region 3 of the kernel program (pallas_call 3, `cc3_kernel`), second half: the BODY of its frame, at the
   region-entry contents `V` and for any float instance. The one store covers the output window's buffer; the body on
   whole staging buffers, the six inputs' at given read contents and the output's at anything, runs to the inputs' as they
   were and the output's at `out3_6` of the inputs'; every input window's current buffer holds that window's block at
   every grid point, whether the pipeline fetched it there or not (windows 3, 4, 5, whose block index never moves, are
   fetched once); hence the body obligation of the proof data `dat3` at every point. -/
import proofs.«165607_j15298673509107_2_alg».proof.Proof.K.Dat3

-- membership in a rectangle whose long axis has ten thousand coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The store covers the output buffer -/

/-- The one store's rectangle is the whole buffer, so it covers it. -/
theorem cover3_6 (p0 : Vec F S10000x32 .f32) (y : S10000x32.Idx) :
    ∃ pc ∈ ([⟨r3_0, p0⟩] : List (View.Piece (Elt F) S10000x32 .f32)), y ∈ pc.1.set :=
  View.cover_of_tiled [⟨r3_0, p0⟩] S10000x32.size (by rfl) y

/-! ## The body's triple -/

set_option maxHeartbeats 1000000 in
/-- The kernel body on whole staging memrefs, the inputs' at read contents `x0 … x5` and the output's at anything, runs
    to the continuation holding the inputs' as they were and the output's at `out3_6` of the inputs': the printed function is
    its skeleton of memory operations, run operation by operation; the output buffer's own load is read and dropped. -/
theorem sound_kernel3 (c : Dev nD) (E : Set ℕ) (i : grid3.Coords) (arg1 : Memref sig .tc .vmem S10000x32 .f32) (harg1 : arg1.IsWhole) (arg2 : Memref sig .tc .vmem S10000x1 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S10000x32 .f32) (harg7 : arg7.IsWhole)
    (x0 : Vec F S10000x32 .f32) (x1 : Vec F S10000x1 .f32) (x2 : Vec F S10000x32 .f32) (x3 : Vec F S32x32 .f32) (x4 : Vec F S1x32 .f32) (x5 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3_kernel i arg1 harg1 arg2 harg2 arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## What the body finds in each input window's buffer -/

/-- Input window 0's current staging buffer holds its block at every point, where it is fetched; for any proof data whose array is
    `V`'s and whose body leaves the block in place. The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, where it is fetched; for any proof data whose array is
    `V`'s and whose body leaves the block in place. The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, where it is fetched; for any proof data whose array is
    `V`'s and whose body leaves the block in place. The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, although it is fetched at the first point only: its block index never moves, so the block fetched first is every point's; for any proof data whose array is
    `V`'s and whose body leaves the block in place. The window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, although it is fetched at the first point only: its block index never moves, so the block fetched first is every point's; for any proof data whose array is
    `V`'s and whose body leaves the block in place. The window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, although it is fetched at the first point only: its block index never moves, so the block fetched first is every point's; for any proof data whose array is
    `V`'s and whose body leaves the block in place. The window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`: the invariant, what the core owes, and each window's current staging buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' buffers hold their blocks (`before3_w`), so `sound_kernel3` applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Shared.lean ====
/-
  Regions 1 and 2 hand ONE array to two input windows (the layer's input read as features and again as the skip
  term). The buffers behind a region's windows, each held whole, are the pipeline's arrays once that buffer's full
  share is split into two halves, one per window; at the exit the halves join back.
-/
import proofs.«165607_j15298673509107_2_alg».proof.Proof.Gen.Kernel.Launch
import proofs.«165607_j15298673509107_2_alg».proof.Proof.Gen.Kernel.Skeleton
import proofs.«165607_j15298673509107_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The distinct buffers behind region 1's eight windows: window 2 and window 6 read ONE array. -/
abbrev arrs1 : List (Ref sig .tc) := [main_call0_v36, main_call0_v12, main_call0_v26, main_call0_v37, main_call0_v39, main_call0_v38, main_call0_v40]
theorem arrs1_eq : Finset.univ.image (Pipeline.arrRef spec1) = arrs1.toFinset := by decide
theorem arrs1_nodup : arrs1.Nodup := by decide

/-- The buffers behind region 1's windows, each whole at the full share, ARE the pipeline's arrays at the same
    contents when the two input windows on the shared array hold its two halves: the full share of that buffer splits
    into a left and a right half (and joins back), every other buffer passes unchanged. -/
theorem arrBufs_iff_arrays1 (c : Dev nD) (dat : Dat τ (Elt F) Unit ℕ (UR sig nD τ) ℕ cfg1 c)
    (h2 : dat.q 2 = fullShare.left) (h6 : dat.q 6 = fullShare.right) (hq : ∀ w, w ≠ 2 → w ≠ 6 → dat.q w = fullShare)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs spec1 c V : sProp 𝕄) ⊣⊢ dat.arrays G := by
  have sh : ∀ w : Fin cfg1.W, w ≠ 2 → w ≠ 6 → dat.share w = fullShare := fun w a b => by
    unfold Pipeline.Dat.share; split
    · rfl
    · exact hq w a b
  have sh2 : dat.share 2 = fullShare.left := h2
  have sh6 : dat.share 6 = fullShare.right := h6
  have hR : dat.arrays G = bigSep Finset.univ fun w : Fin 8 =>
      (c.tc.loc (Pipeline.arrRef spec1 w) ↦{dat.share w} V (Pipeline.arrRef spec1 w) : sProp 𝕄) := by
    unfold Pipeline.Dat.arrays
    exact bigSep_congr fun w _ => by rw [(arr_whole1 w).set_eq_univ, hG]
  rw [hR, bigSep_W1, sh 0 (by decide) (by decide), sh 1 (by decide) (by decide), sh2,
    sh 3 (by decide) (by decide), sh 4 (by decide) (by decide), sh 5 (by decide) (by decide), sh6, sh 7 (by decide) (by decide)]
  unfold Pipeline.arrBufs
  rw [bigSep_eq_bigSepL_of_eq arrs1 arrs1_eq arrs1_nodup]
  show (iprop((c.tc.loc main_call0_v36 ↦{fullShare} V main_call0_v36) ∗ (c.tc.loc main_call0_v12 ↦{fullShare} V main_call0_v12) ∗ (c.tc.loc main_call0_v26 ↦{fullShare} V main_call0_v26) ∗ (c.tc.loc main_call0_v37 ↦{fullShare} V main_call0_v37) ∗ (c.tc.loc main_call0_v39 ↦{fullShare} V main_call0_v39) ∗ (c.tc.loc main_call0_v38 ↦{fullShare} V main_call0_v38) ∗ (c.tc.loc main_call0_v40 ↦{fullShare} V main_call0_v40)) : sProp 𝕄)
    ⊣⊢ iprop((c.tc.loc main_call0_v36 ↦{fullShare} V main_call0_v36) ∗ (c.tc.loc main_call0_v12 ↦{fullShare} V main_call0_v12) ∗ (c.tc.loc main_call0_v26 ↦{fullShare.left} V main_call0_v26) ∗ (c.tc.loc main_call0_v37 ↦{fullShare} V main_call0_v37) ∗ (c.tc.loc main_call0_v39 ↦{fullShare} V main_call0_v39) ∗ (c.tc.loc main_call0_v38 ↦{fullShare} V main_call0_v38) ∗ (c.tc.loc main_call0_v26 ↦{fullShare.right} V main_call0_v26) ∗ (c.tc.loc main_call0_v40 ↦{fullShare} V main_call0_v40))
  have hsplit : (c.tc.loc main_call0_v26 ↦{fullShare} V main_call0_v26 : sProp 𝕄)
      ⊣⊢ iprop((c.tc.loc main_call0_v26 ↦{fullShare.left} V main_call0_v26) ∗ (c.tc.loc main_call0_v26 ↦{fullShare.right} V main_call0_v26)) :=
    pointsTo_share (PosShare.mem_left_op_right fullShare)
  constructor
  · iintro ⟨H0, H1, H2, H3, H4, H5, H7⟩
    ihave H := hsplit.1 $$ H2
    icases H with ⟨Hl, Hr⟩
    isplitl [H0]; · iexact H0
    isplitl [H1]; · iexact H1
    isplitl [Hl]; · iexact Hl
    isplitl [H3]; · iexact H3
    isplitl [H4]; · iexact H4
    isplitl [H5]; · iexact H5
    isplitl [Hr]; · iexact Hr
    iexact H7
  · iintro ⟨H0, H1, Hl, H3, H4, H5, Hr, H7⟩
    ihave H2 := hsplit.2 $$ [Hl Hr]
    · isplitl [Hl]; · iexact Hl
      iexact Hr
    isplitl [H0]; · iexact H0
    isplitl [H1]; · iexact H1
    isplitl [H2]; · iexact H2
    isplitl [H3]; · iexact H3
    isplitl [H4]; · iexact H4
    isplitl [H5]; · iexact H5
    iexact H7

/-- The distinct buffers behind region 2's eight windows: window 2 and window 6 read ONE array. -/
abbrev arrs2 : List (Ref sig .tc) := [main_call0_v50, main_call0_v12, main_call0_v40, main_call0_v51, main_call0_v53, main_call0_v52, main_call0_v54]
theorem arrs2_eq : Finset.univ.image (Pipeline.arrRef spec2) = arrs2.toFinset := by decide
theorem arrs2_nodup : arrs2.Nodup := by decide

/-- The buffers behind region 2's windows, each whole at the full share, ARE the pipeline's arrays at the same
    contents when the two input windows on the shared array hold its two halves: the full share of that buffer splits
    into a left and a right half (and joins back), every other buffer passes unchanged. -/
theorem arrBufs_iff_arrays2 (c : Dev nD) (dat : Dat τ (Elt F) Unit ℕ (UR sig nD τ) ℕ cfg2 c)
    (h2 : dat.q 2 = fullShare.left) (h6 : dat.q 6 = fullShare.right) (hq : ∀ w, w ≠ 2 → w ≠ 6 → dat.q w = fullShare)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs spec2 c V : sProp 𝕄) ⊣⊢ dat.arrays G := by
  have sh : ∀ w : Fin cfg2.W, w ≠ 2 → w ≠ 6 → dat.share w = fullShare := fun w a b => by
    unfold Pipeline.Dat.share; split
    · rfl
    · exact hq w a b
  have sh2 : dat.share 2 = fullShare.left := h2
  have sh6 : dat.share 6 = fullShare.right := h6
  have hR : dat.arrays G = bigSep Finset.univ fun w : Fin 8 =>
      (c.tc.loc (Pipeline.arrRef spec2 w) ↦{dat.share w} V (Pipeline.arrRef spec2 w) : sProp 𝕄) := by
    unfold Pipeline.Dat.arrays
    exact bigSep_congr fun w _ => by rw [(arr_whole2 w).set_eq_univ, hG]
  rw [hR, bigSep_W2, sh 0 (by decide) (by decide), sh 1 (by decide) (by decide), sh2,
    sh 3 (by decide) (by decide), sh 4 (by decide) (by decide), sh 5 (by decide) (by decide), sh6, sh 7 (by decide) (by decide)]
  unfold Pipeline.arrBufs
  rw [bigSep_eq_bigSepL_of_eq arrs2 arrs2_eq arrs2_nodup]
  show (iprop((c.tc.loc main_call0_v50 ↦{fullShare} V main_call0_v50) ∗ (c.tc.loc main_call0_v12 ↦{fullShare} V main_call0_v12) ∗ (c.tc.loc main_call0_v40 ↦{fullShare} V main_call0_v40) ∗ (c.tc.loc main_call0_v51 ↦{fullShare} V main_call0_v51) ∗ (c.tc.loc main_call0_v53 ↦{fullShare} V main_call0_v53) ∗ (c.tc.loc main_call0_v52 ↦{fullShare} V main_call0_v52) ∗ (c.tc.loc main_call0_v54 ↦{fullShare} V main_call0_v54)) : sProp 𝕄)
    ⊣⊢ iprop((c.tc.loc main_call0_v50 ↦{fullShare} V main_call0_v50) ∗ (c.tc.loc main_call0_v12 ↦{fullShare} V main_call0_v12) ∗ (c.tc.loc main_call0_v40 ↦{fullShare.left} V main_call0_v40) ∗ (c.tc.loc main_call0_v51 ↦{fullShare} V main_call0_v51) ∗ (c.tc.loc main_call0_v53 ↦{fullShare} V main_call0_v53) ∗ (c.tc.loc main_call0_v52 ↦{fullShare} V main_call0_v52) ∗ (c.tc.loc main_call0_v40 ↦{fullShare.right} V main_call0_v40) ∗ (c.tc.loc main_call0_v54 ↦{fullShare} V main_call0_v54))
  have hsplit : (c.tc.loc main_call0_v40 ↦{fullShare} V main_call0_v40 : sProp 𝕄)
      ⊣⊢ iprop((c.tc.loc main_call0_v40 ↦{fullShare.left} V main_call0_v40) ∗ (c.tc.loc main_call0_v40 ↦{fullShare.right} V main_call0_v40)) :=
    pointsTo_share (PosShare.mem_left_op_right fullShare)
  constructor
  · iintro ⟨H0, H1, H2, H3, H4, H5, H7⟩
    ihave H := hsplit.1 $$ H2
    icases H with ⟨Hl, Hr⟩
    isplitl [H0]; · iexact H0
    isplitl [H1]; · iexact H1
    isplitl [Hl]; · iexact Hl
    isplitl [H3]; · iexact H3
    isplitl [H4]; · iexact H4
    isplitl [H5]; · iexact H5
    isplitl [Hr]; · iexact Hr
    iexact H7
  · iintro ⟨H0, H1, Hl, H3, H4, H5, Hr, H7⟩
    ihave H2 := hsplit.2 $$ [Hl Hr]
    · isplitl [Hl]; · iexact Hl
      iexact Hr
    isplitl [H0]; · iexact H0
    isplitl [H1]; · iexact H1
    isplitl [H2]; · iexact H2
    isplitl [H3]; · iexact H3
    isplitl [H4]; · iexact H4
    isplitl [H5]; · iexact H5
    iexact H7

end Cert.Kernel.Hand
end
-- ==== Proof.K.Run.lean ====
/-
  The kernel program's run, segment by segment. Between two segments every unscoped buffer of the core holds the
  boundary's valuation. Every weakly fair execution terminates without a fault, and the final memory holds, at every
  unscoped buffer, the last valuation — in particular the arguments as launched and the result array as region 3
  left it.
-/
import proofs.«165607_j15298673509107_2_alg».proof.Proof.Gen.Kernel.Launch
import proofs.«165607_j15298673509107_2_alg».proof.Proof.Gen.Kernel.Skeleton
import proofs.«165607_j15298673509107_2_alg».proof.Proof.Gen.Kernel.Points
import proofs.«165607_j15298673509107_2_alg».proof.Proof.K.Bound
import proofs.«165607_j15298673509107_2_alg».proof.Proof.K.Body0
import proofs.«165607_j15298673509107_2_alg».proof.Proof.K.Body1
import proofs.«165607_j15298673509107_2_alg».proof.Proof.K.Body2
import proofs.«165607_j15298673509107_2_alg».proof.Proof.K.Body3
import proofs.«165607_j15298673509107_2_alg».proof.Proof.K.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 as a segment: entered with every unscoped buffer at `W1`, left with them at `W2`; the generator
    register passes through the invariant; nothing is owed; the kernel has no semaphore of its own. -/
def reg0 : Pipeline.RegionSeg (pcfgs (F := F)) adm (pdats m ρ) () defs₀ 𝒱₀ L lv 0 where
  win := launch0.win.to₀
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The shares region 1's proof data name: the two windows on the shared array hold its halves. -/
theorem q1_full (c : Dev nD) (w : Fin cfg1.W) (h2 : w ≠ 2) (h6 : w ≠ 6) : (dat1 (V3 m ρ) c).q w = fullShare := by
  match w, h2, h6 with
  | ⟨0, _⟩, _, _ => rfl
  | ⟨1, _⟩, _, _ => rfl
  | ⟨2, _⟩, h2, _ => exact absurd rfl h2
  | ⟨3, _⟩, _, _ => rfl
  | ⟨4, _⟩, _, _ => rfl
  | ⟨5, _⟩, _, _ => rfl
  | ⟨6, _⟩, _, h6 => exact absurd rfl h6
  | ⟨7, _⟩, _, _ => rfl
/-- ENTRY: every unscoped buffer at `W3` is the pipeline's arrays at their entry contents (the doubly-read array split
    between its two windows) beside the unscoped rest. -/
theorem entry1 (c : Dev nD) : (StableHlo.held (c : Thread nD τ) (Pipeline.ucRefs τ sig) (W3 m ρ c) : sProp 𝕄)
    ⊢ iprop((dat1 (V3 m ρ) c).arrays ((dat1 (V3 m ρ) c).arrAt · 0) ∗ Pipeline.unscopedRest spec1 c (V3 m ρ c)) := by
  rw [← Pipeline.unscopedBufs_held (Ix := Unit) (Name := ℕ) (U := UR sig nD τ) (Lvl := ℕ) c (W3 m ρ c),
    Pipeline.unscopedBufs_split₀ cfgs 1 winFacts₀1.arr_unscoped c (V3 m ρ c)]
  exact sep_mono (arrBufs_iff_arrays1 c (dat1 (V3 m ρ) c) rfl rfl (q1_full m ρ c) (V3 m ρ c) _ (fun w => A_eq1 _ c w)).1 .rfl
/-- EXIT: the arrays at their final contents and the unscoped rest are every unscoped buffer at `W4` (the two halves of the
    doubly-read array, both still at its entry contents, joined back). -/
theorem exit1 (c : Dev nD) : iprop((dat1 (V3 m ρ) c).arrays ((dat1 (V3 m ρ) c).arrAt · cfg1.N) ∗ Pipeline.unscopedRest spec1 c (V3 m ρ c))
    ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c),
    Pipeline.unscopedBufs_split₀ cfgs 1 winFacts₀1.arr_unscoped c (V4 m ρ c)]
  refine sep_mono (arrBufs_iff_arrays1 c (dat1 (V3 m ρ) c) rfl rfl (q1_full m ρ c) (V4 m ρ c) _ (hF1 m ρ c)).2 (Entails.of_eq ?_)
  unfold Pipeline.unscopedRest
  exact bigSep_congr fun b hb => by rw [hrest1 m ρ c b (Finset.mem_sdiff.mp hb).2]

set_option backward.isDefEq.respectTransparency.types false in
/-- Region 1 as a segment: entered with every unscoped buffer at `W3`, left with them at `W4`; the generator
    register passes through the invariant; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c)
      isplitl [Ha]; · iexact Ha
      iexact Hrest
    isplitl [HY]; · iexact HY
    unfold Pipeline.Dat.owesAt Pipeline.owesWithin
    icases HO with ⟨%W, -, HO⟩; iexists W; iexact HO

/-- The shares region 2's proof data name: the two windows on the shared array hold its halves. -/
theorem q2_full (c : Dev nD) (w : Fin cfg2.W) (h2 : w ≠ 2) (h6 : w ≠ 6) : (dat2 (V5 m ρ) c).q w = fullShare := by
  match w, h2, h6 with
  | ⟨0, _⟩, _, _ => rfl
  | ⟨1, _⟩, _, _ => rfl
  | ⟨2, _⟩, h2, _ => exact absurd rfl h2
  | ⟨3, _⟩, _, _ => rfl
  | ⟨4, _⟩, _, _ => rfl
  | ⟨5, _⟩, _, _ => rfl
  | ⟨6, _⟩, _, h6 => exact absurd rfl h6
  | ⟨7, _⟩, _, _ => rfl
/-- ENTRY: every unscoped buffer at `W5` is the pipeline's arrays at their entry contents (the doubly-read array split
    between its two windows) beside the unscoped rest. -/
theorem entry2 (c : Dev nD) : (StableHlo.held (c : Thread nD τ) (Pipeline.ucRefs τ sig) (W5 m ρ c) : sProp 𝕄)
    ⊢ iprop((dat2 (V5 m ρ) c).arrays ((dat2 (V5 m ρ) c).arrAt · 0) ∗ Pipeline.unscopedRest spec2 c (V5 m ρ c)) := by
  rw [← Pipeline.unscopedBufs_held (Ix := Unit) (Name := ℕ) (U := UR sig nD τ) (Lvl := ℕ) c (W5 m ρ c),
    Pipeline.unscopedBufs_split₀ cfgs 2 winFacts₀2.arr_unscoped c (V5 m ρ c)]
  exact sep_mono (arrBufs_iff_arrays2 c (dat2 (V5 m ρ) c) rfl rfl (q2_full m ρ c) (V5 m ρ c) _ (fun w => A_eq2 _ c w)).1 .rfl
/-- EXIT: the arrays at their final contents and the unscoped rest are every unscoped buffer at `W6` (the two halves of the
    doubly-read array, both still at its entry contents, joined back). -/
theorem exit2 (c : Dev nD) : iprop((dat2 (V5 m ρ) c).arrays ((dat2 (V5 m ρ) c).arrAt · cfg2.N) ∗ Pipeline.unscopedRest spec2 c (V5 m ρ c))
    ⊢ (StableHlo.held (c : Thread nD τ) (Pipeline.ucRefs τ sig) (W6 m ρ c) : sProp 𝕄) := by
  rw [← Pipeline.unscopedBufs_held (Ix := Unit) (Name := ℕ) (U := UR sig nD τ) (Lvl := ℕ) c (W6 m ρ c),
    Pipeline.unscopedBufs_split₀ cfgs 2 winFacts₀2.arr_unscoped c (V6 m ρ c)]
  refine sep_mono (arrBufs_iff_arrays2 c (dat2 (V5 m ρ) c) rfl rfl (q2_full m ρ c) (V6 m ρ c) _ (hF2 m ρ c)).2 (Entails.of_eq ?_)
  unfold Pipeline.unscopedRest
  exact bigSep_congr fun b hb => by rw [hrest2 m ρ c b (Finset.mem_sdiff.mp hb).2]

set_option backward.isDefEq.respectTransparency.types false in
/-- Region 2 as a segment: entered with every unscoped buffer at `W5`, left with them at `W6`; the generator
    register passes through the invariant; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 m ρ c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`; the generator
    register passes through the invariant; nothing is owed; the kernel has no semaphore of its own. -/
def reg3 : Pipeline.RegionSeg (pcfgs (F := F)) adm (pdats m ρ) () defs₀ 𝒱₀ L lv 3 where
  win := launch3.win.to₀
  block_pos := block_pos3
  stage_whole := stage_whole3
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option backward.isDefEq.respectTransparency.types false in
/-- Every weakly fair execution from memory `m` with zero counters terminates, nothing faulting, and the final memory
    holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m ρ c) ∗ (∃ r, prngReg c r) ∗ ∃ W, owes (c : Thread nD τ) (0 : CellTallies nD τ sig Unit) W) : sProp 𝕄)
        ⊢ iprop((StableHlo.held (c : Thread nD τ) (Pipeline.ucRefs τ sig) (W8 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W8_kept m ρ c main_arg0 (by decide) (by decide) (by decide) (by decide) (by decide) (by decide) (by decide) (by decide)),
    (h c _ (mem_uc main_arg1 (by decide))).trans (W8_kept m ρ c main_arg1 (by decide) (by decide) (by decide) (by decide) (by decide) (by decide) (by decide) (by decide)),
    (h c _ (mem_uc main_arg2 (by decide))).trans (W8_kept m ρ c main_arg2 (by decide) (by decide) (by decide) (by decide) (by decide) (by decide) (by decide) (by decide)),
    (h c _ (mem_uc main_arg3 (by decide))).trans (W8_kept m ρ c main_arg3 (by decide) (by decide) (by decide) (by decide) (by decide) (by decide) (by decide) (by decide)),
    (h c _ (mem_uc main_arg4 (by decide))).trans (W8_kept m ρ c main_arg4 (by decide) (by decide) (by decide) (by decide) (by decide) (by decide) (by decide) (by decide)),
    (h c _ (mem_uc main_arg5 (by decide))).trans (W8_kept m ρ c main_arg5 (by decide) (by decide) (by decide) (by decide) (by decide) (by decide) (by decide) (by decide)),
    (h c _ (mem_uc main_arg6 (by decide))).trans (W8_kept m ρ c main_arg6 (by decide) (by decide) (by decide) (by decide) (by decide) (by decide) (by decide) (by decide)),
    (h c _ (mem_uc main_arg7 (by decide))).trans (W8_kept m ρ c main_arg7 (by decide) (by decide) (by decide) (by decide) (by decide) (by decide) (by decide) (by decide)),
    (h c _ (mem_uc main_arg8 (by decide))).trans (W8_kept m ρ c main_arg8 (by decide) (by decide) (by decide) (by decide) (by decide) (by decide) (by decide) (by decide)),
    (h c _ (mem_uc main_arg9 (by decide))).trans (W8_kept m ρ c main_arg9 (by decide) (by decide) (by decide) (by decide) (by decide) (by decide) (by decide) (by decide)),
    (h c _ (mem_uc main_arg10 (by decide))).trans (W8_kept m ρ c main_arg10 (by decide) (by decide) (by decide) (by decide) (by decide) (by decide) (by decide) (by decide)),
    (h c _ (mem_uc main_arg11 (by decide))).trans (W8_kept m ρ c main_arg11 (by decide) (by decide) (by decide) (by decide) (by decide) (by decide) (by decide) (by decide)),
    (h c _ (mem_uc main_arg12 (by decide))).trans (W8_kept m ρ c main_arg12 (by decide) (by decide) (by decide) (by decide) (by decide) (by decide) (by decide) (by decide)),
    (h c _ (mem_uc main_arg13 (by decide))).trans (W8_kept m ρ c main_arg13 (by decide) (by decide) (by decide) (by decide) (by decide) (by decide) (by decide) (by decide))⟩) (run_all m ρ)

/-- The result array ends at what region 3's write-backs leave. -/
theorem result_mem : θ_run defs (onTc (τ := τ) (main (F := F))) ⟨m, fun _ => 0, ρ⟩ (fun r => ∀ c : Dev nD,
      r.2.mem ((c.tc : Thread nD τ).loc main_v0) = (dat3 (V7 m ρ) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v0 (by decide))).trans (W8_out m ρ c),
    (h c _ (mem_uc main_arg0 (by decide))).trans (W8_kept m ρ c main_arg0 (by decide) (by decide) (by decide) (by decide) (by decide) (by decide) (by decide) (by decide)),
    (h c _ (mem_uc main_arg1 (by decide))).trans (W8_kept m ρ c main_arg1 (by decide) (by decide) (by decide) (by decide) (by decide) (by decide) (by decide) (by decide)),
    (h c _ (mem_uc main_arg2 (by decide))).trans (W8_kept m ρ c main_arg2 (by decide) (by decide) (by decide) (by decide) (by decide) (by decide) (by decide) (by decide)),
    (h c _ (mem_uc main_arg3 (by decide))).trans (W8_kept m ρ c main_arg3 (by decide) (by decide) (by decide) (by decide) (by decide) (by decide) (by decide) (by decide)),
    (h c _ (mem_uc main_arg4 (by decide))).trans (W8_kept m ρ c main_arg4 (by decide) (by decide) (by decide) (by decide) (by decide) (by decide) (by decide) (by decide)),
    (h c _ (mem_uc main_arg5 (by decide))).trans (W8_kept m ρ c main_arg5 (by decide) (by decide) (by decide) (by decide) (by decide) (by decide) (by decide) (by decide)),
    (h c _ (mem_uc main_arg6 (by decide))).trans (W8_kept m ρ c main_arg6 (by decide) (by decide) (by decide) (by decide) (by decide) (by decide) (by decide) (by decide)),
    (h c _ (mem_uc main_arg7 (by decide))).trans (W8_kept m ρ c main_arg7 (by decide) (by decide) (by decide) (by decide) (by decide) (by decide) (by decide) (by decide)),
    (h c _ (mem_uc main_arg8 (by decide))).trans (W8_kept m ρ c main_arg8 (by decide) (by decide) (by decide) (by decide) (by decide) (by decide) (by decide) (by decide)),
    (h c _ (mem_uc main_arg9 (by decide))).trans (W8_kept m ρ c main_arg9 (by decide) (by decide) (by decide) (by decide) (by decide) (by decide) (by decide) (by decide)),
    (h c _ (mem_uc main_arg10 (by decide))).trans (W8_kept m ρ c main_arg10 (by decide) (by decide) (by decide) (by decide) (by decide) (by decide) (by decide) (by decide)),
    (h c _ (mem_uc main_arg11 (by decide))).trans (W8_kept m ρ c main_arg11 (by decide) (by decide) (by decide) (by decide) (by decide) (by decide) (by decide) (by decide)),
    (h c _ (mem_uc main_arg12 (by decide))).trans (W8_kept m ρ c main_arg12 (by decide) (by decide) (by decide) (by decide) (by decide) (by decide) (by decide) (by decide)),
    (h c _ (mem_uc main_arg13 (by decide))).trans (W8_kept m ρ c main_arg13 (by decide) (by decide) (by decide) (by decide) (by decide) (by decide) (by decide) (by decide))⟩) (run_all m ρ)

end Cert.Kernel.Hand
end
-- ==== Proof.KI.Dat0.lean ====
/- Region 0 of the kernel program (pallas_call 0, `cc0_kernel`, pipeline 0), first half: the DATA of its
   frame, at a parameter `V` (the TensorCore's buffer contents when the region is entered) and for any float instance.
   Each window's block at a grid point read off its array (`iblk0`); the rectangles the body loads and stores through,
   each the whole of its staging buffer; what the body's one store leaves in the output window's buffer as a function of
   the six input blocks (`out0_6`: the payload `k0_pay1` laid over the whole buffer); and the pipeline's proof data
   `dat0`: the arrays as `V` has them, after the body each input's buffer at its block and the output's at `out0_6` of
   the input blocks, the invariant the scoped rest and the generator register untouched, nothing owed, full shares. -/
import proofs.«165607_j15298673509107_2_alg».proof.Proof.Gen.KernelIdeal.Launch
import proofs.«165607_j15298673509107_2_alg».proof.Proof.Gen.KernelIdeal.Skeleton
import proofs.«165607_j15298673509107_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has ten thousand coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the store go through the whole of a staging buffer -/

abbrev r0_0 : Rect S10000x64 := Rect.unit (s := S10000x64) ![0, 0] S10000x64.size inb_S10000x64_S10000x64_0_0
abbrev r0_1 : Rect S10000x1 := Rect.unit (s := S10000x1) ![0, 0] S10000x1.size inb_S10000x1_S10000x1_0_0
abbrev r0_2 : Rect S64x32 := Rect.unit (s := S64x32) ![0, 0] S64x32.size inb_S64x32_S64x32_0_0
abbrev r0_3 : Rect S1x32 := Rect.unit (s := S1x32) ![0, 0] S1x32.size inb_S1x32_S1x32_0_0
abbrev r0_4 : Rect S10000x32 := Rect.unit (s := S10000x32) ![0, 0] S10000x32.size inb_S10000x32_S10000x32_0_0

/-! ## What the body leaves in the output window's buffer -/

/-- Window 6's staging buffer after the body, from the input windows' blocks `x0 … x5` (in window order): the one store's
    payload over the whole buffer. The payload takes what the body loaded in the order of its loads: windows 0, 1, 2, 3,
    then 5, then 4. -/
def out0_6 (x0 : Vec F S10000x64 .f32) (x1 : Vec F S10000x1 .f32) (x2 : Vec F S10000x64 .f32) (x3 : Vec F S64x32 .f32) (x4 : Vec F S1x32 .f32) (x5 : Vec F S64x32 .f32) : Vec F S10000x32 .f32 :=
  View.canon [⟨r0_4, k0_pay1 (View.ld x0 r0_0) (View.ld x1 r0_1) (View.ld x2 r0_0) (View.ld x3 r0_2) (View.ld x5 r0_2) (View.ld x4 r0_3)⟩]

/-! ## The pipeline's proof data -/

/-- The proof data of pipeline 0 on core `c`: the arrays as the region finds them (`V`); after the body at point `t` each
    input's buffer at its block and the output's at `out0_6` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

end Cert.KernelIdeal.Hand

end
-- ==== Proof.KI.Dat1.lean ====
import proofs.«165607_j15298673509107_2_alg».proof.Proof.Gen.KernelIdeal.Launch
import proofs.«165607_j15298673509107_2_alg».proof.Proof.Gen.KernelIdeal.Skeleton
import proofs.«165607_j15298673509107_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of the kernel program: the proof data of its pipeline

Pipeline 1 has eight windows: seven inputs (the neighbour sums, the inverse degrees, the layer's
input rows, the two weight matrices and the bias row, and a second window `prev` on the same array as
window 2) and one output. At every grid point the body reads each input window's whole block, computes
one value from them and stores it to the whole output block. This module states, at a parameter `V`
(the buffer contents when the region is entered), each window's block at a point, the output block
the body leaves as a function of the input blocks, and the pipeline's proof data. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region-entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each is the whole of its staging buffer -/

/-- The whole of a 10000×32 buffer (windows 0, 2, 6 and the output window 7). -/
abbrev r1_rows : Rect S10000x32 := Rect.unit (s := S10000x32) ![0, 0] S10000x32.size inb_S10000x32_S10000x32_0_0
/-- The whole of the 10000×1 buffer (window 1). -/
abbrev r1_col : Rect S10000x1 := Rect.unit (s := S10000x1) ![0, 0] S10000x1.size inb_S10000x1_S10000x1_0_0
/-- The whole of a 32×32 buffer (windows 3 and 5). -/
abbrev r1_mat : Rect S32x32 := Rect.unit (s := S32x32) ![0, 0] S32x32.size inb_S32x32_S32x32_0_0
/-- The whole of the 1×32 buffer (window 4). -/
abbrev r1_bias : Rect S1x32 := Rect.unit (s := S1x32) ![0, 0] S1x32.size inb_S1x32_S1x32_0_0

/-! ## What the body leaves in the output window's buffer -/

/-- Window 7's staging buffer after the body, from the seven input blocks (in window order): its one
    store, of the body's value at the loaded blocks. The body loads window 5 before window 4, and the
    value's arguments are in the order of the loads. -/
def out1_7 (x0 : Vec F S10000x32 .f32) (x1 : Vec F S10000x1 .f32) (x2 : Vec F S10000x32 .f32) (x3 : Vec F S32x32 .f32)
    (x4 : Vec F S1x32 .f32) (x5 : Vec F S32x32 .f32) (x6 : Vec F S10000x32 .f32) : Vec F S10000x32 .f32 :=
  View.canon [⟨r1_rows, k1_pay1 (View.ld x0 r1_rows) (View.ld x1 r1_col) (View.ld x2 r1_rows) (View.ld x3 r1_mat)
    (View.ld x5 r1_mat) (View.ld x4 r1_bias) (View.ld x6 r1_rows)⟩]

/-! ## The pipeline's proof data -/

/-- The proof data of pipeline 1 on core `c`: the arrays at the region-entry contents; after the body at
    point `t` each input's buffer at its block and the output's at `out1_7` of the input blocks; the
    invariant the scoped rest and the generator register, untouched; nothing owed. Windows 2 and 6 are two
    windows on one array and hold one half of it each; every other window's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare.right
    | ⟨7, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by
  dsimp only [dat1]

end Cert.KernelIdeal.Hand

end
-- ==== Proof.KI.Dat2.lean ====
import proofs.«165607_j15298673509107_2_alg».proof.Proof.Gen.KernelIdeal.Launch
import proofs.«165607_j15298673509107_2_alg».proof.Proof.Gen.KernelIdeal.Skeleton
import proofs.«165607_j15298673509107_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of the kernel program: the proof data of its pipeline

Pipeline 2 has eight windows: seven inputs (the neighbour sums, the inverse degrees, the layer's
input rows, the two weight matrices and the bias row, and a second window `prev` on the same array as
window 2) and one output. At every grid point the body reads each input window's whole block, computes
one value from them and stores it to the whole output block. This module states, at a parameter `V`
(the buffer contents when the region is entered), each window's block at a point, the output block
the body leaves as a function of the input blocks, and the pipeline's proof data. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region-entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each is the whole of its staging buffer -/

/-- The whole of a 10000×32 buffer (windows 0, 2, 6 and the output window 7). -/
abbrev r2_rows : Rect S10000x32 := Rect.unit (s := S10000x32) ![0, 0] S10000x32.size inb_S10000x32_S10000x32_0_0
/-- The whole of the 10000×1 buffer (window 1). -/
abbrev r2_col : Rect S10000x1 := Rect.unit (s := S10000x1) ![0, 0] S10000x1.size inb_S10000x1_S10000x1_0_0
/-- The whole of a 32×32 buffer (windows 3 and 5). -/
abbrev r2_mat : Rect S32x32 := Rect.unit (s := S32x32) ![0, 0] S32x32.size inb_S32x32_S32x32_0_0
/-- The whole of the 1×32 buffer (window 4). -/
abbrev r2_bias : Rect S1x32 := Rect.unit (s := S1x32) ![0, 0] S1x32.size inb_S1x32_S1x32_0_0

/-! ## What the body leaves in the output window's buffer -/

/-- Window 7's staging buffer after the body, from the seven input blocks (in window order): its one
    store, of the body's value at the loaded blocks. The body loads window 5 before window 4, and the
    value's arguments are in the order of the loads. -/
def out2_7 (x0 : Vec F S10000x32 .f32) (x1 : Vec F S10000x1 .f32) (x2 : Vec F S10000x32 .f32) (x3 : Vec F S32x32 .f32)
    (x4 : Vec F S1x32 .f32) (x5 : Vec F S32x32 .f32) (x6 : Vec F S10000x32 .f32) : Vec F S10000x32 .f32 :=
  View.canon [⟨r2_rows, k2_pay1 (View.ld x0 r2_rows) (View.ld x1 r2_col) (View.ld x2 r2_rows) (View.ld x3 r2_mat)
    (View.ld x5 r2_mat) (View.ld x4 r2_bias) (View.ld x6 r2_rows)⟩]

/-! ## The pipeline's proof data -/

/-- The proof data of pipeline 2 on core `c`: the arrays at the region-entry contents; after the body at
    point `t` each input's buffer at its block and the output's at `out2_7` of the input blocks; the
    invariant the scoped rest and the generator register, untouched; nothing owed. Windows 2 and 6 are two
    windows on one array and hold one half of it each; every other window's array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare.right
    | ⟨7, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by
  dsimp only [dat2]

end Cert.KernelIdeal.Hand

end
-- ==== Proof.KI.Dat3.lean ====
/- Region 3 of the kernel program (pallas_call 3, `cc3_kernel`, pipeline 3), first half: the DATA of its
   frame, at a parameter `V` (the TensorCore's buffer contents when the region is entered) and for any float instance.
   Each window's block at a grid point read off its array (`iblk3`); the rectangles the body loads and stores through,
   each the whole of its staging buffer; what the body's one store leaves in the output window's buffer as a function of
   the six input blocks (`out3_6`: the payload `k3_pay1` laid over the whole buffer); and the pipeline's proof data
   `dat3`: the arrays as `V` has them, after the body each input's buffer at its block and the output's at `out3_6` of
   the input blocks, the invariant the scoped rest and the generator register untouched, nothing owed, full shares. -/
import proofs.«165607_j15298673509107_2_alg».proof.Proof.Gen.KernelIdeal.Launch
import proofs.«165607_j15298673509107_2_alg».proof.Proof.Gen.KernelIdeal.Skeleton
import proofs.«165607_j15298673509107_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has ten thousand coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and the store go through the whole of a staging buffer -/

abbrev r3_0 : Rect S10000x32 := Rect.unit (s := S10000x32) ![0, 0] S10000x32.size inb_S10000x32_S10000x32_0_0
abbrev r3_1 : Rect S10000x1 := Rect.unit (s := S10000x1) ![0, 0] S10000x1.size inb_S10000x1_S10000x1_0_0
abbrev r3_2 : Rect S32x32 := Rect.unit (s := S32x32) ![0, 0] S32x32.size inb_S32x32_S32x32_0_0
abbrev r3_3 : Rect S1x32 := Rect.unit (s := S1x32) ![0, 0] S1x32.size inb_S1x32_S1x32_0_0

/-! ## What the body leaves in the output window's buffer -/

/-- Window 6's staging buffer after the body, from the input windows' blocks `x0 … x5` (in window order): the one store's
    payload over the whole buffer. The payload takes what the body loaded in the order of its loads: windows 0, 1, 2, 3,
    then 5, then 4. -/
def out3_6 (x0 : Vec F S10000x32 .f32) (x1 : Vec F S10000x1 .f32) (x2 : Vec F S10000x32 .f32) (x3 : Vec F S32x32 .f32) (x4 : Vec F S1x32 .f32) (x5 : Vec F S32x32 .f32) : Vec F S10000x32 .f32 :=
  View.canon [⟨r3_0, k3_pay1 (View.ld x0 r3_0) (View.ld x1 r3_1) (View.ld x2 r3_0) (View.ld x3 r3_2) (View.ld x5 r3_2) (View.ld x4 r3_3)⟩]

/-! ## The pipeline's proof data -/

/-- The proof data of pipeline 3 on core `c`: the arrays as the region finds them (`V`); after the body at point `t` each
    input's buffer at its block and the output's at `out3_6` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

end Cert.KernelIdeal.Hand

end
-- ==== Proof.KI.Bound.lean ====
/-
  The kernel program's buffer contents at each boundary between two segments of its run (four stretches of host
  operations alternating with four kernel regions): the launch memory, then each stretch's operations applied, then
  at a region's exit its output array replaced by what the region's write-backs leave. Every array of a region holds
  at the exit what the pipeline leaves there; every other buffer passes a region unchanged; a reference no stretch
  writes and no region changes ends as launched.
-/
import proofs.«165607_j15298673509107_2_alg».proof.Proof.Gen.KernelIdeal.Launch
import proofs.«165607_j15298673509107_2_alg».proof.Proof.Gen.KernelIdeal.Skeleton
import proofs.«165607_j15298673509107_2_alg».proof.Proof.Gen.KernelIdeal.Points
import proofs.«165607_j15298673509107_2_alg».proof.Proof.Gen.KernelIdeal.Regions
import proofs.«165607_j15298673509107_2_alg».proof.Proof.KI.Dat0
import proofs.«165607_j15298673509107_2_alg».proof.Proof.KI.Dat1
import proofs.«165607_j15298673509107_2_alg».proof.Proof.KI.Dat2
import proofs.«165607_j15298673509107_2_alg».proof.Proof.KI.Dat3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- Entering region 0: the contents after the host operations before it. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- Leaving region 0: only its output array has changed, to what the write-backs of all grid points leave. -/
def W2 (c : Dev nD) : Valuation τ sig (Elt F) :=
  Function.update (W1 m ρ c) (Proc.devRef .tc main_call0_v26) ((dat0 (V1 m ρ) c).arrAt 6 cfg0.N)
abbrev V2 : (c : Dev nD) → (b : Ref sig .tc) → Buf (Elt F) ((c : Thread nD τ).loc b) := fun c b => W2 m ρ c b
theorem W2_out (c : Dev nD) : W2 m ρ c (Proc.devRef .tc main_call0_v26) = (dat0 (V1 m ρ) c).arrAt 6 cfg0.N := by
  unfold W2; exact Function.update_self _ _ _
theorem W2_of_ne (c : Dev nD) (b : Ref sig .tc) (hb : b ≠ main_call0_v26) :
    W2 m ρ c (Proc.devRef .tc b) = W1 m ρ c (Proc.devRef .tc b) := by
  unfold W2; exact Function.update_of_ne (StableHlo.devRef_ne_of_ne hb) _ _
/-- At region 0's exit every one of its arrays holds what the pipeline leaves there: the output what the write-backs
    made, an input (never written back) its entry contents. -/
theorem hF0 (c : Dev nD) (w : Fin cfg0.W) : (dat0 (V1 m ρ) c).arrAt w cfg0.N = V2 m ρ c (Pipeline.arrRef spec0 w) := by
  by_cases hw : (cfg0.win w).isOut = true
  · obtain rfl : w = 6 := by revert hw; revert w; decide
    exact (W2_out m ρ c).symm
  · have hne : Pipeline.arrRef spec0 w ≠ main_call0_v26 := by revert hw; revert w; decide
    exact ((dat0 (V1 m ρ) c).arrAt_in w (by simpa using hw) cfg0.N).trans ((A_eq0 _ c w).trans (W2_of_ne m ρ c _ hne).symm)
theorem hrest0 (c : Dev nD) : ∀ b, b ∉ Finset.univ.image (Pipeline.arrRef spec0) → V2 m ρ c b = V1 m ρ c b :=
  fun b hb => W2_of_ne m ρ c b fun e => hb (e ▸ Finset.mem_image.mpr ⟨6, Finset.mem_univ _, rfl⟩)

/-- Entering region 1: the contents after the host operations before it. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- Leaving region 1: only its output array has changed, to what the write-backs of all grid points leave. -/
def W4 (c : Dev nD) : Valuation τ sig (Elt F) :=
  Function.update (W3 m ρ c) (Proc.devRef .tc main_call0_v40) ((dat1 (V3 m ρ) c).arrAt 7 cfg1.N)
abbrev V4 : (c : Dev nD) → (b : Ref sig .tc) → Buf (Elt F) ((c : Thread nD τ).loc b) := fun c b => W4 m ρ c b
theorem W4_out (c : Dev nD) : W4 m ρ c (Proc.devRef .tc main_call0_v40) = (dat1 (V3 m ρ) c).arrAt 7 cfg1.N := by
  unfold W4; exact Function.update_self _ _ _
theorem W4_of_ne (c : Dev nD) (b : Ref sig .tc) (hb : b ≠ main_call0_v40) :
    W4 m ρ c (Proc.devRef .tc b) = W3 m ρ c (Proc.devRef .tc b) := by
  unfold W4; exact Function.update_of_ne (StableHlo.devRef_ne_of_ne hb) _ _
/-- At region 1's exit every one of its arrays holds what the pipeline leaves there: the output what the write-backs
    made, an input (never written back) its entry contents. -/
theorem hF1 (c : Dev nD) (w : Fin cfg1.W) : (dat1 (V3 m ρ) c).arrAt w cfg1.N = V4 m ρ c (Pipeline.arrRef spec1 w) := by
  by_cases hw : (cfg1.win w).isOut = true
  · obtain rfl : w = 7 := by revert hw; revert w; decide
    exact (W4_out m ρ c).symm
  · have hne : Pipeline.arrRef spec1 w ≠ main_call0_v40 := by revert hw; revert w; decide
    exact ((dat1 (V3 m ρ) c).arrAt_in w (by simpa using hw) cfg1.N).trans ((A_eq1 _ c w).trans (W4_of_ne m ρ c _ hne).symm)
theorem hrest1 (c : Dev nD) : ∀ b, b ∉ Finset.univ.image (Pipeline.arrRef spec1) → V4 m ρ c b = V3 m ρ c b :=
  fun b hb => W4_of_ne m ρ c b fun e => hb (e ▸ Finset.mem_image.mpr ⟨7, Finset.mem_univ _, rfl⟩)

/-- Entering region 2: the contents after the host operations before it. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- Leaving region 2: only its output array has changed, to what the write-backs of all grid points leave. -/
def W6 (c : Dev nD) : Valuation τ sig (Elt F) :=
  Function.update (W5 m ρ c) (Proc.devRef .tc main_call0_v54) ((dat2 (V5 m ρ) c).arrAt 7 cfg2.N)
abbrev V6 : (c : Dev nD) → (b : Ref sig .tc) → Buf (Elt F) ((c : Thread nD τ).loc b) := fun c b => W6 m ρ c b
theorem W6_out (c : Dev nD) : W6 m ρ c (Proc.devRef .tc main_call0_v54) = (dat2 (V5 m ρ) c).arrAt 7 cfg2.N := by
  unfold W6; exact Function.update_self _ _ _
theorem W6_of_ne (c : Dev nD) (b : Ref sig .tc) (hb : b ≠ main_call0_v54) :
    W6 m ρ c (Proc.devRef .tc b) = W5 m ρ c (Proc.devRef .tc b) := by
  unfold W6; exact Function.update_of_ne (StableHlo.devRef_ne_of_ne hb) _ _
/-- At region 2's exit every one of its arrays holds what the pipeline leaves there: the output what the write-backs
    made, an input (never written back) its entry contents. -/
theorem hF2 (c : Dev nD) (w : Fin cfg2.W) : (dat2 (V5 m ρ) c).arrAt w cfg2.N = V6 m ρ c (Pipeline.arrRef spec2 w) := by
  by_cases hw : (cfg2.win w).isOut = true
  · obtain rfl : w = 7 := by revert hw; revert w; decide
    exact (W6_out m ρ c).symm
  · have hne : Pipeline.arrRef spec2 w ≠ main_call0_v54 := by revert hw; revert w; decide
    exact ((dat2 (V5 m ρ) c).arrAt_in w (by simpa using hw) cfg2.N).trans ((A_eq2 _ c w).trans (W6_of_ne m ρ c _ hne).symm)
theorem hrest2 (c : Dev nD) : ∀ b, b ∉ Finset.univ.image (Pipeline.arrRef spec2) → V6 m ρ c b = V5 m ρ c b :=
  fun b hb => W6_of_ne m ρ c b fun e => hb (e ▸ Finset.mem_image.mpr ⟨7, Finset.mem_univ _, rfl⟩)

/-- Entering region 3: the contents after the host operations before it. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- Leaving region 3: only its output array has changed, to what the write-backs of all grid points leave. -/
def W8 (c : Dev nD) : Valuation τ sig (Elt F) :=
  Function.update (W7 m ρ c) (Proc.devRef .tc main_v0) ((dat3 (V7 m ρ) c).arrAt 6 cfg3.N)
abbrev V8 : (c : Dev nD) → (b : Ref sig .tc) → Buf (Elt F) ((c : Thread nD τ).loc b) := fun c b => W8 m ρ c b
theorem W8_out (c : Dev nD) : W8 m ρ c (Proc.devRef .tc main_v0) = (dat3 (V7 m ρ) c).arrAt 6 cfg3.N := by
  unfold W8; exact Function.update_self _ _ _
theorem W8_of_ne (c : Dev nD) (b : Ref sig .tc) (hb : b ≠ main_v0) :
    W8 m ρ c (Proc.devRef .tc b) = W7 m ρ c (Proc.devRef .tc b) := by
  unfold W8; exact Function.update_of_ne (StableHlo.devRef_ne_of_ne hb) _ _
/-- At region 3's exit every one of its arrays holds what the pipeline leaves there: the output what the write-backs
    made, an input (never written back) its entry contents. -/
theorem hF3 (c : Dev nD) (w : Fin cfg3.W) : (dat3 (V7 m ρ) c).arrAt w cfg3.N = V8 m ρ c (Pipeline.arrRef spec3 w) := by
  by_cases hw : (cfg3.win w).isOut = true
  · obtain rfl : w = 6 := by revert hw; revert w; decide
    exact (W8_out m ρ c).symm
  · have hne : Pipeline.arrRef spec3 w ≠ main_v0 := by revert hw; revert w; decide
    exact ((dat3 (V7 m ρ) c).arrAt_in w (by simpa using hw) cfg3.N).trans ((A_eq3 _ c w).trans (W8_of_ne m ρ c _ hne).symm)
theorem hrest3 (c : Dev nD) : ∀ b, b ∉ Finset.univ.image (Pipeline.arrRef spec3) → V8 m ρ c b = V7 m ρ c b :=
  fun b hb => W8_of_ne m ρ c b fun e => hb (e ▸ Finset.mem_image.mpr ⟨6, Finset.mem_univ _, rfl⟩)

/-- A reference no host stretch writes and no region changes ends as launched. -/
theorem W8_kept (c : Dev nD) (b : Ref sig .tc) (h0 : b ∉ hostOps0_W) (h1 : b ∉ hostOps1_W) (h2 : b ∉ hostOps2_W) (h3 : b ∉ hostOps3_W)
    (n0 : b ≠ main_call0_v26) (n1 : b ≠ main_call0_v40) (n2 : b ≠ main_call0_v54) (n3 : b ≠ main_v0) :
    W8 m ρ c (Proc.devRef .tc b) = m ((c : Thread nD τ).loc b) :=
  (W8_of_ne m ρ c b n3).trans <| (StableHlo.after_of_writes_sub hostOps3 _ hostOps3_writes h3).trans <|
  (W6_of_ne m ρ c b n2).trans <| (StableHlo.after_of_writes_sub hostOps2 _ hostOps2_writes h2).trans <|
  (W4_of_ne m ρ c b n1).trans <| (StableHlo.after_of_writes_sub hostOps1 _ hostOps1_writes h1).trans <|
  (W2_of_ne m ρ c b n0).trans <| (StableHlo.after_of_writes_sub hostOps0 _ hostOps0_writes h0).trans rfl

end Cert.KernelIdeal.Hand
end
-- ==== Proof.KI.Body0.lean ====
/- Region 0 of the kernel program (pallas_call 0, `cc0_kernel`), second half: the BODY of its frame, at the
   region-entry contents `V` and for any float instance. The one store covers the output window's buffer; the body on
   whole staging buffers, the six inputs' at given read contents and the output's at anything, runs to the inputs' as they
   were and the output's at `out0_6` of the inputs'; every input window's current buffer holds that window's block at
   every grid point, whether the pipeline fetched it there or not (windows 3, 4, 5, whose block index never moves, are
   fetched once); hence the body obligation of the proof data `dat0` at every point. -/
import proofs.«165607_j15298673509107_2_alg».proof.Proof.KI.Dat0

-- membership in a rectangle whose long axis has ten thousand coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The store covers the output buffer -/

/-- The one store's rectangle is the whole buffer, so it covers it. -/
theorem cover0_6 (p0 : Vec F S10000x32 .f32) (y : S10000x32.Idx) :
    ∃ pc ∈ ([⟨r0_4, p0⟩] : List (View.Piece (Elt F) S10000x32 .f32)), y ∈ pc.1.set :=
  View.cover_of_tiled [⟨r0_4, p0⟩] S10000x32.size (by rfl) y

/-! ## The body's triple -/

set_option maxHeartbeats 1000000 in
/-- The kernel body on whole staging memrefs, the inputs' at read contents `x0 … x5` and the output's at anything, runs
    to the continuation holding the inputs' as they were and the output's at `out0_6` of the inputs': the printed function is
    its skeleton of memory operations, run operation by operation; the output buffer's own load is read and dropped. -/
theorem sound_kernel0 (c : Dev nD) (E : Set ℕ) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S10000x32 .f32) (harg7 : arg7.IsWhole)
    (x0 : Vec F S10000x64 .f32) (x1 : Vec F S10000x1 .f32) (x2 : Vec F S10000x64 .f32) (x3 : Vec F S64x32 .f32) (x4 : Vec F S1x32 .f32) (x5 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## What the body finds in each input window's buffer -/

/-- Input window 0's current staging buffer holds its block at every point, where it is fetched; for any proof data whose array is
    `V`'s and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, where it is fetched; for any proof data whose array is
    `V`'s and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, where it is fetched; for any proof data whose array is
    `V`'s and whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, although it is fetched at the first point only: its block index never moves, so the block fetched first is every point's; for any proof data whose array is
    `V`'s and whose body leaves the block in place. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, although it is fetched at the first point only: its block index never moves, so the block fetched first is every point's; for any proof data whose array is
    `V`'s and whose body leaves the block in place. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, although it is fetched at the first point only: its block index never moves, so the block fetched first is every point's; for any proof data whose array is
    `V`'s and whose body leaves the block in place. The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks (`before0_w`), so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«165607_j15298673509107_2_alg».proof.Proof.KI.Dat1

/-! # Region 1 of the kernel program: the body obligation of its pipeline

At every grid point the pipeline hands the body each window's current staging buffer. Every input
buffer then holds its window's block of the array (fetched at this point, or at an earlier point with
the block index unchanged since), so the body's run on whole buffers applies: it leaves the inputs as
they were and the output buffer at `out1_7` of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window's current staging buffer holds the window's block at every point, whether the block was
fetched there or not: where it was not, the block index has not moved since the fetch, and the body leaves
every input buffer as it found it. The windows are uncut and no point is idle for them. Stated for any
proof data whose array is the region-entry contents and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The output's one store covers its buffer -/

/-- The body's one store is of the whole output block, so every element of the buffer lies in it. -/
theorem cover1_7 (p0 : Vec F S10000x32 .f32) (y : S10000x32.Idx) :
    ∃ pc ∈ ([⟨r1_rows, p0⟩] : List (View.Piece (Elt F) S10000x32 .f32)), y ∈ pc.1.set :=
  View.cover_of_tiled [⟨r1_rows, p0⟩] S10000x32.size (by rfl) y

/-! ## The body's triple -/

set_option maxHeartbeats 1000000 in
/-- The kernel body on whole staging buffers, the inputs' at read contents `x0 … x6` and the output's at
    anything, runs to the continuation holding the inputs' as they were and the output's at `out1_7` of
    the inputs': the body is seven whole-buffer loads, a load of the output buffer whose value is unused, and
    one whole-buffer store of the value computed from the seven loads. -/
theorem sound_kernel1 (c : Dev nD) (E : Set ℕ) (i : grid1.Coords) (arg1 : Memref sig .tc .vmem S10000x32 .f32) (harg1 : arg1.IsWhole) (arg2 : Memref sig .tc .vmem S10000x1 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S10000x32 .f32) (harg7 : arg7.IsWhole) (arg8 : Memref sig .tc .vmem S10000x32 .f32) (harg8 : arg8.IsWhole)
    (x0 : Vec F S10000x32 .f32) (x1 : Vec F S10000x1 .f32) (x2 : Vec F S10000x32 .f32) (x3 : Vec F S32x32 .f32) (x4 : Vec F S1x32 .f32) (x5 : Vec F S32x32 .f32) (x6 : Vec F S10000x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The input buffers at the proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what the core owes, and every window's current
    staging buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same, every buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«165607_j15298673509107_2_alg».proof.Proof.KI.Dat2

/-! # Region 2 of the kernel program: the body obligation of its pipeline

At every grid point the pipeline hands the body each window's current staging buffer. Every input
buffer then holds its window's block of the array (fetched at this point, or at an earlier point with
the block index unchanged since), so the body's run on whole buffers applies: it leaves the inputs as
they were and the output buffer at `out2_7` of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window's current staging buffer holds the window's block at every point, whether the block was
fetched there or not: where it was not, the block index has not moved since the fetch, and the body leaves
every input buffer as it found it. The windows are uncut and no point is idle for them. Stated for any
proof data whose array is the region-entry contents and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The output's one store covers its buffer -/

/-- The body's one store is of the whole output block, so every element of the buffer lies in it. -/
theorem cover2_7 (p0 : Vec F S10000x32 .f32) (y : S10000x32.Idx) :
    ∃ pc ∈ ([⟨r2_rows, p0⟩] : List (View.Piece (Elt F) S10000x32 .f32)), y ∈ pc.1.set :=
  View.cover_of_tiled [⟨r2_rows, p0⟩] S10000x32.size (by rfl) y

/-! ## The body's triple -/

set_option maxHeartbeats 1000000 in
/-- The kernel body on whole staging buffers, the inputs' at read contents `x0 … x6` and the output's at
    anything, runs to the continuation holding the inputs' as they were and the output's at `out2_7` of
    the inputs': the body is seven whole-buffer loads, a load of the output buffer whose value is unused, and
    one whole-buffer store of the value computed from the seven loads. -/
theorem sound_kernel2 (c : Dev nD) (E : Set ℕ) (i : grid2.Coords) (arg1 : Memref sig .tc .vmem S10000x32 .f32) (harg1 : arg1.IsWhole) (arg2 : Memref sig .tc .vmem S10000x1 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S10000x32 .f32) (harg7 : arg7.IsWhole) (arg8 : Memref sig .tc .vmem S10000x32 .f32) (harg8 : arg8.IsWhole)
    (x0 : Vec F S10000x32 .f32) (x1 : Vec F S10000x1 .f32) (x2 : Vec F S10000x32 .f32) (x3 : Vec F S32x32 .f32) (x4 : Vec F S1x32 .f32) (x5 : Vec F S32x32 .f32) (x6 : Vec F S10000x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The input buffers at the proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what the core owes, and every window's current
    staging buffer at what it then holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, every buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/- Region 3 of the kernel program (pallas_call 3, `cc3_kernel`), second half: the BODY of its frame, at the
   region-entry contents `V` and for any float instance. The one store covers the output window's buffer; the body on
   whole staging buffers, the six inputs' at given read contents and the output's at anything, runs to the inputs' as they
   were and the output's at `out3_6` of the inputs'; every input window's current buffer holds that window's block at
   every grid point, whether the pipeline fetched it there or not (windows 3, 4, 5, whose block index never moves, are
   fetched once); hence the body obligation of the proof data `dat3` at every point. -/
import proofs.«165607_j15298673509107_2_alg».proof.Proof.KI.Dat3

-- membership in a rectangle whose long axis has ten thousand coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The store covers the output buffer -/

/-- The one store's rectangle is the whole buffer, so it covers it. -/
theorem cover3_6 (p0 : Vec F S10000x32 .f32) (y : S10000x32.Idx) :
    ∃ pc ∈ ([⟨r3_0, p0⟩] : List (View.Piece (Elt F) S10000x32 .f32)), y ∈ pc.1.set :=
  View.cover_of_tiled [⟨r3_0, p0⟩] S10000x32.size (by rfl) y

/-! ## The body's triple -/

set_option maxHeartbeats 1000000 in
/-- The kernel body on whole staging memrefs, the inputs' at read contents `x0 … x5` and the output's at anything, runs
    to the continuation holding the inputs' as they were and the output's at `out3_6` of the inputs': the printed function is
    its skeleton of memory operations, run operation by operation; the output buffer's own load is read and dropped. -/
theorem sound_kernel3 (c : Dev nD) (E : Set ℕ) (i : grid3.Coords) (arg1 : Memref sig .tc .vmem S10000x32 .f32) (harg1 : arg1.IsWhole) (arg2 : Memref sig .tc .vmem S10000x1 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S10000x32 .f32) (harg7 : arg7.IsWhole)
    (x0 : Vec F S10000x32 .f32) (x1 : Vec F S10000x1 .f32) (x2 : Vec F S10000x32 .f32) (x3 : Vec F S32x32 .f32) (x4 : Vec F S1x32 .f32) (x5 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3_kernel i arg1 harg1 arg2 harg2 arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## What the body finds in each input window's buffer -/

/-- Input window 0's current staging buffer holds its block at every point, where it is fetched; for any proof data whose array is
    `V`'s and whose body leaves the block in place. The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, where it is fetched; for any proof data whose array is
    `V`'s and whose body leaves the block in place. The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, where it is fetched; for any proof data whose array is
    `V`'s and whose body leaves the block in place. The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, although it is fetched at the first point only: its block index never moves, so the block fetched first is every point's; for any proof data whose array is
    `V`'s and whose body leaves the block in place. The window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, although it is fetched at the first point only: its block index never moves, so the block fetched first is every point's; for any proof data whose array is
    `V`'s and whose body leaves the block in place. The window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, although it is fetched at the first point only: its block index never moves, so the block fetched first is every point's; for any proof data whose array is
    `V`'s and whose body leaves the block in place. The window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`: the invariant, what the core owes, and each window's current staging buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' buffers hold their blocks (`before3_w`), so `sound_kernel3` applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Shared.lean ====
/-
  Regions 1 and 2 hand ONE array to two input windows (the layer's input read as features and again as the skip
  term). The buffers behind a region's windows, each held whole, are the pipeline's arrays once that buffer's full
  share is split into two halves, one per window; at the exit the halves join back.
-/
import proofs.«165607_j15298673509107_2_alg».proof.Proof.Gen.KernelIdeal.Launch
import proofs.«165607_j15298673509107_2_alg».proof.Proof.Gen.KernelIdeal.Skeleton
import proofs.«165607_j15298673509107_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The distinct buffers behind region 1's eight windows: window 2 and window 6 read ONE array. -/
abbrev arrs1 : List (Ref sig .tc) := [main_call0_v36, main_call0_v12, main_call0_v26, main_call0_v37, main_call0_v39, main_call0_v38, main_call0_v40]
theorem arrs1_eq : Finset.univ.image (Pipeline.arrRef spec1) = arrs1.toFinset := by decide
theorem arrs1_nodup : arrs1.Nodup := by decide

/-- The buffers behind region 1's windows, each whole at the full share, ARE the pipeline's arrays at the same
    contents when the two input windows on the shared array hold its two halves: the full share of that buffer splits
    into a left and a right half (and joins back), every other buffer passes unchanged. -/
theorem arrBufs_iff_arrays1 (c : Dev nD) (dat : Dat τ (Elt F) Unit ℕ (UR sig nD τ) ℕ cfg1 c)
    (h2 : dat.q 2 = fullShare.left) (h6 : dat.q 6 = fullShare.right) (hq : ∀ w, w ≠ 2 → w ≠ 6 → dat.q w = fullShare)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs spec1 c V : sProp 𝕄) ⊣⊢ dat.arrays G := by
  have sh : ∀ w : Fin cfg1.W, w ≠ 2 → w ≠ 6 → dat.share w = fullShare := fun w a b => by
    unfold Pipeline.Dat.share; split
    · rfl
    · exact hq w a b
  have sh2 : dat.share 2 = fullShare.left := h2
  have sh6 : dat.share 6 = fullShare.right := h6
  have hR : dat.arrays G = bigSep Finset.univ fun w : Fin 8 =>
      (c.tc.loc (Pipeline.arrRef spec1 w) ↦{dat.share w} V (Pipeline.arrRef spec1 w) : sProp 𝕄) := by
    unfold Pipeline.Dat.arrays
    exact bigSep_congr fun w _ => by rw [(arr_whole1 w).set_eq_univ, hG]
  rw [hR, bigSep_W1, sh 0 (by decide) (by decide), sh 1 (by decide) (by decide), sh2,
    sh 3 (by decide) (by decide), sh 4 (by decide) (by decide), sh 5 (by decide) (by decide), sh6, sh 7 (by decide) (by decide)]
  unfold Pipeline.arrBufs
  rw [bigSep_eq_bigSepL_of_eq arrs1 arrs1_eq arrs1_nodup]
  show (iprop((c.tc.loc main_call0_v36 ↦{fullShare} V main_call0_v36) ∗ (c.tc.loc main_call0_v12 ↦{fullShare} V main_call0_v12) ∗ (c.tc.loc main_call0_v26 ↦{fullShare} V main_call0_v26) ∗ (c.tc.loc main_call0_v37 ↦{fullShare} V main_call0_v37) ∗ (c.tc.loc main_call0_v39 ↦{fullShare} V main_call0_v39) ∗ (c.tc.loc main_call0_v38 ↦{fullShare} V main_call0_v38) ∗ (c.tc.loc main_call0_v40 ↦{fullShare} V main_call0_v40)) : sProp 𝕄)
    ⊣⊢ iprop((c.tc.loc main_call0_v36 ↦{fullShare} V main_call0_v36) ∗ (c.tc.loc main_call0_v12 ↦{fullShare} V main_call0_v12) ∗ (c.tc.loc main_call0_v26 ↦{fullShare.left} V main_call0_v26) ∗ (c.tc.loc main_call0_v37 ↦{fullShare} V main_call0_v37) ∗ (c.tc.loc main_call0_v39 ↦{fullShare} V main_call0_v39) ∗ (c.tc.loc main_call0_v38 ↦{fullShare} V main_call0_v38) ∗ (c.tc.loc main_call0_v26 ↦{fullShare.right} V main_call0_v26) ∗ (c.tc.loc main_call0_v40 ↦{fullShare} V main_call0_v40))
  have hsplit : (c.tc.loc main_call0_v26 ↦{fullShare} V main_call0_v26 : sProp 𝕄)
      ⊣⊢ iprop((c.tc.loc main_call0_v26 ↦{fullShare.left} V main_call0_v26) ∗ (c.tc.loc main_call0_v26 ↦{fullShare.right} V main_call0_v26)) :=
    pointsTo_share (PosShare.mem_left_op_right fullShare)
  constructor
  · iintro ⟨H0, H1, H2, H3, H4, H5, H7⟩
    ihave H := hsplit.1 $$ H2
    icases H with ⟨Hl, Hr⟩
    isplitl [H0]; · iexact H0
    isplitl [H1]; · iexact H1
    isplitl [Hl]; · iexact Hl
    isplitl [H3]; · iexact H3
    isplitl [H4]; · iexact H4
    isplitl [H5]; · iexact H5
    isplitl [Hr]; · iexact Hr
    iexact H7
  · iintro ⟨H0, H1, Hl, H3, H4, H5, Hr, H7⟩
    ihave H2 := hsplit.2 $$ [Hl Hr]
    · isplitl [Hl]; · iexact Hl
      iexact Hr
    isplitl [H0]; · iexact H0
    isplitl [H1]; · iexact H1
    isplitl [H2]; · iexact H2
    isplitl [H3]; · iexact H3
    isplitl [H4]; · iexact H4
    isplitl [H5]; · iexact H5
    iexact H7

/-- The distinct buffers behind region 2's eight windows: window 2 and window 6 read ONE array. -/
abbrev arrs2 : List (Ref sig .tc) := [main_call0_v50, main_call0_v12, main_call0_v40, main_call0_v51, main_call0_v53, main_call0_v52, main_call0_v54]
theorem arrs2_eq : Finset.univ.image (Pipeline.arrRef spec2) = arrs2.toFinset := by decide
theorem arrs2_nodup : arrs2.Nodup := by decide

/-- The buffers behind region 2's windows, each whole at the full share, ARE the pipeline's arrays at the same
    contents when the two input windows on the shared array hold its two halves: the full share of that buffer splits
    into a left and a right half (and joins back), every other buffer passes unchanged. -/
theorem arrBufs_iff_arrays2 (c : Dev nD) (dat : Dat τ (Elt F) Unit ℕ (UR sig nD τ) ℕ cfg2 c)
    (h2 : dat.q 2 = fullShare.left) (h6 : dat.q 6 = fullShare.right) (hq : ∀ w, w ≠ 2 → w ≠ 6 → dat.q w = fullShare)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs spec2 c V : sProp 𝕄) ⊣⊢ dat.arrays G := by
  have sh : ∀ w : Fin cfg2.W, w ≠ 2 → w ≠ 6 → dat.share w = fullShare := fun w a b => by
    unfold Pipeline.Dat.share; split
    · rfl
    · exact hq w a b
  have sh2 : dat.share 2 = fullShare.left := h2
  have sh6 : dat.share 6 = fullShare.right := h6
  have hR : dat.arrays G = bigSep Finset.univ fun w : Fin 8 =>
      (c.tc.loc (Pipeline.arrRef spec2 w) ↦{dat.share w} V (Pipeline.arrRef spec2 w) : sProp 𝕄) := by
    unfold Pipeline.Dat.arrays
    exact bigSep_congr fun w _ => by rw [(arr_whole2 w).set_eq_univ, hG]
  rw [hR, bigSep_W2, sh 0 (by decide) (by decide), sh 1 (by decide) (by decide), sh2,
    sh 3 (by decide) (by decide), sh 4 (by decide) (by decide), sh 5 (by decide) (by decide), sh6, sh 7 (by decide) (by decide)]
  unfold Pipeline.arrBufs
  rw [bigSep_eq_bigSepL_of_eq arrs2 arrs2_eq arrs2_nodup]
  show (iprop((c.tc.loc main_call0_v50 ↦{fullShare} V main_call0_v50) ∗ (c.tc.loc main_call0_v12 ↦{fullShare} V main_call0_v12) ∗ (c.tc.loc main_call0_v40 ↦{fullShare} V main_call0_v40) ∗ (c.tc.loc main_call0_v51 ↦{fullShare} V main_call0_v51) ∗ (c.tc.loc main_call0_v53 ↦{fullShare} V main_call0_v53) ∗ (c.tc.loc main_call0_v52 ↦{fullShare} V main_call0_v52) ∗ (c.tc.loc main_call0_v54 ↦{fullShare} V main_call0_v54)) : sProp 𝕄)
    ⊣⊢ iprop((c.tc.loc main_call0_v50 ↦{fullShare} V main_call0_v50) ∗ (c.tc.loc main_call0_v12 ↦{fullShare} V main_call0_v12) ∗ (c.tc.loc main_call0_v40 ↦{fullShare.left} V main_call0_v40) ∗ (c.tc.loc main_call0_v51 ↦{fullShare} V main_call0_v51) ∗ (c.tc.loc main_call0_v53 ↦{fullShare} V main_call0_v53) ∗ (c.tc.loc main_call0_v52 ↦{fullShare} V main_call0_v52) ∗ (c.tc.loc main_call0_v40 ↦{fullShare.right} V main_call0_v40) ∗ (c.tc.loc main_call0_v54 ↦{fullShare} V main_call0_v54))
  have hsplit : (c.tc.loc main_call0_v40 ↦{fullShare} V main_call0_v40 : sProp 𝕄)
      ⊣⊢ iprop((c.tc.loc main_call0_v40 ↦{fullShare.left} V main_call0_v40) ∗ (c.tc.loc main_call0_v40 ↦{fullShare.right} V main_call0_v40)) :=
    pointsTo_share (PosShare.mem_left_op_right fullShare)
  constructor
  · iintro ⟨H0, H1, H2, H3, H4, H5, H7⟩
    ihave H := hsplit.1 $$ H2
    icases H with ⟨Hl, Hr⟩
    isplitl [H0]; · iexact H0
    isplitl [H1]; · iexact H1
    isplitl [Hl]; · iexact Hl
    isplitl [H3]; · iexact H3
    isplitl [H4]; · iexact H4
    isplitl [H5]; · iexact H5
    isplitl [Hr]; · iexact Hr
    iexact H7
  · iintro ⟨H0, H1, Hl, H3, H4, H5, Hr, H7⟩
    ihave H2 := hsplit.2 $$ [Hl Hr]
    · isplitl [Hl]; · iexact Hl
      iexact Hr
    isplitl [H0]; · iexact H0
    isplitl [H1]; · iexact H1
    isplitl [H2]; · iexact H2
    isplitl [H3]; · iexact H3
    isplitl [H4]; · iexact H4
    isplitl [H5]; · iexact H5
    iexact H7

end Cert.KernelIdeal.Hand
end
-- ==== Proof.KI.Run.lean ====
/-
  The kernel program's run, segment by segment. Between two segments every unscoped buffer of the core holds the
  boundary's valuation. Every weakly fair execution terminates without a fault, and the final memory holds, at every
  unscoped buffer, the last valuation — in particular the arguments as launched and the result array as region 3
  left it.
-/
import proofs.«165607_j15298673509107_2_alg».proof.Proof.Gen.KernelIdeal.Launch
import proofs.«165607_j15298673509107_2_alg».proof.Proof.Gen.KernelIdeal.Skeleton
import proofs.«165607_j15298673509107_2_alg».proof.Proof.Gen.KernelIdeal.Points
import proofs.«165607_j15298673509107_2_alg».proof.Proof.KI.Bound
import proofs.«165607_j15298673509107_2_alg».proof.Proof.KI.Body0
import proofs.«165607_j15298673509107_2_alg».proof.Proof.KI.Body1
import proofs.«165607_j15298673509107_2_alg».proof.Proof.KI.Body2
import proofs.«165607_j15298673509107_2_alg».proof.Proof.KI.Body3
import proofs.«165607_j15298673509107_2_alg».proof.Proof.KI.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 as a segment: entered with every unscoped buffer at `W1`, left with them at `W2`; the generator
    register passes through the invariant; nothing is owed; the kernel has no semaphore of its own. -/
def reg0 : Pipeline.RegionSeg (pcfgs (F := F)) adm (pdats m ρ) () defs₀ 𝒱₀ L lv 0 where
  win := launch0.win.to₀
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The shares region 1's proof data name: the two windows on the shared array hold its halves. -/
theorem q1_full (c : Dev nD) (w : Fin cfg1.W) (h2 : w ≠ 2) (h6 : w ≠ 6) : (dat1 (V3 m ρ) c).q w = fullShare := by
  match w, h2, h6 with
  | ⟨0, _⟩, _, _ => rfl
  | ⟨1, _⟩, _, _ => rfl
  | ⟨2, _⟩, h2, _ => exact absurd rfl h2
  | ⟨3, _⟩, _, _ => rfl
  | ⟨4, _⟩, _, _ => rfl
  | ⟨5, _⟩, _, _ => rfl
  | ⟨6, _⟩, _, h6 => exact absurd rfl h6
  | ⟨7, _⟩, _, _ => rfl
/-- ENTRY: every unscoped buffer at `W3` is the pipeline's arrays at their entry contents (the doubly-read array split
    between its two windows) beside the unscoped rest. -/
theorem entry1 (c : Dev nD) : (StableHlo.held (c : Thread nD τ) (Pipeline.ucRefs τ sig) (W3 m ρ c) : sProp 𝕄)
    ⊢ iprop((dat1 (V3 m ρ) c).arrays ((dat1 (V3 m ρ) c).arrAt · 0) ∗ Pipeline.unscopedRest spec1 c (V3 m ρ c)) := by
  rw [← Pipeline.unscopedBufs_held (Ix := Unit) (Name := ℕ) (U := UR sig nD τ) (Lvl := ℕ) c (W3 m ρ c),
    Pipeline.unscopedBufs_split₀ cfgs 1 winFacts₀1.arr_unscoped c (V3 m ρ c)]
  exact sep_mono (arrBufs_iff_arrays1 c (dat1 (V3 m ρ) c) rfl rfl (q1_full m ρ c) (V3 m ρ c) _ (fun w => A_eq1 _ c w)).1 .rfl
/-- EXIT: the arrays at their final contents and the unscoped rest are every unscoped buffer at `W4` (the two halves of the
    doubly-read array, both still at its entry contents, joined back). -/
theorem exit1 (c : Dev nD) : iprop((dat1 (V3 m ρ) c).arrays ((dat1 (V3 m ρ) c).arrAt · cfg1.N) ∗ Pipeline.unscopedRest spec1 c (V3 m ρ c))
    ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c),
    Pipeline.unscopedBufs_split₀ cfgs 1 winFacts₀1.arr_unscoped c (V4 m ρ c)]
  refine sep_mono (arrBufs_iff_arrays1 c (dat1 (V3 m ρ) c) rfl rfl (q1_full m ρ c) (V4 m ρ c) _ (hF1 m ρ c)).2 (Entails.of_eq ?_)
  unfold Pipeline.unscopedRest
  exact bigSep_congr fun b hb => by rw [hrest1 m ρ c b (Finset.mem_sdiff.mp hb).2]

set_option backward.isDefEq.respectTransparency.types false in
/-- Region 1 as a segment: entered with every unscoped buffer at `W3`, left with them at `W4`; the generator
    register passes through the invariant; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c)
      isplitl [Ha]; · iexact Ha
      iexact Hrest
    isplitl [HY]; · iexact HY
    unfold Pipeline.Dat.owesAt Pipeline.owesWithin
    icases HO with ⟨%W, -, HO⟩; iexists W; iexact HO

/-- The shares region 2's proof data name: the two windows on the shared array hold its halves. -/
theorem q2_full (c : Dev nD) (w : Fin cfg2.W) (h2 : w ≠ 2) (h6 : w ≠ 6) : (dat2 (V5 m ρ) c).q w = fullShare := by
  match w, h2, h6 with
  | ⟨0, _⟩, _, _ => rfl
  | ⟨1, _⟩, _, _ => rfl
  | ⟨2, _⟩, h2, _ => exact absurd rfl h2
  | ⟨3, _⟩, _, _ => rfl
  | ⟨4, _⟩, _, _ => rfl
  | ⟨5, _⟩, _, _ => rfl
  | ⟨6, _⟩, _, h6 => exact absurd rfl h6
  | ⟨7, _⟩, _, _ => rfl
/-- ENTRY: every unscoped buffer at `W5` is the pipeline's arrays at their entry contents (the doubly-read array split
    between its two windows) beside the unscoped rest. -/
theorem entry2 (c : Dev nD) : (StableHlo.held (c : Thread nD τ) (Pipeline.ucRefs τ sig) (W5 m ρ c) : sProp 𝕄)
    ⊢ iprop((dat2 (V5 m ρ) c).arrays ((dat2 (V5 m ρ) c).arrAt · 0) ∗ Pipeline.unscopedRest spec2 c (V5 m ρ c)) := by
  rw [← Pipeline.unscopedBufs_held (Ix := Unit) (Name := ℕ) (U := UR sig nD τ) (Lvl := ℕ) c (W5 m ρ c),
    Pipeline.unscopedBufs_split₀ cfgs 2 winFacts₀2.arr_unscoped c (V5 m ρ c)]
  exact sep_mono (arrBufs_iff_arrays2 c (dat2 (V5 m ρ) c) rfl rfl (q2_full m ρ c) (V5 m ρ c) _ (fun w => A_eq2 _ c w)).1 .rfl
/-- EXIT: the arrays at their final contents and the unscoped rest are every unscoped buffer at `W6` (the two halves of the
    doubly-read array, both still at its entry contents, joined back). -/
theorem exit2 (c : Dev nD) : iprop((dat2 (V5 m ρ) c).arrays ((dat2 (V5 m ρ) c).arrAt · cfg2.N) ∗ Pipeline.unscopedRest spec2 c (V5 m ρ c))
    ⊢ (StableHlo.held (c : Thread nD τ) (Pipeline.ucRefs τ sig) (W6 m ρ c) : sProp 𝕄) := by
  rw [← Pipeline.unscopedBufs_held (Ix := Unit) (Name := ℕ) (U := UR sig nD τ) (Lvl := ℕ) c (W6 m ρ c),
    Pipeline.unscopedBufs_split₀ cfgs 2 winFacts₀2.arr_unscoped c (V6 m ρ c)]
  refine sep_mono (arrBufs_iff_arrays2 c (dat2 (V5 m ρ) c) rfl rfl (q2_full m ρ c) (V6 m ρ c) _ (hF2 m ρ c)).2 (Entails.of_eq ?_)
  unfold Pipeline.unscopedRest
  exact bigSep_congr fun b hb => by rw [hrest2 m ρ c b (Finset.mem_sdiff.mp hb).2]

set_option backward.isDefEq.respectTransparency.types false in
/-- Region 2 as a segment: entered with every unscoped buffer at `W5`, left with them at `W6`; the generator
    register passes through the invariant; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 m ρ c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`; the generator
    register passes through the invariant; nothing is owed; the kernel has no semaphore of its own. -/
def reg3 : Pipeline.RegionSeg (pcfgs (F := F)) adm (pdats m ρ) () defs₀ 𝒱₀ L lv 3 where
  win := launch3.win.to₀
  block_pos := block_pos3
  stage_whole := stage_whole3
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option backward.isDefEq.respectTransparency.types false in
/-- Every weakly fair execution from memory `m` with zero counters terminates, nothing faulting, and the final memory
    holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m ρ c) ∗ (∃ r, prngReg c r) ∗ ∃ W, owes (c : Thread nD τ) (0 : CellTallies nD τ sig Unit) W) : sProp 𝕄)
        ⊢ iprop((StableHlo.held (c : Thread nD τ) (Pipeline.ucRefs τ sig) (W8 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W8_kept m ρ c main_arg0 (by decide) (by decide) (by decide) (by decide) (by decide) (by decide) (by decide) (by decide)),
    (h c _ (mem_uc main_arg1 (by decide))).trans (W8_kept m ρ c main_arg1 (by decide) (by decide) (by decide) (by decide) (by decide) (by decide) (by decide) (by decide)),
    (h c _ (mem_uc main_arg2 (by decide))).trans (W8_kept m ρ c main_arg2 (by decide) (by decide) (by decide) (by decide) (by decide) (by decide) (by decide) (by decide)),
    (h c _ (mem_uc main_arg3 (by decide))).trans (W8_kept m ρ c main_arg3 (by decide) (by decide) (by decide) (by decide) (by decide) (by decide) (by decide) (by decide)),
    (h c _ (mem_uc main_arg4 (by decide))).trans (W8_kept m ρ c main_arg4 (by decide) (by decide) (by decide) (by decide) (by decide) (by decide) (by decide) (by decide)),
    (h c _ (mem_uc main_arg5 (by decide))).trans (W8_kept m ρ c main_arg5 (by decide) (by decide) (by decide) (by decide) (by decide) (by decide) (by decide) (by decide)),
    (h c _ (mem_uc main_arg6 (by decide))).trans (W8_kept m ρ c main_arg6 (by decide) (by decide) (by decide) (by decide) (by decide) (by decide) (by decide) (by decide)),
    (h c _ (mem_uc main_arg7 (by decide))).trans (W8_kept m ρ c main_arg7 (by decide) (by decide) (by decide) (by decide) (by decide) (by decide) (by decide) (by decide)),
    (h c _ (mem_uc main_arg8 (by decide))).trans (W8_kept m ρ c main_arg8 (by decide) (by decide) (by decide) (by decide) (by decide) (by decide) (by decide) (by decide)),
    (h c _ (mem_uc main_arg9 (by decide))).trans (W8_kept m ρ c main_arg9 (by decide) (by decide) (by decide) (by decide) (by decide) (by decide) (by decide) (by decide)),
    (h c _ (mem_uc main_arg10 (by decide))).trans (W8_kept m ρ c main_arg10 (by decide) (by decide) (by decide) (by decide) (by decide) (by decide) (by decide) (by decide)),
    (h c _ (mem_uc main_arg11 (by decide))).trans (W8_kept m ρ c main_arg11 (by decide) (by decide) (by decide) (by decide) (by decide) (by decide) (by decide) (by decide)),
    (h c _ (mem_uc main_arg12 (by decide))).trans (W8_kept m ρ c main_arg12 (by decide) (by decide) (by decide) (by decide) (by decide) (by decide) (by decide) (by decide)),
    (h c _ (mem_uc main_arg13 (by decide))).trans (W8_kept m ρ c main_arg13 (by decide) (by decide) (by decide) (by decide) (by decide) (by decide) (by decide) (by decide))⟩) (run_all m ρ)

/-- The result array ends at what region 3's write-backs leave. -/
theorem result_mem : θ_run defs (onTc (τ := τ) (main (F := F))) ⟨m, fun _ => 0, ρ⟩ (fun r => ∀ c : Dev nD,
      r.2.mem ((c.tc : Thread nD τ).loc main_v0) = (dat3 (V7 m ρ) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v0 (by decide))).trans (W8_out m ρ c),
    (h c _ (mem_uc main_arg0 (by decide))).trans (W8_kept m ρ c main_arg0 (by decide) (by decide) (by decide) (by decide) (by decide) (by decide) (by decide) (by decide)),
    (h c _ (mem_uc main_arg1 (by decide))).trans (W8_kept m ρ c main_arg1 (by decide) (by decide) (by decide) (by decide) (by decide) (by decide) (by decide) (by decide)),
    (h c _ (mem_uc main_arg2 (by decide))).trans (W8_kept m ρ c main_arg2 (by decide) (by decide) (by decide) (by decide) (by decide) (by decide) (by decide) (by decide)),
    (h c _ (mem_uc main_arg3 (by decide))).trans (W8_kept m ρ c main_arg3 (by decide) (by decide) (by decide) (by decide) (by decide) (by decide) (by decide) (by decide)),
    (h c _ (mem_uc main_arg4 (by decide))).trans (W8_kept m ρ c main_arg4 (by decide) (by decide) (by decide) (by decide) (by decide) (by decide) (by decide) (by decide)),
    (h c _ (mem_uc main_arg5 (by decide))).trans (W8_kept m ρ c main_arg5 (by decide) (by decide) (by decide) (by decide) (by decide) (by decide) (by decide) (by decide)),
    (h c _ (mem_uc main_arg6 (by decide))).trans (W8_kept m ρ c main_arg6 (by decide) (by decide) (by decide) (by decide) (by decide) (by decide) (by decide) (by decide)),
    (h c _ (mem_uc main_arg7 (by decide))).trans (W8_kept m ρ c main_arg7 (by decide) (by decide) (by decide) (by decide) (by decide) (by decide) (by decide) (by decide)),
    (h c _ (mem_uc main_arg8 (by decide))).trans (W8_kept m ρ c main_arg8 (by decide) (by decide) (by decide) (by decide) (by decide) (by decide) (by decide) (by decide)),
    (h c _ (mem_uc main_arg9 (by decide))).trans (W8_kept m ρ c main_arg9 (by decide) (by decide) (by decide) (by decide) (by decide) (by decide) (by decide) (by decide)),
    (h c _ (mem_uc main_arg10 (by decide))).trans (W8_kept m ρ c main_arg10 (by decide) (by decide) (by decide) (by decide) (by decide) (by decide) (by decide) (by decide)),
    (h c _ (mem_uc main_arg11 (by decide))).trans (W8_kept m ρ c main_arg11 (by decide) (by decide) (by decide) (by decide) (by decide) (by decide) (by decide) (by decide)),
    (h c _ (mem_uc main_arg12 (by decide))).trans (W8_kept m ρ c main_arg12 (by decide) (by decide) (by decide) (by decide) (by decide) (by decide) (by decide) (by decide)),
    (h c _ (mem_uc main_arg13 (by decide))).trans (W8_kept m ρ c main_arg13 (by decide) (by decide) (by decide) (by decide) (by decide) (by decide) (by decide) (by decide))⟩) (run_all m ρ)

end Cert.KernelIdeal.Hand
end
-- ==== Proof.KI.KGlue.lean ====
/-
  The pieces every layer of the kernel program shares, as the program's own host terms at the exact values.

  Before each kernel region the program's host operations recompute the same things from the edge list: the column of
  source nodes (row 0 of the list, an entry below zero moved up by the node count), the column of destination nodes
  (row 1, as it is), and, once, the clamped in-degree (a one per edge added up at its destination from zero, then the
  maximum with one) and its reciprocal as a one-column array.  A layer's neighbour sums are the features gathered at
  the sources and added up at the destinations from zero.  Gathers and scatter-additions stay opaque here.
-/
import proofs.«165607_j15298673509107_2_alg».proof.Proof.Gen.KernelIdeal
import Idealize.ShloMosaic.Lib.ValueIdx
import Idealize.ShloMosaic.PureOps.Ideal.Laws

noncomputable section

namespace Cert.KernelIdeal.HandValue

open Cert.KernelIdeal Cert.KernelIdeal.Gen Idealize.ShloMosaic Idealize.ShloMosaic.TcCoe Idealize.SL.Sem Idealize.ShloMosaic.StableHlo
open Idealize.ShloMosaic.ValueIdx

/-- The column of source nodes: row 0 of the edge list, an entry below zero moved up by the node count. -/
def srcColK (ei : IVec S2x1600000 32) : IVec S1600000x1 32 :=
  broadcastInDim S1600000x1 ![0] bcast_S1600000_S1600000x1_0
    (select
      (cmpi .slt
        (shapeCast S1600000 (extractStridedSlice S1x1600000 ![0, 0] ei slices_S2x1600000_S1x1600000_0_0) shapeCasts_S1x1600000_S1600000)
        (broadcastInDim S1600000 ![] bcast_S_S1600000 (constantI S_ 32 0#32)))
      (addi
        (shapeCast S1600000 (extractStridedSlice S1x1600000 ![0, 0] ei slices_S2x1600000_S1x1600000_0_0) shapeCasts_S1x1600000_S1600000)
        (broadcastInDim S1600000 ![] bcast_S_S1600000 (constantI S_ 32 100000#32)))
      (shapeCast S1600000 (extractStridedSlice S1x1600000 ![0, 0] ei slices_S2x1600000_S1x1600000_0_0) shapeCasts_S1x1600000_S1600000))

/-- The column of destination nodes: row 1 of the edge list, as it is. -/
def dstColK (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- Neighbour sums of 64-wide features: the rows gathered at the sources, added up at the destinations from zero. -/
def aggK0 (ei : IVec S2x1600000 32) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (dstColK ei)
    (Host.gather gather_S100000x64_S1600000x1_S1600000x64_1_0_n_n_0_1_164 h (srcColK ei))

/-- Neighbour sums of 32-wide features. -/
def aggK (ei : IVec S2x1600000 32) (h : FVec Ideal S100000x32 .f32) : FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32))
    (dstColK ei)
    (Host.gather gather_S100000x32_S1600000x1_S1600000x32_1_0_n_n_0_1_132 h (srcColK ei))

/-- The clamped in-degree: a one per edge added up at its destination from zero, then the maximum with one. -/
def dclK (ei : IVec S2x1600000 32) : FVec Ideal S100000 .f32 :=
  maximumf
    (Host.scatterAdd (F := Ideal) scatter_S100000_S1600000x1_S1600000_n_0_0_1
      (broadcastInDim S100000 ![] bcast_S_S100000 (constant (F := Ideal) S_ .f32 0x00000000#32))
      (dstColK ei)
      (broadcastInDim S1600000 ![] bcast_S_S1600000 (constant (F := Ideal) S_ .f32 0x3F800000#32)))
    (broadcastInDim S100000 ![] bcast_S_S100000 (constant (F := Ideal) S_ .f32 0x3F800000#32))

/-- The reciprocal of the clamped in-degree, one divided by it entry by entry, as a one-column array. -/
def ncolK (ei : IVec S2x1600000 32) : FVec Ideal S100000x1 .f32 :=
  shapeCast S100000x1
    (Host.divf (F := Ideal) (broadcastInDim S100000 ![] bcast_S_S100000 (constant (F := Ideal) S_ .f32 0x3F800000#32)) (dclK ei))
    shapeCasts_S100000_S100000x1

end Cert.KernelIdeal.HandValue

end
-- ==== Proof.KI.Reads0.lean ====
/-
  What region 0 of the kernel program finds in its input arrays, at the exact values, as terms over the launch arrays.

  Region 0 is entered after the first stretch of host operations: its neighbour-sum array holds the 64-wide sums of the
  launched features, its column array the reciprocal clamped in-degrees, its feature array the launched features, its
  weight and bias arrays the launched layer-0 parameters transposed and viewed as a row.  Each fact is the stretch's
  operations read back from the array to the launch contents, one operation at a time: an operation's result is its
  function of its operands' contents.
-/
import proofs.«165607_j15298673509107_2_alg».proof.Proof.KI.Bound
import proofs.«165607_j15298673509107_2_alg».proof.Proof.KI.KGlue
import Idealize.ShloMosaic.Lib.StableHlo.Run

set_option maxRecDepth 16384
set_option Elab.async false

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch

Each array the first stretch computes, read back to the launch contents one operation at a time: an operation's result
is its function of its operands' contents, whatever those are. -/

/-- Row 0 of the edge list as a vector. -/
theorem w1_row0 : (W1 m ρ c (Proc.devRef .tc main_call0_v1) : IVec S1600000 32)
    = shapeCast S1600000 (extractStridedSlice S1x1600000 ![0, 0] (m ((c.tc : Thread nD τ).loc main_arg1)) slices_S2x1600000_S1x1600000_0_0) shapeCasts_S1x1600000_S1600000 := by
  dsimp only [W1, hostOps0]; after_results_simp; rfl

/-- Row 1 of the edge list as a vector. -/
theorem w1_row1 : (W1 m ρ c (Proc.devRef .tc main_call0_v3) : IVec S1600000 32)
    = shapeCast S1600000 (extractStridedSlice S1x1600000 ![1, 0] (m ((c.tc : Thread nD τ).loc main_arg1)) slices_S2x1600000_S1x1600000_1_0) shapeCasts_S1x1600000_S1600000 := by
  dsimp only [W1, hostOps0]; after_results_simp; rfl

/-- A launch array the first stretch does not write is as launched. -/
theorem w1_arg (b : Ref sig .tc) (h : b ∉ hostOps0_W) : W1 m ρ c (Proc.devRef .tc b) = m ((c.tc : Thread nD τ).loc b) :=
  (StableHlo.after_of_writes_sub hostOps0 _ hostOps0_writes h).trans rfl

/-- The in-degree before the clamp: a one per edge added up at its destination from zero. -/
theorem w1_deg : (W1 m ρ c (Proc.devRef .tc main_call0_v7) : S100000.Idx → EReal)
    = Host.scatterAdd (F := Ideal) scatter_S100000_S1600000x1_S1600000_n_0_0_1
      (broadcastInDim S100000 ![] bcast_S_S100000 (constant (F := Ideal) S_ .f32 0x00000000#32))
      (dstColK (m ((c.tc : Thread nD τ).loc main_arg1)))
      (broadcastInDim S1600000 ![] bcast_S_S1600000 (constant (F := Ideal) S_ .f32 0x3F800000#32)) := by
  dsimp only [W1, hostOps0]; after_results_simp; rfl

theorem w1_one8 : (W1 m ρ c (Proc.devRef .tc main_call0_v8) : S100000.Idx → EReal) = (broadcastInDim S100000 ![] bcast_S_S100000 (constant (F := Ideal) S_ .f32 0x3F800000#32)) := by
  dsimp only [W1, hostOps0]; after_results_simp; rfl

theorem w1_one10 : (W1 m ρ c (Proc.devRef .tc main_call0_v10) : S100000.Idx → EReal) = (broadcastInDim S100000 ![] bcast_S_S100000 (constant (F := Ideal) S_ .f32 0x3F800000#32)) := by
  dsimp only [W1, hostOps0]; after_results_simp; rfl

theorem w1_clamp_step : (W1 m ρ c (Proc.devRef .tc main_call0_v9) : S100000.Idx → EReal)
    = (maximumf (F := Ideal) (W1 m ρ c (Proc.devRef .tc main_call0_v7) : FVec Ideal S100000 .f32) (W1 m ρ c (Proc.devRef .tc main_call0_v8) : FVec Ideal S100000 .f32) : FVec Ideal S100000 .f32) := by
  dsimp only [W1, hostOps0]; after_results_simp; rfl

/-- The clamped in-degree. -/
theorem w1_dcl : (W1 m ρ c (Proc.devRef .tc main_call0_v9) : S100000.Idx → EReal) = dclK (m ((c.tc : Thread nD τ).loc main_arg1)) := by
  rw [w1_clamp_step, w1_deg, w1_one8]; rfl

theorem w1_recip_step : (W1 m ρ c (Proc.devRef .tc main_call0_v11) : S100000.Idx → EReal)
    = (Host.divf (F := Ideal) (W1 m ρ c (Proc.devRef .tc main_call0_v10) : FVec Ideal S100000 .f32) (W1 m ρ c (Proc.devRef .tc main_call0_v9) : FVec Ideal S100000 .f32) : FVec Ideal S100000 .f32) := by
  dsimp only [W1, hostOps0]; after_results_simp; rfl

theorem w1_col_step : (W1 m ρ c (Proc.devRef .tc main_call0_v12) : S100000x1.Idx → EReal)
    = (shapeCast S100000x1 (W1 m ρ c (Proc.devRef .tc main_call0_v11) : FVec Ideal S100000 .f32) shapeCasts_S100000_S100000x1 : FVec Ideal S100000x1 .f32) := by
  dsimp only [W1, hostOps0]; after_results_simp; rfl

/-- The reciprocal clamped in-degrees, as a column. -/
theorem w1_ncol : (W1 m ρ c (Proc.devRef .tc main_call0_v12) : S100000x1.Idx → EReal) = ncolK (m ((c.tc : Thread nD τ).loc main_arg1)) := by
  rw [w1_col_step, w1_recip_step, w1_one10, w1_dcl]; rfl

/-- The wrapped source column. -/
theorem w1_src : (W1 m ρ c (Proc.devRef .tc main_call0_v18) : IVec S1600000x1 32) = srcColK (m ((c.tc : Thread nD τ).loc main_arg1)) := by
  dsimp only [W1, hostOps0]; after_results_simp; rfl

/-- The destination column, as the neighbour sums' scatter reads it. -/
theorem w1_dst21 : (W1 m ρ c (Proc.devRef .tc main_call0_v21) : IVec S1600000x1 32) = dstColK (m ((c.tc : Thread nD τ).loc main_arg1)) := by
  dsimp only [W1, hostOps0]; after_results_simp; rfl

theorem w1_zero20 : (W1 m ρ c (Proc.devRef .tc main_call0_v20) : S100000x64.Idx → EReal)
    = broadcastInDim S100000x64 ![] bcast_S_S100000x64 (constant (F := Ideal) S_ .f32 0x00000000#32) := by
  dsimp only [W1, hostOps0]; after_results_simp; rfl

theorem w1_gather_step : (W1 m ρ c (Proc.devRef .tc main_call0_v19) : S1600000x64.Idx → EReal)
    = (Host.gather gather_S100000x64_S1600000x1_S1600000x64_1_0_n_n_0_1_164 (W1 m ρ c (Proc.devRef .tc main_arg0) : FVec Ideal S100000x64 .f32) (W1 m ρ c (Proc.devRef .tc main_call0_v18) : IVec S1600000x1 32) : FVec Ideal S1600000x64 .f32) := by
  dsimp only [W1, hostOps0]; after_results_simp; rfl

theorem w1_sum_step : (W1 m ρ c (Proc.devRef .tc main_call0_v22) : S100000x64.Idx → EReal)
    = (Host.scatterAdd (F := Ideal) scatter_S100000x64_S1600000x1_S1600000x64_1_0_0_1 (W1 m ρ c (Proc.devRef .tc main_call0_v20) : FVec Ideal S100000x64 .f32) (W1 m ρ c (Proc.devRef .tc main_call0_v21) : IVec S1600000x1 32) (W1 m ρ c (Proc.devRef .tc main_call0_v19) : FVec Ideal S1600000x64 .f32) : FVec Ideal S100000x64 .f32) := by
  dsimp only [W1, hostOps0]; after_results_simp; rfl

/-! ## Region 0's inputs -/

/-- The neighbour-sum array: the 64-wide sums of the launched features. -/
theorem reads1_s : (V1 m ρ c main_call0_v22 : S100000x64.Idx → EReal) = aggK0 (m ((c.tc : Thread nD τ).loc main_arg1)) (m ((c.tc : Thread nD τ).loc main_arg0)) := by
  show (W1 m ρ c (Proc.devRef .tc main_call0_v22) : S100000x64.Idx → EReal) = _
  rw [w1_sum_step, w1_zero20, w1_dst21, w1_gather_step, w1_src, w1_arg m ρ c main_arg0 (by decide)]; rfl

/-- The column array: the reciprocal clamped in-degrees. -/
theorem reads1_n : (V1 m ρ c main_call0_v12 : S100000x1.Idx → EReal) = ncolK (m ((c.tc : Thread nD τ).loc main_arg1)) := w1_ncol m ρ c

/-- The feature array: the launched features. -/
theorem reads1_h : (V1 m ρ c main_arg0 : S100000x64.Idx → EReal) = (m ((c.tc : Thread nD τ).loc main_arg0)) := w1_arg m ρ c main_arg0 (by decide)

/-- The parameters of layer 0: each weight matrix input-axis first, the bias as a row. -/
theorem reads1_wl : (V1 m ρ c main_call0_v23 : S64x32.Idx → EReal) = transpose S64x32 [1, 0] (m ((c.tc : Thread nD τ).loc main_arg2)) transposes_S32x64_S64x32_1_0 := by
  dsimp only [Hand.V1, W1, hostOps0]; after_results_simp; rfl

theorem reads1_b : (V1 m ρ c main_call0_v25 : S1x32.Idx → EReal) = shapeCast S1x32 (m ((c.tc : Thread nD τ).loc main_arg3)) shapeCasts_S32_S1x32 := by
  dsimp only [Hand.V1, W1, hostOps0]; after_results_simp; rfl

theorem reads1_wr : (V1 m ρ c main_call0_v24 : S64x32.Idx → EReal) = transpose S64x32 [1, 0] (m ((c.tc : Thread nD τ).loc main_arg4)) transposes_S32x64_S64x32_1_0 := by
  dsimp only [Hand.V1, W1, hostOps0]; after_results_simp; rfl

end Cert.KernelIdeal.HandValue

end
-- ==== Proof.KI.Reads01.lean ====
/-
  What region 1 of the kernel program finds in its input arrays, at the exact values, as terms over the launch arrays
  and region 0's output.

  Region 1 is entered after region 0 (which changes its own output array only) and the second stretch of host
  operations.  The stretch recomputes the wrapped source column and the destination column from the edge rows the first
  stretch left, gathers region 0's output at the sources and adds the rows up at the destinations from zero; it
  transposes layer 1's weight matrices and views its bias as a row.  So region 1's neighbour-sum array holds the 32-wide
  sums of region 0's output, its column array is still the first stretch's reciprocal clamped in-degrees (nothing wrote
  it since), its feature array (read by two windows) is region 0's output, its parameters are layer 1's.  The stretch's
  results are first read over ANY contents at its entry, then at the contents region 0 leaves.
-/
import proofs.«165607_j15298673509107_2_alg».proof.Proof.KI.Reads0
import Idealize.ShloMosaic.Lib.StableHlo.Run

set_option maxRecDepth 16384
set_option Elab.async false

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The second stretch, over any entry contents -/

section Stretch
variable (V : Valuation τ sig (Elt Ideal))

set_option maxHeartbeats 4000000 in
/-- Its neighbour sums: the rows of `main_call0_v26` gathered at the wrapped sources (from the row in `main_call0_v1`),
    added up at the destinations (the row in `main_call0_v3`) from zero. -/
theorem h1_sum : (StableHlo.after hostOps1 V (Proc.devRef .tc main_call0_v36) : S100000x32.Idx → EReal)
    = Host.scatterAdd (F := Ideal) scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0 (V (Proc.devRef .tc main_call0_v3) : IVec S1600000 32))
      (Host.gather gather_S100000x32_S1600000x1_S1600000x32_1_0_n_n_0_1_132 (V (Proc.devRef .tc main_call0_v26) : FVec Ideal S100000x32 .f32)
        (broadcastInDim S1600000x1 ![0] bcast_S1600000_S1600000x1_0
          (select
            (cmpi .slt (V (Proc.devRef .tc main_call0_v1) : IVec S1600000 32) (broadcastInDim S1600000 ![] bcast_S_S1600000 (constantI S_ 32 0#32)))
            (addi (V (Proc.devRef .tc main_call0_v1) : IVec S1600000 32) (broadcastInDim S1600000 ![] bcast_S_S1600000 (constantI S_ 32 100000#32)))
            (V (Proc.devRef .tc main_call0_v1) : IVec S1600000 32)))) := by
  dsimp only [hostOps1]; after_results; rfl

theorem h1_wl : (StableHlo.after hostOps1 V (Proc.devRef .tc main_call0_v37) : S32x32.Idx → EReal)
    = transpose S32x32 [1, 0] (V (Proc.devRef .tc main_arg5) : FVec Ideal S32x32 .f32) transposes_S32x32_S32x32_1_0 := by
  dsimp only [hostOps1]; after_results; rfl

theorem h1_b : (StableHlo.after hostOps1 V (Proc.devRef .tc main_call0_v39) : S1x32.Idx → EReal)
    = shapeCast S1x32 (V (Proc.devRef .tc main_arg6) : FVec Ideal S32 .f32) shapeCasts_S32_S1x32 := by
  dsimp only [hostOps1]; after_results; rfl

theorem h1_wr : (StableHlo.after hostOps1 V (Proc.devRef .tc main_call0_v38) : S32x32.Idx → EReal)
    = transpose S32x32 [1, 0] (V (Proc.devRef .tc main_arg7) : FVec Ideal S32x32 .f32) transposes_S32x32_S32x32_1_0 := by
  dsimp only [hostOps1]; after_results; rfl

end Stretch

/-! ## After region 0

Region 0 changes its own output array only, so the edge rows and the column of reciprocals are still the first
stretch's, and a launch array is still as launched. -/

theorem w2_row0 : (W2 m ρ c (Proc.devRef .tc main_call0_v1) : IVec S1600000 32)
    = shapeCast S1600000 (extractStridedSlice S1x1600000 ![0, 0] (m ((c.tc : Thread nD τ).loc main_arg1)) slices_S2x1600000_S1x1600000_0_0) shapeCasts_S1x1600000_S1600000 :=
  (W2_of_ne m ρ c main_call0_v1 (by decide)).trans (w1_row0 m ρ c)

theorem w2_row1 : (W2 m ρ c (Proc.devRef .tc main_call0_v3) : IVec S1600000 32)
    = shapeCast S1600000 (extractStridedSlice S1x1600000 ![1, 0] (m ((c.tc : Thread nD τ).loc main_arg1)) slices_S2x1600000_S1x1600000_1_0) shapeCasts_S1x1600000_S1600000 :=
  (W2_of_ne m ρ c main_call0_v3 (by decide)).trans (w1_row1 m ρ c)

theorem w2_arg (b : Ref sig .tc) (h : b ∉ hostOps0_W) (hb : b ≠ main_call0_v26) :
    W2 m ρ c (Proc.devRef .tc b) = m ((c.tc : Thread nD τ).loc b) :=
  (W2_of_ne m ρ c b hb).trans (w1_arg m ρ c b h)

/-! ## Region 1's inputs -/

/-- The neighbour-sum array: the 32-wide sums of region 0's output. -/
theorem reads3_s : (V3 m ρ c main_call0_v36 : S100000x32.Idx → EReal) = aggK (m ((c.tc : Thread nD τ).loc main_arg1)) (V2 m ρ c main_call0_v26) := by
  show (StableHlo.after hostOps1 (W2 m ρ c) (Proc.devRef .tc main_call0_v36) : S100000x32.Idx → EReal) = _
  rw [h1_sum, w2_row0, w2_row1]; rfl

/-- The column array: nothing wrote it since the first stretch. -/
theorem reads3_n : (V3 m ρ c main_call0_v12 : S100000x1.Idx → EReal) = ncolK (m ((c.tc : Thread nD τ).loc main_arg1)) :=
  (StableHlo.after_of_writes_sub hostOps1 _ hostOps1_writes (by decide : main_call0_v12 ∉ hostOps1_W)).trans
    ((W2_of_ne m ρ c main_call0_v12 (by decide)).trans (w1_ncol m ρ c))

/-- The feature array (read by two windows): region 0's output, which the second stretch does not write. -/
theorem reads3_h : (V3 m ρ c main_call0_v26 : S100000x32.Idx → EReal) = V2 m ρ c main_call0_v26 :=
  StableHlo.after_of_writes_sub hostOps1 _ hostOps1_writes (by decide : main_call0_v26 ∉ hostOps1_W)

/-- The parameters of layer 1: each weight matrix input-axis first, the bias as a row. -/
theorem reads3_wl : (V3 m ρ c main_call0_v37 : S32x32.Idx → EReal) = transpose S32x32 [1, 0] (m ((c.tc : Thread nD τ).loc main_arg5)) transposes_S32x32_S32x32_1_0 := by
  show (StableHlo.after hostOps1 (W2 m ρ c) (Proc.devRef .tc main_call0_v37) : S32x32.Idx → EReal) = _
  rw [h1_wl, w2_arg m ρ c main_arg5 (by decide) (by decide)]

theorem reads3_b : (V3 m ρ c main_call0_v39 : S1x32.Idx → EReal) = shapeCast S1x32 (m ((c.tc : Thread nD τ).loc main_arg6)) shapeCasts_S32_S1x32 := by
  show (StableHlo.after hostOps1 (W2 m ρ c) (Proc.devRef .tc main_call0_v39) : S1x32.Idx → EReal) = _
  rw [h1_b, w2_arg m ρ c main_arg6 (by decide) (by decide)]

theorem reads3_wr : (V3 m ρ c main_call0_v38 : S32x32.Idx → EReal) = transpose S32x32 [1, 0] (m ((c.tc : Thread nD τ).loc main_arg7)) transposes_S32x32_S32x32_1_0 := by
  show (StableHlo.after hostOps1 (W2 m ρ c) (Proc.devRef .tc main_call0_v38) : S32x32.Idx → EReal) = _
  rw [h1_wr, w2_arg m ρ c main_arg7 (by decide) (by decide)]

end Cert.KernelIdeal.HandValue

end
-- ==== Proof.KI.Reads23.lean ====
/-
  What regions 2 and 3 of the kernel program find in their input arrays, at the exact values, as terms over the launch
  arrays and the previous region's output.

  Each of the last two stretches of host operations recomputes the wrapped source column and the destination column
  from the two rows of the edge list the first stretch left (nothing wrote them since), gathers the previous region's
  output at the sources and adds it up at the destinations from zero, transposes the layer's two weight matrices and
  views its bias vector as a one-row array.  The reciprocal column of the clamped in-degrees is still the first
  stretch's, and the launch arrays are as launched: a region changes only its own output array, and each stretch writes
  only its own results.
-/
import proofs.«165607_j15298673509107_2_alg».proof.Proof.KI.Bound
import proofs.«165607_j15298673509107_2_alg».proof.Proof.KI.KGlue
import proofs.«165607_j15298673509107_2_alg».proof.Proof.KI.Reads0
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

/-! ## What a stretch computes, over any entry contents -/

set_option maxHeartbeats 4000000 in
/-- Stretch 2's neighbour sums, over any entry contents: the features at `main_call0_v40` gathered along the wrapped row 0
    of the edge list and added up along row 1. -/
theorem ops2_s (V : Valuation τ sig (Elt Ideal)) :
    (StableHlo.after hostOps2 V (Proc.devRef .tc main_call0_v50) : S100000x32.Idx → EReal)
      = Host.scatterAdd (F := Ideal) scatter_S100000x32_S1600000x1_S1600000x32_1_0_0_1
          (broadcastInDim S100000x32 ![] bcast_S_S100000x32 (constant (F := Ideal) S_ .f32 0x00000000#32))
          (broadcastInDim S1600000x1 ![0] bcast_S1600000_S1600000x1_0 (V (Proc.devRef .tc main_call0_v3)))
          (Host.gather gather_S100000x32_S1600000x1_S1600000x32_1_0_n_n_0_1_132 (V (Proc.devRef .tc main_call0_v40))
            (broadcastInDim S1600000x1 ![0] bcast_S1600000_S1600000x1_0
              (select
                (cmpi .slt (V (Proc.devRef .tc main_call0_v1)) (broadcastInDim S1600000 ![] bcast_S_S1600000 (constantI S_ 32 0#32)))
                (addi (V (Proc.devRef .tc main_call0_v1)) (broadcastInDim S1600000 ![] bcast_S_S1600000 (constantI S_ 32 100000#32)))
                (V (Proc.devRef .tc main_call0_v1))))) := by
  dsimp only [hostOps2]
  after_results
  rfl

theorem ops2_wl (V : Valuation τ sig (Elt Ideal)) :
    (StableHlo.after hostOps2 V (Proc.devRef .tc main_call0_v51) : S32x32.Idx → EReal)
      = transpose S32x32 [1, 0] (V (Proc.devRef .tc main_arg8)) transposes_S32x32_S32x32_1_0 := by
  dsimp only [hostOps2]
  after_results
  rfl

theorem ops2_wr (V : Valuation τ sig (Elt Ideal)) :
    (StableHlo.after hostOps2 V (Proc.devRef .tc main_call0_v52) : S32x32.Idx → EReal)
      = transpose S32x32 [1, 0] (V (Proc.devRef .tc main_arg10)) transposes_S32x32_S32x32_1_0 := by
  dsimp only [hostOps2]
  after_results
  rfl

theorem ops2_b (V : Valuation τ sig (Elt Ideal)) :
    (StableHlo.after hostOps2 V (Proc.devRef .tc main_call0_v53) : S1x32.Idx → EReal)
      = shapeCast S1x32 (V (Proc.devRef .tc main_arg9)) shapeCasts_S32_S1x32 := by
  dsimp only [hostOps2]
  after_results
  rfl

set_option maxHeartbeats 4000000 in
/-- Stretch 3's neighbour sums, over any entry contents: the features at `main_call0_v54` gathered along the wrapped row 0
    of the edge list and added up along row 1. -/
theorem ops3_s (V : Valuation τ sig (Elt Ideal)) :
    (StableHlo.after hostOps3 V (Proc.devRef .tc main_call0_v64) : S100000x32.Idx → EReal)
      = Host.scatterAdd (F := Ideal) scatter_S100000x32_S1600000x1_S1600000x32_1_0_0_1
          (broadcastInDim S100000x32 ![] bcast_S_S100000x32 (constant (F := Ideal) S_ .f32 0x00000000#32))
          (broadcastInDim S1600000x1 ![0] bcast_S1600000_S1600000x1_0 (V (Proc.devRef .tc main_call0_v3)))
          (Host.gather gather_S100000x32_S1600000x1_S1600000x32_1_0_n_n_0_1_132 (V (Proc.devRef .tc main_call0_v54))
            (broadcastInDim S1600000x1 ![0] bcast_S1600000_S1600000x1_0
              (select
                (cmpi .slt (V (Proc.devRef .tc main_call0_v1)) (broadcastInDim S1600000 ![] bcast_S_S1600000 (constantI S_ 32 0#32)))
                (addi (V (Proc.devRef .tc main_call0_v1)) (broadcastInDim S1600000 ![] bcast_S_S1600000 (constantI S_ 32 100000#32)))
                (V (Proc.devRef .tc main_call0_v1))))) := by
  dsimp only [hostOps3]
  after_results
  rfl

theorem ops3_wl (V : Valuation τ sig (Elt Ideal)) :
    (StableHlo.after hostOps3 V (Proc.devRef .tc main_call0_v65) : S32x32.Idx → EReal)
      = transpose S32x32 [1, 0] (V (Proc.devRef .tc main_arg11)) transposes_S32x32_S32x32_1_0 := by
  dsimp only [hostOps3]
  after_results
  rfl

theorem ops3_wr (V : Valuation τ sig (Elt Ideal)) :
    (StableHlo.after hostOps3 V (Proc.devRef .tc main_call0_v66) : S32x32.Idx → EReal)
      = transpose S32x32 [1, 0] (V (Proc.devRef .tc main_arg13)) transposes_S32x32_S32x32_1_0 := by
  dsimp only [hostOps3]
  after_results
  rfl

theorem ops3_b (V : Valuation τ sig (Elt Ideal)) :
    (StableHlo.after hostOps3 V (Proc.devRef .tc main_call0_v67) : S1x32.Idx → EReal)
      = shapeCast S1x32 (V (Proc.devRef .tc main_arg12)) shapeCasts_S32_S1x32 := by
  dsimp only [hostOps3]
  after_results
  rfl

variable (m : (ℓ : Loc nD τ sig) → Buf (Elt Ideal) ℓ) (ρ : Dev nD → PrngReg) (c : Dev nD)

/-! ## What passes the earlier regions and stretches unchanged -/

/-- A reference that region 0, the second stretch and region 1 all leave alone holds, entering the third stretch, what
    the first stretch left. -/
theorem w4_of_w1 (b : Ref sig .tc) (n0 : b ≠ main_call0_v26) (h1 : b ∉ hostOps1_W) (n1 : b ≠ main_call0_v40) :
    W4 m ρ c (Proc.devRef .tc b) = W1 m ρ c (Proc.devRef .tc b) :=
  (W4_of_ne m ρ c b n1).trans <| (StableHlo.after_of_writes_sub hostOps1 _ hostOps1_writes h1).trans (W2_of_ne m ρ c b n0)

/-- The same two steps further on: entering the fourth stretch. -/
theorem w6_of_w1 (b : Ref sig .tc) (n0 : b ≠ main_call0_v26) (h1 : b ∉ hostOps1_W) (n1 : b ≠ main_call0_v40)
    (h2 : b ∉ hostOps2_W) (n2 : b ≠ main_call0_v54) :
    W6 m ρ c (Proc.devRef .tc b) = W1 m ρ c (Proc.devRef .tc b) :=
  (W6_of_ne m ρ c b n2).trans <| (StableHlo.after_of_writes_sub hostOps2 _ hostOps2_writes h2).trans (w4_of_w1 m ρ c b n0 h1 n1)

/-! ## Region 2's inputs -/

/-- The neighbour sums region 2 finds: the 32-wide sums of the previous region's output. -/
theorem reads5_s : (V5 m ρ c main_call0_v50 : S100000x32.Idx → EReal)
    = aggK (m ((c.tc : Thread nD τ).loc main_arg1)) (V4 m ρ c main_call0_v40) := by
  show StableHlo.after hostOps2 (W4 m ρ c) (Proc.devRef .tc main_call0_v50) = _
  rw [ops2_s, w4_of_w1 m ρ c main_call0_v1 (by decide) (by decide) (by decide), w4_of_w1 m ρ c main_call0_v3 (by decide) (by decide) (by decide), w1_row0, w1_row1]
  rfl

/-- The reciprocal column is still the first stretch's: nothing wrote it since. -/
theorem reads5_n : (V5 m ρ c main_call0_v12 : S100000x1.Idx → EReal) = ncolK (m ((c.tc : Thread nD τ).loc main_arg1)) :=
  (StableHlo.after_of_writes_sub hostOps2 _ hostOps2_writes (by decide : main_call0_v12 ∉ hostOps2_W)).trans
    ((w4_of_w1 m ρ c main_call0_v12 (by decide) (by decide) (by decide)).trans (w1_ncol m ρ c))

/-- The features are the previous region's output, which the stretch does not write. -/
theorem reads5_h : (V5 m ρ c main_call0_v40 : S100000x32.Idx → EReal) = V4 m ρ c main_call0_v40 :=
  StableHlo.after_of_writes_sub hostOps2 _ hostOps2_writes (by decide : main_call0_v40 ∉ hostOps2_W)

theorem reads5_wl : (V5 m ρ c main_call0_v51 : S32x32.Idx → EReal)
    = transpose S32x32 [1, 0] (m ((c.tc : Thread nD τ).loc main_arg8)) transposes_S32x32_S32x32_1_0 := by
  show StableHlo.after hostOps2 (W4 m ρ c) (Proc.devRef .tc main_call0_v51) = _
  rw [ops2_wl, w4_of_w1 m ρ c main_arg8 (by decide) (by decide) (by decide), w1_arg m ρ c main_arg8 (by decide)]

theorem reads5_b : (V5 m ρ c main_call0_v53 : S1x32.Idx → EReal)
    = shapeCast S1x32 (m ((c.tc : Thread nD τ).loc main_arg9)) shapeCasts_S32_S1x32 := by
  show StableHlo.after hostOps2 (W4 m ρ c) (Proc.devRef .tc main_call0_v53) = _
  rw [ops2_b, w4_of_w1 m ρ c main_arg9 (by decide) (by decide) (by decide), w1_arg m ρ c main_arg9 (by decide)]

theorem reads5_wr : (V5 m ρ c main_call0_v52 : S32x32.Idx → EReal)
    = transpose S32x32 [1, 0] (m ((c.tc : Thread nD τ).loc main_arg10)) transposes_S32x32_S32x32_1_0 := by
  show StableHlo.after hostOps2 (W4 m ρ c) (Proc.devRef .tc main_call0_v52) = _
  rw [ops2_wr, w4_of_w1 m ρ c main_arg10 (by decide) (by decide) (by decide), w1_arg m ρ c main_arg10 (by decide)]

/-! ## Region 3's inputs -/

/-- The neighbour sums region 3 finds: the 32-wide sums of the previous region's output. -/
theorem reads7_s : (V7 m ρ c main_call0_v64 : S100000x32.Idx → EReal)
    = aggK (m ((c.tc : Thread nD τ).loc main_arg1)) (V6 m ρ c main_call0_v54) := by
  show StableHlo.after hostOps3 (W6 m ρ c) (Proc.devRef .tc main_call0_v64) = _
  rw [ops3_s, w6_of_w1 m ρ c main_call0_v1 (by decide) (by decide) (by decide) (by decide) (by decide), w6_of_w1 m ρ c main_call0_v3 (by decide) (by decide) (by decide) (by decide) (by decide), w1_row0, w1_row1]
  rfl

/-- The reciprocal column is still the first stretch's: nothing wrote it since. -/
theorem reads7_n : (V7 m ρ c main_call0_v12 : S100000x1.Idx → EReal) = ncolK (m ((c.tc : Thread nD τ).loc main_arg1)) :=
  (StableHlo.after_of_writes_sub hostOps3 _ hostOps3_writes (by decide : main_call0_v12 ∉ hostOps3_W)).trans
    ((w6_of_w1 m ρ c main_call0_v12 (by decide) (by decide) (by decide) (by decide) (by decide)).trans (w1_ncol m ρ c))

/-- The features are the previous region's output, which the stretch does not write. -/
theorem reads7_h : (V7 m ρ c main_call0_v54 : S100000x32.Idx → EReal) = V6 m ρ c main_call0_v54 :=
  StableHlo.after_of_writes_sub hostOps3 _ hostOps3_writes (by decide : main_call0_v54 ∉ hostOps3_W)

theorem reads7_wl : (V7 m ρ c main_call0_v65 : S32x32.Idx → EReal)
    = transpose S32x32 [1, 0] (m ((c.tc : Thread nD τ).loc main_arg11)) transposes_S32x32_S32x32_1_0 := by
  show StableHlo.after hostOps3 (W6 m ρ c) (Proc.devRef .tc main_call0_v65) = _
  rw [ops3_wl, w6_of_w1 m ρ c main_arg11 (by decide) (by decide) (by decide) (by decide) (by decide), w1_arg m ρ c main_arg11 (by decide)]

theorem reads7_b : (V7 m ρ c main_call0_v67 : S1x32.Idx → EReal)
    = shapeCast S1x32 (m ((c.tc : Thread nD τ).loc main_arg12)) shapeCasts_S32_S1x32 := by
  show StableHlo.after hostOps3 (W6 m ρ c) (Proc.devRef .tc main_call0_v67) = _
  rw [ops3_b, w6_of_w1 m ρ c main_arg12 (by decide) (by decide) (by decide) (by decide) (by decide), w1_arg m ρ c main_arg12 (by decide)]

theorem reads7_wr : (V7 m ρ c main_call0_v66 : S32x32.Idx → EReal)
    = transpose S32x32 [1, 0] (m ((c.tc : Thread nD τ).loc main_arg13)) transposes_S32x32_S32x32_1_0 := by
  show StableHlo.after hostOps3 (W6 m ρ c) (Proc.devRef .tc main_call0_v66) = _
  rw [ops3_wr, w6_of_w1 m ρ c main_arg13 (by decide) (by decide) (by decide) (by decide) (by decide), w1_arg m ρ c main_arg13 (by decide)]

end Cert.KernelIdeal.HandValue

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«165607_j15298673509107_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibDenseLayer.lean ====
/-
  One dense layer (two matrix products sharing an output, plus a bias row), entry by entry; generic in the extents.

  A layer takes the neighbourhood means `a` and the nodes' own features `x` (both N × K), two K × D weight matrices
  and a bias row, and gives the N × D array whose entry (n, j) is

      Σ_k a(n,k) · wl(k,j)  +  Σ_k x(n,k) · wr(k,j)  +  b(j).

  The two programs group this sum differently: one adds the bias after both products, the other between them.
  Addition of extended reals is commutative and associative without any finiteness assumption, so the two groupings
  agree everywhere.
-/
import Idealize.ShloMosaic.PureOps.Ideal.Laws
import Idealize.ShloMosaic.Lib.ValueIdx
import Idealize.ShloMosaic.Lib.Pipeline.Value
import proofs.«165607_j15298673509107_2_alg».proof.Proof.LibPlainDotFormats
import proofs.«165607_j15298673509107_2_alg».proof.Proof.LibRowLayout

noncomputable section

namespace Cert.LibDenseLayer

open Idealize.ShloMosaic Idealize.ShloMosaic.ValueIdx Cert.LibPlainDot

variable {N K D : ℕ}

/-- Entry (n, j) of a dense layer: both products, then the bias of column j. -/
def dense (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => (∑ k : Fin K, a (ix2 (i 0) k) * wl (ix2 k (i 1)) + ∑ k : Fin K, x (ix2 (i 0) k) * wr (ix2 k (i 1)))
    + b (ix2 (0 : Fin 1) (i 1))

/-- The same layer followed by the rectifier: the larger of the entry and zero (zero kept as the f32 zero word). -/
def denseRelu (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => max (dense a x wl wr b i) (Ideal.ofBits .f32 0x00000000#32)

theorem dense_ix2 (a x : (⟨2, ![N, K]⟩ : Shape).Idx → EReal) (wl wr : (⟨2, ![K, D]⟩ : Shape).Idx → EReal)
    (b : (⟨2, ![1, D]⟩ : Shape).Idx → EReal) (n : Fin N) (j : Fin D) :
    dense a x wl wr b (ix2 n j)
      = (∑ k : Fin K, a (ix2 n k) * wl (ix2 k j) + ∑ k : Fin K, x (ix2 n k) * wr (ix2 k j)) + b (ix2 (0 : Fin 1) j) := rfl

/-- A vector [D] laid out as a row [1, D] by a broadcast along a new leading axis reads, at (u, j), entry j. -/
theorem bcast_vec_row_apply {α : Type} (h : (⟨1, ![D]⟩ : Shape).BroadcastsInDim ⟨2, ![1, D]⟩ (![1] : Fin 1 → Fin 2))
    (v : (⟨1, ![D]⟩ : Shape).Idx → α) (u : Fin 1) (j : Fin D) :
    broadcastInDim ⟨2, ![1, D]⟩ ![1] h v (ix2 u j) = v (ix1 j) := by
  refine broadcastInDim_apply _ h v _ (ix1 j) fun ax => ?_
  match ax with
  | ⟨0, _⟩ =>
    show j.val = if D = 1 then 0 else j.val
    split
    · have := j.isLt; omega
    · rfl

/-- A row [1, D] repeated over N rows reads, at (n, j), the row's entry j. -/
theorem bcast_row_rows_apply {α : Type} (h : (⟨2, ![1, D]⟩ : Shape).BroadcastsInDim ⟨2, ![N, D]⟩ (![0, 1] : Fin 2 → Fin 2))
    (r : (⟨2, ![1, D]⟩ : Shape).Idx → α) (n : Fin N) (j : Fin D) :
    broadcastInDim ⟨2, ![N, D]⟩ ![0, 1] h r (ix2 n j) = r (ix2 (0 : Fin 1) j) := by
  refine broadcastInDim_apply _ h r _ (ix2 (0 : Fin 1) j) fun ax => ?_
  match ax with
  | ⟨0, _⟩ => rfl
  | ⟨1, _⟩ =>
    show j.val = if D = 1 then 0 else j.val
    split
    · have := j.isLt; omega
    · rfl

/-- The host form of the layer — product, bias added, second product added — is `dense`: at an entry both
    contractions are plain sums over k, the doubly broadcast bias reads its entry j, and the three summands are
    regrouped by commutativity and associativity of addition on the extended reals. -/
theorem host_dense {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩) :
    addf (addf (FloatOps.dotGeneral Dd none .single a wl)
        (broadcastInDim ⟨2, ![N, D]⟩ ![0, 1] h2 (broadcastInDim ⟨2, ![1, D]⟩ ![1] h1 b)))
      (FloatOps.dotGeneral Dd none .single x wr)
      = dense a x wl wr (shapeCast ⟨2, ![1, D]⟩ b hc) := by
  funext i
  obtain ⟨n, j, rfl⟩ : ∃ (n : Fin N) (j : Fin D), i = ix2 n j := ⟨i 0, i 1, eq_ix2 i⟩
  rw [addf_apply, addf_apply, hD.dotGeneral_apply, hD.dotGeneral_apply, bcast_row_rows_apply, bcast_vec_row_apply,
    dense_ix2, Cert.LibRowLayout.shapeCast_b_1b_apply]
  exact add_right_comm _ _ _

end Cert.LibDenseLayer

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibTileOps.lean ====
/-
  The three array operations a two-layer graph convolution is made of, entry by entry, and the two ways each is spelt.

  * `matProd x w`: the matrix product, entry (p, c) the sum over k of x(p, k) · w(k, c).
  * `scaleRows x n`: row p of x multiplied by the p-th entry of a one-column array n.
  * `addRow x b`: a one-row array b added to every row of x; `addRowClamp x b` the same, then the maximum with the
    zero literal's value.

  Each is what a tiled kernel computes block by block, and each is also a composition of whole-array host operations:
  a dot_general; a product with a vector broadcast to one column and then along the rows; a sum with a vector broadcast
  to one row and then down the columns; and a maximum with a broadcast scalar.  A vector cast to a column (or a row)
  and the same vector broadcast to a column (or a row) are the same array, which is where the two spellings meet.
  Nothing here needs an entry to be finite: every equation is the same product, sum or maximum of the same entries.
  Generic in the extents A, K, B and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«165607_j15298673509107_2_alg».proof.Proof.LibPlainDotFormats
import proofs.«165607_j15298673509107_2_alg».proof.Proof.LibKeepdims
import proofs.«165607_j15298673509107_2_alg».proof.Proof.LibJoinedRows
import proofs.«165607_j15298673509107_2_alg».proof.Proof.LibRowBcast

noncomputable section

namespace Cert.LibTileOps

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Row `p` multiplied by entry `p` of a one-column array. -/
def scaleRows (x : FVec Ideal ⟨2, ![A, B]⟩ .f32) (n : FVec Ideal ⟨2, ![A, 1]⟩ .f32) : FVec Ideal ⟨2, ![A, B]⟩ .f32 :=
  fun i => x i * n (ix2 (i 0) (0 : Fin 1))

/-- A one-row array added to every row. -/
def addRow (x : FVec Ideal ⟨2, ![A, B]⟩ .f32) (b : FVec Ideal ⟨2, ![1, B]⟩ .f32) : FVec Ideal ⟨2, ![A, B]⟩ .f32 :=
  fun i => x i + b (ix2 (0 : Fin 1) (i 1))

/-- A one-row array added to every row, then the maximum with the zero literal's value. -/
def addRowClamp (x : FVec Ideal ⟨2, ![A, B]⟩ .f32) (b : FVec Ideal ⟨2, ![1, B]⟩ .f32) : FVec Ideal ⟨2, ![A, B]⟩ .f32 :=
  fun i => max (x i + b (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem scaleRows_apply (x : FVec Ideal ⟨2, ![A, B]⟩ .f32) (n : FVec Ideal ⟨2, ![A, 1]⟩ .f32) (p : Fin A) (q : Fin B) :
    scaleRows x n (ix2 p q) = x (ix2 p q) * n (ix2 p (0 : Fin 1)) := rfl

theorem addRow_apply (x : FVec Ideal ⟨2, ![A, B]⟩ .f32) (b : FVec Ideal ⟨2, ![1, B]⟩ .f32) (p : Fin A) (q : Fin B) :
    addRow x b (ix2 p q) = x (ix2 p q) + b (ix2 (0 : Fin 1) q) := rfl

theorem addRowClamp_apply (x : FVec Ideal ⟨2, ![A, B]⟩ .f32) (b : FVec Ideal ⟨2, ![1, B]⟩ .f32) (p : Fin A) (q : Fin B) :
    addRowClamp x b (ix2 p q) = max (x (ix2 p q) + b (ix2 (0 : Fin 1) q)) (Ideal.ofBits .f32 0x00000000#32) := rfl

/-! ## The host spellings -/

/-- A host dot_general of plain dimension numbers is the matrix product. -/
theorem dotGeneral_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    Host.dotGeneral D prec x w = matProd x w := by
  funext i
  obtain ⟨p, c, rfl⟩ : ∃ (p : Fin A) (c : Fin B), i = ix2 p c := ⟨i 0, i 1, eq_ix2 i⟩
  simp only [Host.dotGeneral]
  exact h.dotGeneral_apply prec _ x w p c

/-- A product with a vector broadcast to one column and then along the rows scales row `p` by the vector's entry
    `p`: the vector cast to a column is the same column. -/
theorem mulf_bcast_col_eq_scaleRows
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hc : (⟨1, ![A]⟩ : Shape).ShapeCasts ⟨2, ![A, 1]⟩)
    (y : FVec Ideal ⟨2, ![A, B]⟩ .f32) (n : FVec Ideal ⟨1, ![A]⟩ .f32) :
    mulf y (broadcastInDim ⟨2, ![A, B]⟩ ![0, 1] h2 (broadcastInDim ⟨2, ![A, 1]⟩ ![0] h1 n))
      = scaleRows y (shapeCast ⟨2, ![A, 1]⟩ n hc) := by
  funext i
  obtain ⟨p, q, rfl⟩ : ∃ (p : Fin A) (q : Fin B), i = ix2 p q := ⟨i 0, i 1, eq_ix2 i⟩
  rw [scaleRows_apply, mulf_apply, Cert.LibJoinedRows.bcast_col_rows_apply, Cert.LibJoinedRows.bcast_vec_col_apply,
    Cert.LibKeepdims.shapeCast_a_a1_apply]

/-- A sum with a vector broadcast to one row and then down the columns adds the vector's entry `q` to column `q`:
    the vector cast to a row is the same row. -/
theorem addf_bcast_row_eq_addRow
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (y : FVec Ideal ⟨2, ![A, B]⟩ .f32) (b : FVec Ideal ⟨1, ![B]⟩ .f32) :
    addf y (broadcastInDim ⟨2, ![A, B]⟩ ![0, 1] h2 (broadcastInDim ⟨2, ![1, B]⟩ ![1] h1 b))
      = addRow y (shapeCast ⟨2, ![1, B]⟩ b hc) := by
  funext i
  obtain ⟨p, q, rfl⟩ : ∃ (p : Fin A) (q : Fin B), i = ix2 p q := ⟨i 0, i 1, eq_ix2 i⟩
  rw [addRow_apply, addf_apply, Cert.LibRowBcast.bcast_vec_rows_apply, shapeCast_a_1a_apply]

/-- The same, followed by the maximum with a broadcast zero literal. -/
theorem maximumf_addf_bcast_row_eq_addRowClamp
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (h0 : (⟨0, ![]⟩ : Shape).BroadcastsInDim ⟨2, ![A, B]⟩ (![] : Fin 0 → Fin 2))
    (y : FVec Ideal ⟨2, ![A, B]⟩ .f32) (b : FVec Ideal ⟨1, ![B]⟩ .f32) :
    maximumf (addf y (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp y (shapeCast ⟨2, ![1, B]⟩ b hc) := by
  funext i
  obtain ⟨p, q, rfl⟩ : ∃ (p : Fin A) (q : Fin B), i = ix2 p q := ⟨i 0, i 1, eq_ix2 i⟩
  rw [addRowClamp_apply, maximumf_apply, addf_apply, Cert.LibRowBcast.bcast_vec_rows_apply, shapeCast_a_1a_apply,
    Cert.LibJoinedRows.bcast_scalar_apply, constant_apply]

end Cert.LibTileOps

end
-- ==== Proof.LibRecipMean.lean ====
/-
  Small facts about extended-real arithmetic and identity conversions that a mean over a clamped count needs; none
  mentions a program.

  * a product with the reciprocal of a NONZERO divisor is the quotient, at the infinities too (the quotient by d ≠ 0 is
    by definition the product with d⁻¹, and 1 / d = 1 · d⁻¹);
  * something clamped below by one is not zero; the f32 word 0x3F800000 denotes one;
  * the host quotient of two arrays read at an index; and rounding a table to bf16 before a gather, widening after,
    is the plain gather (both conversions are the identity on extended reals).
-/
import Idealize.ShloMosaic.Lib.ValueIdx
import Idealize.ShloMosaic.PureOps.Ideal.Laws

noncomputable section

namespace Cert.LibRecipMean

open Idealize.ShloMosaic Idealize.ShloMosaic.ValueIdx

/-- A product with the reciprocal of a nonzero divisor is the quotient. -/
theorem mul_recip_eq_div (s d : EReal) (hd : d ≠ 0) : s * Ideal.div 1 d = Ideal.div s d := by
  unfold Ideal.div
  rw [if_neg hd, if_neg hd, one_mul]

/-- The f32 word of one denotes one. -/
theorem ofBits_one_f32 : Ideal.ofBits .f32 0x3F800000#32 = 1 := by
  simp [Ideal.ofBits, Ideal.ieee]
  norm_cast
  norm_num

/-- Something clamped below by one is not zero. -/
theorem clamp_ne_zero (y : EReal) : max y 1 ≠ 0 := by
  intro h
  have h1 : (1 : EReal) ≤ max y 1 := le_max_right _ _
  rw [h] at h1
  exact absurd h1 (not_le.mpr (by exact_mod_cast (zero_lt_one : (0 : ℝ) < 1)))

/-- The host quotient of two arrays reads, at an index, the quotient of the entries. -/
theorem hostDivf_apply {s : Shape} {φ : FTy} (a b : FVec Ideal s φ) (i : s.Idx) : Host.divf a b i = Ideal.div (a i) (b i) := rfl

/-- Rounding a table before a gather and widening the gathered rows is the plain gather. -/
theorem gather_rounded {s si t : Shape} {w : Nat} (D : GatherDims s si t) (x : FVec Ideal s .f32) (idx : IVec si w)
    (h : FTy.bits .bf16 < FTy.bits .f32) :
    extf .f32 (Host.gather D (truncf .bf16 x h) idx) h = Host.gather D x idx := rfl

end Cert.LibRecipMean

end
-- ==== Proof.LibGraphLayers.lean ====
/-
  A four-layer mean-aggregating graph network, entry by entry, in the two groupings the two programs use.

  One layer takes the neighbour sums `s` (row n: the sum of the feature rows of n's in-neighbours), the node features
  `h`, two weight matrices `wl`, `wr` (already laid out input-axis first), a bias row `b`, and either the column of
  reciprocal clamped in-degrees `n` (one program) or the vector of clamped in-degrees `d` (the other):

      out(n, j) = Σ_k (s(n,k) · n(n))   · wl(k,j) + b(j) + Σ_k h(n,k) · wr(k,j)        (scaled sums)
      out(n, j) = Σ_k (s(n,k) / d(n))   · wl(k,j) + Σ_k h(n,k) · wr(k,j) + b(j)        (means)

  followed, layer by layer, by nothing, by the maximum with zero, or by adding h(n, j) and then the maximum with zero.
  With n(n) = 1 / d(n) and d(n) ≠ 0 the two agree on all extended reals: a product with the reciprocal of a nonzero
  divisor IS the quotient, and the three summands are only regrouped (addition of extended reals is commutative and
  associative with no finiteness assumption).  The neighbour sums enter as an opaque function of the features.
-/
import proofs.«165607_j15298673509107_2_alg».proof.Proof.LibDenseLayer
import proofs.«165607_j15298673509107_2_alg».proof.Proof.LibTileOps
import proofs.«165607_j15298673509107_2_alg».proof.Proof.LibRecipMean

noncomputable section

namespace Cert.GnnSpec

open Idealize.ShloMosaic Idealize.ShloMosaic.ValueIdx Cert.LibDenseLayer Cert.LibTileOps
open scoped BigOperators

variable {N K D : ℕ}

/-- The value of the f32 zero word (kept as the word: the same word on both sides is never evaluated). -/
abbrev zeroW : EReal := Ideal.ofBits .f32 0x00000000#32

/-! ## Scaled sums: the neighbour sums times a column of reciprocals, bias added between the two products -/

/-- One layer before its activation, scaled-sums grouping. -/
def kpre (s : FVec Ideal ⟨2, ![N, K]⟩ .f32) (n : FVec Ideal ⟨2, ![N, 1]⟩ .f32) (h : FVec Ideal ⟨2, ![N, K]⟩ .f32)
    (wl : FVec Ideal ⟨2, ![K, D]⟩ .f32) (b : FVec Ideal ⟨2, ![1, D]⟩ .f32) (wr : FVec Ideal ⟨2, ![K, D]⟩ .f32) :
    FVec Ideal ⟨2, ![N, D]⟩ .f32 :=
  fun i => (matProd (scaleRows s n) wl i + b (ix2 (0 : Fin 1) (i 1))) + matProd h wr i

/-- The layer followed by the maximum with zero. -/
def klayerRelu (s : FVec Ideal ⟨2, ![N, K]⟩ .f32) (n : FVec Ideal ⟨2, ![N, 1]⟩ .f32) (h : FVec Ideal ⟨2, ![N, K]⟩ .f32)
    (wl : FVec Ideal ⟨2, ![K, D]⟩ .f32) (b : FVec Ideal ⟨2, ![1, D]⟩ .f32) (wr : FVec Ideal ⟨2, ![K, D]⟩ .f32) :
    FVec Ideal ⟨2, ![N, D]⟩ .f32 :=
  fun i => max (kpre s n h wl b wr i) zeroW

/-- The layer plus its own input (input and output widths equal), then the maximum with zero. -/
def klayerSkipRelu (s : FVec Ideal ⟨2, ![N, D]⟩ .f32) (n : FVec Ideal ⟨2, ![N, 1]⟩ .f32) (h : FVec Ideal ⟨2, ![N, D]⟩ .f32)
    (wl : FVec Ideal ⟨2, ![D, D]⟩ .f32) (b : FVec Ideal ⟨2, ![1, D]⟩ .f32) (wr : FVec Ideal ⟨2, ![D, D]⟩ .f32) :
    FVec Ideal ⟨2, ![N, D]⟩ .f32 :=
  fun i => max (kpre s n h wl b wr i + h i) zeroW

/-! ## Means: the neighbour sums divided by the clamped in-degree, bias added last -/

/-- Row n of the sums divided by entry n of a vector. -/
def meanRows (s : FVec Ideal ⟨2, ![N, K]⟩ .f32) (d : FVec Ideal ⟨1, ![N]⟩ .f32) : FVec Ideal ⟨2, ![N, K]⟩ .f32 :=
  fun i => Ideal.div (s i) (d (ix1 (i 0)))

/-- One layer before its activation, means grouping. -/
def rpre (s : FVec Ideal ⟨2, ![N, K]⟩ .f32) (d : FVec Ideal ⟨1, ![N]⟩ .f32) (h : FVec Ideal ⟨2, ![N, K]⟩ .f32)
    (wl : FVec Ideal ⟨2, ![K, D]⟩ .f32) (b : FVec Ideal ⟨2, ![1, D]⟩ .f32) (wr : FVec Ideal ⟨2, ![K, D]⟩ .f32) :
    FVec Ideal ⟨2, ![N, D]⟩ .f32 :=
  dense (meanRows s d) h wl wr b

def rlayerRelu (s : FVec Ideal ⟨2, ![N, K]⟩ .f32) (d : FVec Ideal ⟨1, ![N]⟩ .f32) (h : FVec Ideal ⟨2, ![N, K]⟩ .f32)
    (wl : FVec Ideal ⟨2, ![K, D]⟩ .f32) (b : FVec Ideal ⟨2, ![1, D]⟩ .f32) (wr : FVec Ideal ⟨2, ![K, D]⟩ .f32) :
    FVec Ideal ⟨2, ![N, D]⟩ .f32 :=
  fun i => max (rpre s d h wl b wr i) zeroW

def rlayerSkipRelu (s : FVec Ideal ⟨2, ![N, D]⟩ .f32) (d : FVec Ideal ⟨1, ![N]⟩ .f32) (h : FVec Ideal ⟨2, ![N, D]⟩ .f32)
    (wl : FVec Ideal ⟨2, ![D, D]⟩ .f32) (b : FVec Ideal ⟨2, ![1, D]⟩ .f32) (wr : FVec Ideal ⟨2, ![D, D]⟩ .f32) :
    FVec Ideal ⟨2, ![N, D]⟩ .f32 :=
  fun i => max (rpre s d h wl b wr i + h i) zeroW

/-- The column of reciprocals of a vector. -/
def recipCol (d : FVec Ideal ⟨1, ![N]⟩ .f32) : FVec Ideal ⟨2, ![N, 1]⟩ .f32 :=
  fun i => Ideal.div 1 (d (ix1 (i 0)))

/-! ## The two groupings agree -/

/-- With the column of reciprocals of a nowhere-zero vector, the scaled-sums layer is the means layer. -/
theorem kpre_recipCol (s : FVec Ideal ⟨2, ![N, K]⟩ .f32) (d : FVec Ideal ⟨1, ![N]⟩ .f32) (hd : ∀ r : Fin N, d (ix1 r) ≠ 0)
    (h : FVec Ideal ⟨2, ![N, K]⟩ .f32) (wl : FVec Ideal ⟨2, ![K, D]⟩ .f32) (b : FVec Ideal ⟨2, ![1, D]⟩ .f32)
    (wr : FVec Ideal ⟨2, ![K, D]⟩ .f32) :
    kpre s (recipCol d) h wl b wr = rpre s d h wl b wr := by
  funext i
  obtain ⟨n, j, rfl⟩ : ∃ (n : Fin N) (j : Fin D), i = ix2 n j := ⟨i 0, i 1, eq_ix2 i⟩
  show (matProd (scaleRows s (recipCol d)) wl (ix2 n j) + b (ix2 (0 : Fin 1) j)) + matProd h wr (ix2 n j)
    = dense (meanRows s d) h wl wr b (ix2 n j)
  rw [dense_ix2, matProd_apply, matProd_apply]
  have e : ∀ k : Fin K, scaleRows s (recipCol d) (ix2 n k) = meanRows s d (ix2 n k) := fun k => by
    rw [scaleRows_apply]
    exact Cert.LibRecipMean.mul_recip_eq_div _ _ (hd n)
  simp only [e]
  exact add_right_comm _ _ _

theorem klayerRelu_recipCol (s : FVec Ideal ⟨2, ![N, K]⟩ .f32) (d : FVec Ideal ⟨1, ![N]⟩ .f32) (hd : ∀ r : Fin N, d (ix1 r) ≠ 0)
    (h : FVec Ideal ⟨2, ![N, K]⟩ .f32) (wl : FVec Ideal ⟨2, ![K, D]⟩ .f32) (b : FVec Ideal ⟨2, ![1, D]⟩ .f32)
    (wr : FVec Ideal ⟨2, ![K, D]⟩ .f32) :
    klayerRelu s (recipCol d) h wl b wr = rlayerRelu s d h wl b wr := by
  unfold klayerRelu rlayerRelu; rw [kpre_recipCol s d hd]

theorem klayerSkipRelu_recipCol (s : FVec Ideal ⟨2, ![N, D]⟩ .f32) (d : FVec Ideal ⟨1, ![N]⟩ .f32) (hd : ∀ r : Fin N, d (ix1 r) ≠ 0)
    (h : FVec Ideal ⟨2, ![N, D]⟩ .f32) (wl : FVec Ideal ⟨2, ![D, D]⟩ .f32) (b : FVec Ideal ⟨2, ![1, D]⟩ .f32)
    (wr : FVec Ideal ⟨2, ![D, D]⟩ .f32) :
    klayerSkipRelu s (recipCol d) h wl b wr = rlayerSkipRelu s d h wl b wr := by
  unfold klayerSkipRelu rlayerSkipRelu; rw [kpre_recipCol s d hd]

/-! ## The network: first layer K → D with the rectifier, two layers D → D with skip and rectifier, a last plain layer -/

/-- Scaled-sums grouping. `agg0`, `agg` give the neighbour sums of a feature array. -/
def knet (agg0 : FVec Ideal ⟨2, ![N, K]⟩ .f32 → FVec Ideal ⟨2, ![N, K]⟩ .f32)
    (agg : FVec Ideal ⟨2, ![N, D]⟩ .f32 → FVec Ideal ⟨2, ![N, D]⟩ .f32) (n : FVec Ideal ⟨2, ![N, 1]⟩ .f32)
    (x : FVec Ideal ⟨2, ![N, K]⟩ .f32)
    (wl0 : FVec Ideal ⟨2, ![K, D]⟩ .f32) (b0 : FVec Ideal ⟨2, ![1, D]⟩ .f32) (wr0 : FVec Ideal ⟨2, ![K, D]⟩ .f32)
    (wl1 : FVec Ideal ⟨2, ![D, D]⟩ .f32) (b1 : FVec Ideal ⟨2, ![1, D]⟩ .f32) (wr1 : FVec Ideal ⟨2, ![D, D]⟩ .f32)
    (wl2 : FVec Ideal ⟨2, ![D, D]⟩ .f32) (b2 : FVec Ideal ⟨2, ![1, D]⟩ .f32) (wr2 : FVec Ideal ⟨2, ![D, D]⟩ .f32)
    (wl3 : FVec Ideal ⟨2, ![D, D]⟩ .f32) (b3 : FVec Ideal ⟨2, ![1, D]⟩ .f32) (wr3 : FVec Ideal ⟨2, ![D, D]⟩ .f32) :
    FVec Ideal ⟨2, ![N, D]⟩ .f32 :=
  let h1 := klayerRelu (agg0 x) n x wl0 b0 wr0
  let h2 := klayerSkipRelu (agg h1) n h1 wl1 b1 wr1
  let h3 := klayerSkipRelu (agg h2) n h2 wl2 b2 wr2
  kpre (agg h3) n h3 wl3 b3 wr3

/-- Means grouping. -/
def rnet (agg0 : FVec Ideal ⟨2, ![N, K]⟩ .f32 → FVec Ideal ⟨2, ![N, K]⟩ .f32)
    (agg : FVec Ideal ⟨2, ![N, D]⟩ .f32 → FVec Ideal ⟨2, ![N, D]⟩ .f32) (d : FVec Ideal ⟨1, ![N]⟩ .f32)
    (x : FVec Ideal ⟨2, ![N, K]⟩ .f32)
    (wl0 : FVec Ideal ⟨2, ![K, D]⟩ .f32) (b0 : FVec Ideal ⟨2, ![1, D]⟩ .f32) (wr0 : FVec Ideal ⟨2, ![K, D]⟩ .f32)
    (wl1 : FVec Ideal ⟨2, ![D, D]⟩ .f32) (b1 : FVec Ideal ⟨2, ![1, D]⟩ .f32) (wr1 : FVec Ideal ⟨2, ![D, D]⟩ .f32)
    (wl2 : FVec Ideal ⟨2, ![D, D]⟩ .f32) (b2 : FVec Ideal ⟨2, ![1, D]⟩ .f32) (wr2 : FVec Ideal ⟨2, ![D, D]⟩ .f32)
    (wl3 : FVec Ideal ⟨2, ![D, D]⟩ .f32) (b3 : FVec Ideal ⟨2, ![1, D]⟩ .f32) (wr3 : FVec Ideal ⟨2, ![D, D]⟩ .f32) :
    FVec Ideal ⟨2, ![N, D]⟩ .f32 :=
  let h1 := rlayerRelu (agg0 x) d x wl0 b0 wr0
  let h2 := rlayerSkipRelu (agg h1) d h1 wl1 b1 wr1
  let h3 := rlayerSkipRelu (agg h2) d h2 wl2 b2 wr2
  rpre (agg h3) d h3 wl3 b3 wr3

/-- The two networks agree when the scaling column is the reciprocal of a nowhere-zero degree vector. -/
theorem knet_recipCol (agg0 : FVec Ideal ⟨2, ![N, K]⟩ .f32 → FVec Ideal ⟨2, ![N, K]⟩ .f32)
    (agg : FVec Ideal ⟨2, ![N, D]⟩ .f32 → FVec Ideal ⟨2, ![N, D]⟩ .f32) (d : FVec Ideal ⟨1, ![N]⟩ .f32)
    (hd : ∀ r : Fin N, d (ix1 r) ≠ 0) (x : FVec Ideal ⟨2, ![N, K]⟩ .f32)
    (wl0 : FVec Ideal ⟨2, ![K, D]⟩ .f32) (b0 : FVec Ideal ⟨2, ![1, D]⟩ .f32) (wr0 : FVec Ideal ⟨2, ![K, D]⟩ .f32)
    (wl1 : FVec Ideal ⟨2, ![D, D]⟩ .f32) (b1 : FVec Ideal ⟨2, ![1, D]⟩ .f32) (wr1 : FVec Ideal ⟨2, ![D, D]⟩ .f32)
    (wl2 : FVec Ideal ⟨2, ![D, D]⟩ .f32) (b2 : FVec Ideal ⟨2, ![1, D]⟩ .f32) (wr2 : FVec Ideal ⟨2, ![D, D]⟩ .f32)
    (wl3 : FVec Ideal ⟨2, ![D, D]⟩ .f32) (b3 : FVec Ideal ⟨2, ![1, D]⟩ .f32) (wr3 : FVec Ideal ⟨2, ![D, D]⟩ .f32) :
    knet agg0 agg (recipCol d) x wl0 b0 wr0 wl1 b1 wr1 wl2 b2 wr2 wl3 b3 wr3
      = rnet agg0 agg d x wl0 b0 wr0 wl1 b1 wr1 wl2 b2 wr2 wl3 b3 wr3 := by
  unfold knet rnet
  simp only [klayerRelu_recipCol _ d hd, klayerSkipRelu_recipCol _ d hd, kpre_recipCol _ d hd]

end Cert.GnnSpec

end
-- ==== Proof.KI.Pay0.lean ====
/- Region 0 of the idealized kernel program, the arithmetic of one block at the exact values.

   The body's one stored value, as a function of the six blocks it loads (neighbour sums s, the column n of reciprocal
   clamped in-degrees, features h, the two weight matrices wl and wr laid out input-axis first, the bias row b), is at
   row p and column q

       max ( ( Σ_k (s(p,k) · n(p,0)) · wl(k,q)  +  b(0,q) )  +  Σ_k h(p,k) · wr(k,q) ,  0 ).

   Each contraction into the zero accumulator is the plain sum over the contracted axis; the column n spread across
   the 64 columns reads n(p,0) at every column; the row b spread down the 10000 rows reads b(0,q) at every row; a cast
   to the same shape changes nothing.  So the stored block is the first layer of the network (scaled-sums grouping,
   followed by the maximum with zero) of the loaded blocks, as one equation between whole blocks. -/
import proofs.«165607_j15298673509107_2_alg».proof.Proof.Gen.KernelIdeal.Skeleton
import proofs.«165607_j15298673509107_2_alg».proof.Proof.LibGraphLayers
import proofs.«165607_j15298673509107_2_alg».proof.Proof.LibRowLayout
import proofs.«165607_j15298673509107_2_alg».proof.Proof.LibKeepdims

noncomputable section

namespace Cert.KernelIdeal.HandValue

open Cert.KernelIdeal Cert.KernelIdeal.Gen
open Idealize.ShloMosaic Idealize.ShloMosaic.ValueIdx
open Cert.GnnSpec Cert.LibTileOps
open scoped BigOperators

/-- The contraction of region 0: second axis of a 10000 × 64 operand against the first axis of a 64 × 32 operand. -/
theorem plain_k0 : Cert.LibPlainDot.Plain dot_S10000x64_S64x32_S10000x32_1_0_0_1_n_n := ⟨rfl, rfl, rfl, rfl, rfl, rfl⟩

/-- The block region 0 stores is the first layer of the blocks it loads.  The payload takes the two weight blocks
    before the bias row; the layer takes the bias between them. -/
theorem k0_pay1_eq (x0 : FVec Ideal S10000x64 .f32) (x1 : FVec Ideal S10000x1 .f32) (x2 : FVec Ideal S10000x64 .f32)
    (x3 : FVec Ideal S64x32 .f32) (x4 : FVec Ideal S1x32 .f32) (x5 : FVec Ideal S64x32 .f32) :
    Gen.k0_pay1 (F := Ideal) x0 x1 x2 x3 x5 x4 = klayerRelu x0 x1 x2 x3 x4 x5 := by
  funext i
  obtain ⟨p, q, rfl⟩ : ∃ (p : Fin 10000) (q : Fin 32), i = ix2 p q := ⟨i 0, i 1, eq_ix2 i⟩
  unfold Gen.k0_pay1
  simp only [shapeCast_self, maximumf_apply, addf_apply, broadcast_apply]
  show max ((_ + _) + _) _
    = max ((matProd (scaleRows x0 x1) x3 (ix2 p q) + x4 (ix2 (0 : Fin 1) q)) + matProd x2 x5 (ix2 p q)) zeroW
  refine congrArg₂ max (congrArg₂ (· + ·) (congrArg₂ (· + ·) ?_ ?_) ?_) rfl
  · -- the scaled sums against wl: the contraction is the sum over k, and the spread column reads n(p,0)
    refine (plain_k0.matmul_zero_apply _ _ _ p q).trans (Finset.sum_congr rfl fun k _ => ?_)
    exact congrArg (· * x3 (ix2 k q))
      (congrArg (x0 (ix2 p k) * ·) (Cert.LibKeepdims.broadcastTo_a1_ab_apply x1 _ p k))
  · -- the spread bias row reads b(0,q)
    exact Cert.LibRowLayout.broadcastTo_1b_ab_apply x4 _ p q
  · -- the features against wr
    exact plain_k0.matmul_zero_apply _ x2 x5 p q

end Cert.KernelIdeal.HandValue

end
-- ==== Proof.LibRowBlock.lean ====
/- A layer of the network on a block of rows.

   Every entry of a layer's output at row r reads only row r of the neighbour sums, entry r of the scaling column and row
   r of the features, besides the weights and the bias.  So if three arrays s', n', h' of M rows agree at their row p
   with row r of three arrays s, n, h of N rows, the layer of the primed arrays at (p, q) is the layer of the unprimed
   ones at (r, q), weights and bias being the same.  Stated for the layer before its activation and for the layer
   followed by the maximum with zero; generic in the four extents. -/
import proofs.«165607_j15298673509107_2_alg».proof.Proof.LibGraphLayers

noncomputable section

namespace Cert.KernelIdeal.HandValue

open Idealize.ShloMosaic Idealize.ShloMosaic.ValueIdx
open Cert.GnnSpec Cert.LibTileOps
open scoped BigOperators

variable {N M K D : ℕ}

/-- The layer before its activation reads, at row p of a block, what it reads at the matching row r of the arrays. -/
theorem kpre_rowBlock (s : FVec Ideal ⟨2, ![N, K]⟩ .f32) (n : FVec Ideal ⟨2, ![N, 1]⟩ .f32) (h : FVec Ideal ⟨2, ![N, K]⟩ .f32)
    (s' : FVec Ideal ⟨2, ![M, K]⟩ .f32) (n' : FVec Ideal ⟨2, ![M, 1]⟩ .f32) (h' : FVec Ideal ⟨2, ![M, K]⟩ .f32)
    (wl : FVec Ideal ⟨2, ![K, D]⟩ .f32) (b : FVec Ideal ⟨2, ![1, D]⟩ .f32) (wr : FVec Ideal ⟨2, ![K, D]⟩ .f32)
    (p : Fin M) (r : Fin N)
    (hs : ∀ k : Fin K, s' (ix2 p k) = s (ix2 r k)) (hn : n' (ix2 p (0 : Fin 1)) = n (ix2 r (0 : Fin 1)))
    (hh : ∀ k : Fin K, h' (ix2 p k) = h (ix2 r k)) (q : Fin D) :
    kpre s' n' h' wl b wr (ix2 p q) = kpre s n h wl b wr (ix2 r q) := by
  show (matProd (scaleRows s' n') wl (ix2 p q) + b (ix2 (0 : Fin 1) q)) + matProd h' wr (ix2 p q)
    = (matProd (scaleRows s n) wl (ix2 r q) + b (ix2 (0 : Fin 1) q)) + matProd h wr (ix2 r q)
  simp only [matProd_apply, scaleRows_apply, hs, hn, hh]

/-- The same for the layer followed by the maximum with zero. -/
theorem klayerRelu_rowBlock (s : FVec Ideal ⟨2, ![N, K]⟩ .f32) (n : FVec Ideal ⟨2, ![N, 1]⟩ .f32) (h : FVec Ideal ⟨2, ![N, K]⟩ .f32)
    (s' : FVec Ideal ⟨2, ![M, K]⟩ .f32) (n' : FVec Ideal ⟨2, ![M, 1]⟩ .f32) (h' : FVec Ideal ⟨2, ![M, K]⟩ .f32)
    (wl : FVec Ideal ⟨2, ![K, D]⟩ .f32) (b : FVec Ideal ⟨2, ![1, D]⟩ .f32) (wr : FVec Ideal ⟨2, ![K, D]⟩ .f32)
    (p : Fin M) (r : Fin N)
    (hs : ∀ k : Fin K, s' (ix2 p k) = s (ix2 r k)) (hn : n' (ix2 p (0 : Fin 1)) = n (ix2 r (0 : Fin 1)))
    (hh : ∀ k : Fin K, h' (ix2 p k) = h (ix2 r k)) (q : Fin D) :
    klayerRelu s' n' h' wl b wr (ix2 p q) = klayerRelu s n h wl b wr (ix2 r q) :=
  congrArg (max · zeroW) (kpre_rowBlock s n h s' n' h' wl b wr p r hs hn hh q)

end Cert.KernelIdeal.HandValue

end
-- ==== Proof.KI.Value0.lean ====
/- Region 0 of the idealized kernel program at the exact values: from the blocks to the whole array.

   The region runs its body over ten grid points; point t stages rows 10000·t … 10000·t + 9999 of the neighbour sums,
   of the column of reciprocal clamped in-degrees and of the features, the whole of the two weight matrices and of the
   bias row (their block index is 0 at every point), and writes back rows 10000·t … 10000·t + 9999 of the output.
   What the body stores is the first layer of the network of the blocks it loaded; every entry of that layer at row r
   reads only row r of the three row-indexed arrays; so what point t writes back is block t of the first layer of the
   WHOLE arrays as the region finds them.  Every row r lies in the block of point r / 10000, so after the last point
   the output array is that layer everywhere.  The six input arrays are staged and never written back: they end as
   the region found them. -/
import proofs.«165607_j15298673509107_2_alg».proof.Proof.KI.Dat0
import proofs.«165607_j15298673509107_2_alg».proof.Proof.KI.Pay0
import proofs.«165607_j15298673509107_2_alg».proof.Proof.LibRowBlock
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.GnnSpec

-- the TensorCore's buffer contents when the region is entered
variable (V : (c : Dev nD) → (b : Ref sig .tc) → Buf (Elt Ideal) ((c : Thread nD τ).loc b))

/-! ## The index maps over the grid -/

/-- The two zero offsets of a whole-buffer rectangle, as the constant function. -/
theorem hz0 : (![0, 0] : Fin 2 → Nat) = fun _ => 0 := funext fun a => by fin_cases a <;> rfl

/-- At point t the row-indexed windows (sums, scaling column, features, output) are at block (t, 0); the weight and bias
    windows are at block (0, 0).  Decided over the ten points. -/
theorem idx_facts0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = t.val ∧ win0_6.index t (1 : Fin 2) = 0 :=
  (by decide +kernel : ∀ t : Fin grid0.N, _)

/-- Every point writes its output block back. -/
theorem flush0_6 : ∀ t : Fin cfg0.N, (cfg0.win 6).flush t = true :=
  (by decide +kernel : ∀ t : Fin grid0.N, _)

/-! ## Each input block as rows of its array

A block's element sits in the array, on each axis, at block index × block size + 1 × its own coordinate. -/

/-- Row p of the neighbour sums' block at point t is row 10000·t + p of the array. -/
theorem iblk0_0_apply (c : Dev nD) (t : Fin cfg0.N) (p : Fin 10000) (k : Fin 64) (r : Fin 100000)
    (hr : r.val = t.val * 10000 + p.val) :
    (iblk0 V c 0 t : S10000x64.Idx → EReal) (ix2 p k) = (V c main_call0_v22 : S100000x64.Idx → EReal) (ix2 r k) := by
  have hi := idx_facts0 t
  show V c main_call0_v22 (((cfg0.win 0).blk t).view.emb (ix2 p k)) = V c main_call0_v22 (ix2 r k)
  refine congrArg _ ?_
  funext a
  apply Fin.ext
  match a with
  | ⟨0, _⟩ => show win0_0.index t (0 : Fin 2) * 10000 + 1 * p.val = r.val; rw [hi.1, hr]; omega
  | ⟨1, _⟩ => show win0_0.index t (1 : Fin 2) * 64 + 1 * k.val = k.val; rw [hi.2.1]; omega

/-- Entry p of the scaling column's block at point t is entry 10000·t + p of the column. -/
theorem iblk0_1_apply (c : Dev nD) (t : Fin cfg0.N) (p : Fin 10000) (r : Fin 100000)
    (hr : r.val = t.val * 10000 + p.val) :
    (iblk0 V c 1 t : S10000x1.Idx → EReal) (ix2 p (0 : Fin 1)) = (V c main_call0_v12 : S100000x1.Idx → EReal) (ix2 r (0 : Fin 1)) := by
  have hi := idx_facts0 t
  show V c main_call0_v12 (((cfg0.win 1).blk t).view.emb (ix2 p (0 : Fin 1))) = V c main_call0_v12 (ix2 r (0 : Fin 1))
  refine congrArg _ ?_
  funext a
  apply Fin.ext
  match a with
  | ⟨0, _⟩ => show win0_1.index t (0 : Fin 2) * 10000 + 1 * p.val = r.val; rw [hi.2.2.1, hr]; omega
  | ⟨1, _⟩ => show win0_1.index t (1 : Fin 2) * 1 + 1 * 0 = 0; rw [hi.2.2.2.1]

/-- Row p of the features' block at point t is row 10000·t + p of the array. -/
theorem iblk0_2_apply (c : Dev nD) (t : Fin cfg0.N) (p : Fin 10000) (k : Fin 64) (r : Fin 100000)
    (hr : r.val = t.val * 10000 + p.val) :
    (iblk0 V c 2 t : S10000x64.Idx → EReal) (ix2 p k) = (V c main_arg0 : S100000x64.Idx → EReal) (ix2 r k) := by
  have hi := idx_facts0 t
  show V c main_arg0 (((cfg0.win 2).blk t).view.emb (ix2 p k)) = V c main_arg0 (ix2 r k)
  refine congrArg _ ?_
  funext a
  apply Fin.ext
  match a with
  | ⟨0, _⟩ => show win0_2.index t (0 : Fin 2) * 10000 + 1 * p.val = r.val; rw [hi.2.2.2.2.1, hr]; omega
  | ⟨1, _⟩ => show win0_2.index t (1 : Fin 2) * 64 + 1 * k.val = k.val; rw [hi.2.2.2.2.2.1]; omega

/-- The first weight matrix's block is the whole matrix at every point. -/
theorem iblk0_3_eq (c : Dev nD) (t : Fin cfg0.N) :
    (iblk0 V c 3 t : S64x32.Idx → EReal) = (V c main_call0_v23 : S64x32.Idx → EReal) := by
  have hi := idx_facts0 t
  funext y
  show V c main_call0_v23 (((cfg0.win 3).blk t).view.emb y) = V c main_call0_v23 y
  refine congrArg _ ?_
  funext a
  apply Fin.ext
  match a with
  | ⟨0, _⟩ => show win0_3.index t (0 : Fin 2) * 64 + 1 * (y 0).val = (y 0).val; rw [hi.2.2.2.2.2.2.1]; omega
  | ⟨1, _⟩ => show win0_3.index t (1 : Fin 2) * 32 + 1 * (y 1).val = (y 1).val; rw [hi.2.2.2.2.2.2.2.1]; omega

/-- The bias row's block is the whole row at every point. -/
theorem iblk0_4_eq (c : Dev nD) (t : Fin cfg0.N) :
    (iblk0 V c 4 t : S1x32.Idx → EReal) = (V c main_call0_v25 : S1x32.Idx → EReal) := by
  have hi := idx_facts0 t
  funext y
  show V c main_call0_v25 (((cfg0.win 4).blk t).view.emb y) = V c main_call0_v25 y
  refine congrArg _ ?_
  funext a
  apply Fin.ext
  match a with
  | ⟨0, _⟩ => show win0_4.index t (0 : Fin 2) * 1 + 1 * (y 0).val = (y 0).val; rw [hi.2.2.2.2.2.2.2.2.1]; omega
  | ⟨1, _⟩ => show win0_4.index t (1 : Fin 2) * 32 + 1 * (y 1).val = (y 1).val; rw [hi.2.2.2.2.2.2.2.2.2.1]; omega

/-- The second weight matrix's block is the whole matrix at every point. -/
theorem iblk0_5_eq (c : Dev nD) (t : Fin cfg0.N) :
    (iblk0 V c 5 t : S64x32.Idx → EReal) = (V c main_call0_v24 : S64x32.Idx → EReal) := by
  have hi := idx_facts0 t
  funext y
  show V c main_call0_v24 (((cfg0.win 5).blk t).view.emb y) = V c main_call0_v24 y
  refine congrArg _ ?_
  funext a
  apply Fin.ext
  match a with
  | ⟨0, _⟩ => show win0_5.index t (0 : Fin 2) * 64 + 1 * (y 0).val = (y 0).val; rw [hi.2.2.2.2.2.2.2.2.2.2.1]; omega
  | ⟨1, _⟩ => show win0_5.index t (1 : Fin 2) * 32 + 1 * (y 1).val = (y 1).val; rw [hi.2.2.2.2.2.2.2.2.2.2.2.1]; omega

/-! ## What a point writes back -/

/-- Point t writes back block t of the first layer of the whole arrays: the stored block is the layer of the loaded
    blocks, and the layer at row p of the blocks is the layer at row 10000·t + p of the arrays. -/
theorem flushed0_eq (c : Dev nD) (t : Fin cfg0.N) :
    (dat0 V c).flushed 6 t = ((cfg0.win 6).blk t).view.read (Elt Ideal)
      (klayerRelu (V c main_call0_v22 : S100000x64.Idx → EReal) (V c main_call0_v12 : S100000x1.Idx → EReal)
        (V c main_arg0 : S100000x64.Idx → EReal) (V c main_call0_v23 : S64x32.Idx → EReal)
        (V c main_call0_v25 : S1x32.Idx → EReal) (V c main_call0_v24 : S64x32.Idx → EReal)) := by
  show (cfg0.win 6).cut (grid0.coords t) ((dat0 V c).after 6 t) = _
  rw [after0_6]
  unfold out0_6
  rw [View.canon_unit_zero hz0]
  simp only [View.ld_unit_zero (S := S10000x64) hz0, View.ld_unit_zero (S := S10000x1) hz0,
    View.ld_unit_zero (S := S64x32) hz0, View.ld_unit_zero (S := S1x32) hz0]
  rw [k0_pay1_eq (iblk0 V c 0 t) (iblk0 V c 1 t) (iblk0 V c 2 t) (iblk0 V c 3 t) (iblk0 V c 4 t) (iblk0 V c 5 t),
    iblk0_3_eq V c t, iblk0_4_eq V c t, iblk0_5_eq V c t]
  have hi := idx_facts0 t
  have ht : t.val < 10 := lt_of_lt_of_eq t.isLt N_0
  refine funext fun (j : S10000x32.Idx) => ?_
  obtain ⟨p, q, rfl⟩ : ∃ (p : Fin 10000) (q : Fin 32), j = ix2 p q := ⟨j 0, j 1, eq_ix2 j⟩
  have hr : t.val * 10000 + p.val < 100000 := by have := p.isLt; omega
  have he : ((cfg0.win 6).blk t).view.emb (ix2 p q) = (ix2 (⟨t.val * 10000 + p.val, hr⟩ : Fin 100000) q : S100000x32.Idx) := by
    funext a
    apply Fin.ext
    match a with
    | ⟨0, _⟩ => show win0_6.index t (0 : Fin 2) * 10000 + 1 * p.val = t.val * 10000 + p.val; rw [hi.2.2.2.2.2.2.2.2.2.2.2.2.1]; omega
    | ⟨1, _⟩ => show win0_6.index t (1 : Fin 2) * 32 + 1 * q.val = q.val; rw [hi.2.2.2.2.2.2.2.2.2.2.2.2.2]; omega
  show klayerRelu (iblk0 V c 0 t) (iblk0 V c 1 t) (iblk0 V c 2 t) _ _ _ (ix2 p q)
    = klayerRelu _ _ _ _ _ _ (((cfg0.win 6).blk t).view.emb (ix2 p q))
  rw [he]
  exact klayerRelu_rowBlock _ _ _ _ _ _ _ _ _ p ⟨_, hr⟩ (fun k => iblk0_0_apply V c t p k _ rfl)
    (iblk0_1_apply V c t p _ rfl) (fun k => iblk0_2_apply V c t p k _ rfl) q

/-! ## The blocks cover the output array -/

/-- An index is in point t's output block iff each coordinate is in the block's range on its axis. -/
theorem mem_blk0 (t : Fin cfg0.N) (i : S100000x32.Idx) :
    i ∈ ((cfg0.win 6).blk t).view.set ↔ ∀ a : Fin 2, win0_6.index t a * S10000x32.size a ≤ (i a).val
      ∧ (i a).val < win0_6.index t a * S10000x32.size a + S10000x32.size a := by
  show i ∈ ((View.whole main_call0_v26).slice (win0_6.rect t)).set ↔ _
  rw [View.set_slice_whole, Rect.mem_set_unit]
  exact Iff.rfl

/-- Row r is in the block of point r / 10000. -/
theorem cover0 (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 10 := N_0
  have hlt : (i 0).val / 10000 < cfg0.N := by rw [hN]; omega
  refine ⟨⟨(i 0).val / 10000, hlt⟩, flush0_6 _, ?_⟩
  obtain ⟨-, -, -, -, -, -, -, -, -, -, -, -, e0, e1⟩ := idx_facts0 ⟨(i 0).val / 10000, hlt⟩
  rw [mem_blk0]
  intro a
  match a with
  | ⟨0, _⟩ =>
    show win0_6.index ⟨(i 0).val / 10000, hlt⟩ (0 : Fin 2) * 10000 ≤ (i 0).val
      ∧ (i 0).val < win0_6.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win0_6.index ⟨(i 0).val / 10000, hlt⟩ (1 : Fin 2) * 32 ≤ (i 1).val
      ∧ (i 1).val < win0_6.index ⟨(i 0).val / 10000, hlt⟩ (1 : Fin 2) * 32 + 32
    rw [e1]
    omega

/-! ## The arrays after the region -/

/-- The output array after the last point is the first layer of the input arrays as the region finds them. -/
theorem final0 (c : Dev nD) :
    ((dat0 V c).arrAt 6 cfg0.N : S100000x32.Idx → EReal)
      = klayerRelu (V c main_call0_v22 : S100000x64.Idx → EReal) (V c main_call0_v12 : S100000x1.Idx → EReal)
          (V c main_arg0 : S100000x64.Idx → EReal) (V c main_call0_v23 : S64x32.Idx → EReal)
          (V c main_call0_v25 : S1x32.Idx → EReal) (V c main_call0_v24 : S64x32.Idx → EReal) :=
  (dat0 V c).arrAt_eq_of_cover 6 _ (fun t _ => flushed0_eq V c t) cover0

/-- An input window's array ends as the region found it: it is staged and never written back. -/
theorem kept0 (c : Dev nD) (w : Fin cfg0.W) (hw : (cfg0.win w).isOut = false) :
    (dat0 V c).arrAt w cfg0.N = V c (Pipeline.arrRef spec0 w) :=
  ((dat0 V c).arrAt_in w hw _).trans (A_eq0 V c w)

end Cert.KernelIdeal.HandValue

end
-- ==== Proof.KI.Pay1.lean ====
/-
  The arithmetic of one block of layer 2 (pallas_call 1), at the exact-arithmetic instance, entry by entry.

  The body multiplies each row of the neighbour sums by that row's entry of the reciprocal-degree column, takes the
  matrix product with the first weight matrix into the zero accumulator, adds the bias row to every row, adds the
  matrix product of the features with the second weight matrix, adds the block of the previous layer's output, and
  takes the maximum with zero.  Entry (p, q) is therefore

      max ((Σ_k (s(p,k) · n(p,0)) · wl(k,q) + b(0,q)) + Σ_k h(p,k) · wr(k,q) + prev(p,q)) 0,

  the scaled-sums layer before its activation, plus the previous block, clamped below at zero.  The casts of an
  array to its own shape are the identity; the column of reciprocals spread along the rows reads its one entry of
  the row, the bias row spread down the columns its entry of the column; a matrix product into the zero accumulator
  is the plain sum over the contracted axis.
-/
import proofs.«165607_j15298673509107_2_alg».proof.Proof.Gen.KernelIdeal.Skeleton
import proofs.«165607_j15298673509107_2_alg».proof.Proof.LibGraphLayers

noncomputable section

namespace Cert.KernelIdeal.HandValue

open Cert.KernelIdeal Cert.KernelIdeal.Gen
open Idealize.ShloMosaic Idealize.ShloMosaic.ValueIdx Cert.LibTileOps Cert.GnnSpec
open scoped BigOperators

/-- The contraction of a [10000, 32] block with a [32, 32] weight matrix is a plain matrix product. -/
theorem plain1 : Cert.LibPlainDot.Plain dot_S10000x32_S32x32_S10000x32_1_0_0_1_n_n := ⟨rfl, rfl, rfl, rfl, rfl, rfl⟩

/-- The block the body of pallas_call 1 stores, from the blocks it loaded (in window order: neighbour sums, reciprocal
    degrees, features, first weights, bias row, second weights, previous layer's block): the scaled-sums layer plus the
    previous block, clamped below at zero. -/
theorem k1_pay1_eq (x0 : FVec Ideal S10000x32 .f32) (x1 : FVec Ideal S10000x1 .f32) (x2 : FVec Ideal S10000x32 .f32)
    (x3 : FVec Ideal S32x32 .f32) (x4 : FVec Ideal S1x32 .f32) (x5 : FVec Ideal S32x32 .f32) (x6 : FVec Ideal S10000x32 .f32) :
    k1_pay1 (F := Ideal) x0 x1 x2 x3 x5 x4 x6 = fun i => max (kpre x0 x1 x2 x3 x4 x5 i + x6 i) zeroW := by
  funext i
  obtain ⟨p, q, rfl⟩ : ∃ (p : Fin 10000) (q : Fin 32), i = ix2 p q := ⟨i 0, i 1, eq_ix2 i⟩
  unfold k1_pay1
  simp only [shapeCast_self]
  refine (maximumf_apply _ _ _).trans ?_
  refine congrArg₂ max ?_ rfl
  refine (addf_apply _ _ _).trans ?_
  refine congrArg₂ (· + ·) ?_ rfl
  refine (addf_apply _ _ _).trans ?_
  refine congrArg₂ (· + ·) ?_ ?_
  · refine (addf_apply _ _ _).trans ?_
    refine congrArg₂ (· + ·) ?_ ?_
    · refine (plain1.matmul_zero_apply (some .fp32) _ _ p q).trans ?_
      refine Finset.sum_congr rfl fun k _ => congrArg₂ (· * ·) ?_ rfl
      refine (mulf_apply _ _ _).trans ?_
      exact congrArg₂ (· * ·) rfl (Cert.LibKeepdims.broadcastTo_a1_ab_apply x1 _ p k)
    · exact Cert.LibRowLayout.broadcastTo_1b_ab_apply x4 _ p q
  · exact plain1.matmul_zero_apply (some .fp32) _ _ p q

end Cert.KernelIdeal.HandValue

end
-- ==== Proof.LibMidRows.lean ====
/-
  Row blocks of the two middle layers.

  The layer is computed row by row: entry (r, q) of the scaled-sums layer reads row r of the neighbour sums, entry r of
  the reciprocal-degree column and row r of the features, and the whole of the two weight matrices and the bias row.
  So the layer of the rows r₀ … r₀ + 9999 of the three row-indexed arrays is the rows r₀ … r₀ + 9999 of the layer, and
  the same holds after adding the features' own rows and taking the maximum with zero.
-/
import proofs.«165607_j15298673509107_2_alg».proof.Proof.LibGraphLayers

noncomputable section

namespace Cert.KernelIdeal.HandValue.Mid

open Idealize.ShloMosaic Idealize.ShloMosaic.ValueIdx Cert.LibTileOps Cert.GnnSpec
open scoped BigOperators

variable {B K D : ℕ}

/-- Rows `r` … `r + 9999` of an array of 100000 rows, as an array of 10000 rows. -/
def rowBlock (r : ℕ) (hr : r + 10000 ≤ 100000) (a : FVec Ideal ⟨2, ![100000, B]⟩ .f32) : FVec Ideal ⟨2, ![10000, B]⟩ .f32 :=
  fun y => a (ix2 (⟨r + (y 0).val, by have h : (y 0).val < 10000 := (y 0).isLt; omega⟩ : Fin 100000) (y 1))

theorem rowBlock_apply (r : ℕ) (hr : r + 10000 ≤ 100000) (a : FVec Ideal ⟨2, ![100000, B]⟩ .f32) (p : Fin 10000) (q : Fin B) :
    rowBlock r hr a (ix2 p q) = a (ix2 (⟨r + p.val, by have := p.isLt; omega⟩ : Fin 100000) q) := rfl

/-- The layer before its activation, of a row block of the row-indexed arrays, is that row block of the layer. -/
theorem kpre_rowBlock (r : ℕ) (hr : r + 10000 ≤ 100000) (s : FVec Ideal ⟨2, ![100000, K]⟩ .f32)
    (n : FVec Ideal ⟨2, ![100000, 1]⟩ .f32) (h : FVec Ideal ⟨2, ![100000, K]⟩ .f32) (wl : FVec Ideal ⟨2, ![K, D]⟩ .f32)
    (b : FVec Ideal ⟨2, ![1, D]⟩ .f32) (wr : FVec Ideal ⟨2, ![K, D]⟩ .f32) :
    kpre (rowBlock r hr s) (rowBlock r hr n) (rowBlock r hr h) wl b wr = rowBlock r hr (kpre s n h wl b wr) := by
  funext i
  obtain ⟨p, q, rfl⟩ : ∃ (p : Fin 10000) (q : Fin D), i = ix2 p q := ⟨i 0, i 1, eq_ix2 i⟩
  rfl

/-- The layer plus its own input, clamped below at zero, of a row block is that row block of the layer. -/
theorem skipRelu_rowBlock (r : ℕ) (hr : r + 10000 ≤ 100000) (s : FVec Ideal ⟨2, ![100000, D]⟩ .f32)
    (n : FVec Ideal ⟨2, ![100000, 1]⟩ .f32) (h : FVec Ideal ⟨2, ![100000, D]⟩ .f32) (wl : FVec Ideal ⟨2, ![D, D]⟩ .f32)
    (b : FVec Ideal ⟨2, ![1, D]⟩ .f32) (wr : FVec Ideal ⟨2, ![D, D]⟩ .f32) :
    (fun i => max (kpre (rowBlock r hr s) (rowBlock r hr n) (rowBlock r hr h) wl b wr i + rowBlock r hr h i) zeroW)
      = rowBlock r hr (klayerSkipRelu s n h wl b wr) := by
  rw [kpre_rowBlock]
  rfl

end Cert.KernelIdeal.HandValue.Mid

end
-- ==== Proof.KI.Value1.lean ====
/-
  Layer 2 (pallas_call 1) from blocks to the whole array, at the exact-arithmetic instance.

  The grid has ten points; point t stages rows 10000·t … 10000·t + 9999 of the neighbour sums, of the reciprocal-degree
  column and (twice, through two windows on one array) of the features, and the whole of the two weight matrices and of
  the bias row; it writes back rows 10000·t … 10000·t + 9999 of the output.  The layer is computed row by row, so what
  point t writes back is its row block of ONE array: the scaled-sums layer of the whole arrays plus the features,
  clamped below at zero.  The ten row blocks tile the 100000 rows, so that array is what the output holds after the
  last point.  The input windows are never written back: their arrays stay as the region found them.
-/
import proofs.«165607_j15298673509107_2_alg».proof.Proof.KI.Dat1
import proofs.«165607_j15298673509107_2_alg».proof.Proof.KI.Pay1
import proofs.«165607_j15298673509107_2_alg».proof.Proof.LibMidRows
import Idealize.ShloMosaic.Lib.Pipeline.Value

set_option maxRecDepth 16384

noncomputable section

namespace Cert.KernelIdeal.HandValue

open Cert.KernelIdeal Cert.KernelIdeal.Gen Cert.KernelIdeal.Hand Cert.KernelIdeal.HandValue.Mid
open Idealize.ShloMosaic Idealize.ShloMosaic.TcCoe Idealize.SL.Sem Idealize.ShloMosaic.ValueIdx
open Idealize.ShloMosaic.Pipeline (Dat)
open Cert.GnnSpec

-- the TensorCore's buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-- The grid has ten points, and point t's row block ends inside the 100000 rows. -/
theorem rows_le1 (t : Fin cfg1.N) : t.val * 10000 + 10000 ≤ 100000 := by
  have h : t.val < 10 := lt_of_lt_of_eq t.isLt N_1
  omega

/-- The array the output window ends holding: the layer of the whole input arrays. -/
abbrev G1 (c : Dev nD) : S100000x32.Idx → EReal :=
  klayerSkipRelu (V c main_call0_v36 : S100000x32.Idx → EReal) (V c main_call0_v12 : S100000x1.Idx → EReal)
    (V c main_call0_v26 : S100000x32.Idx → EReal) (V c main_call0_v37 : S32x32.Idx → EReal)
    (V c main_call0_v39 : S1x32.Idx → EReal) (V c main_call0_v38 : S32x32.Idx → EReal)

/-- The printed index maps over the grid: the row-indexed windows (0, 1, 2, 6 and the output 7) are at block t on the row
    axis and block 0 on the column axis; the weights' and the bias's windows stay at block 0. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-! ## The staged blocks, read off the arrays -/

/-- Window 0's block at point t: rows 10000·t … of the neighbour sums. -/
theorem blk1_0 (c : Dev nD) (t : Fin cfg1.N) :
    (iblk1 V c 0 t : FVec Ideal S10000x32 .f32) = rowBlock (t.val * 10000) (rows_le1 t) (V c main_call0_v36 : S100000x32.Idx → EReal) := by
  funext y
  show (V c main_call0_v36 : S100000x32.Idx → EReal) (((cfg1.win 0).blk t).view.emb y) = (V c main_call0_v36 : S100000x32.Idx → EReal) _
  refine congrArg _ (funext fun a => Fin.ext ?_)
  obtain ⟨e0, e1⟩ := (idx1 t).1
  match a with
  | ⟨0, _⟩ => show win1_0.index t (0 : Fin 2) * 10000 + 1 * (y 0).val = t.val * 10000 + (y 0).val; rw [e0]; omega
  | ⟨1, _⟩ => show win1_0.index t (1 : Fin 2) * 32 + 1 * (y 1).val = (y 1).val; rw [e1]; omega

/-- Window 1's block at point t: rows 10000·t … of the reciprocal-degree column. -/
theorem blk1_1 (c : Dev nD) (t : Fin cfg1.N) :
    (iblk1 V c 1 t : FVec Ideal S10000x1 .f32) = rowBlock (t.val * 10000) (rows_le1 t) (V c main_call0_v12 : S100000x1.Idx → EReal) := by
  funext y
  show (V c main_call0_v12 : S100000x1.Idx → EReal) (((cfg1.win 1).blk t).view.emb y) = (V c main_call0_v12 : S100000x1.Idx → EReal) _
  refine congrArg _ (funext fun a => Fin.ext ?_)
  obtain ⟨e0, e1⟩ := (idx1 t).2.1
  match a with
  | ⟨0, _⟩ => show win1_1.index t (0 : Fin 2) * 10000 + 1 * (y 0).val = t.val * 10000 + (y 0).val; rw [e0]; omega
  | ⟨1, _⟩ => show win1_1.index t (1 : Fin 2) * 1 + 1 * (y 1).val = (y 1).val; rw [e1]; omega

/-- Window 2's block at point t: rows 10000·t … of the features. -/
theorem blk1_2 (c : Dev nD) (t : Fin cfg1.N) :
    (iblk1 V c 2 t : FVec Ideal S10000x32 .f32) = rowBlock (t.val * 10000) (rows_le1 t) (V c main_call0_v26 : S100000x32.Idx → EReal) := by
  funext y
  show (V c main_call0_v26 : S100000x32.Idx → EReal) (((cfg1.win 2).blk t).view.emb y) = (V c main_call0_v26 : S100000x32.Idx → EReal) _
  refine congrArg _ (funext fun a => Fin.ext ?_)
  obtain ⟨e0, e1⟩ := (idx1 t).2.2.1
  match a with
  | ⟨0, _⟩ => show win1_2.index t (0 : Fin 2) * 10000 + 1 * (y 0).val = t.val * 10000 + (y 0).val; rw [e0]; omega
  | ⟨1, _⟩ => show win1_2.index t (1 : Fin 2) * 32 + 1 * (y 1).val = (y 1).val; rw [e1]; omega

/-- Window 3's block at every point: the whole of the first weight matrix. -/
theorem blk1_3 (c : Dev nD) (t : Fin cfg1.N) :
    (iblk1 V c 3 t : FVec Ideal S32x32 .f32) = (V c main_call0_v37 : S32x32.Idx → EReal) := by
  funext y
  show (V c main_call0_v37 : S32x32.Idx → EReal) (((cfg1.win 3).blk t).view.emb y) = (V c main_call0_v37 : S32x32.Idx → EReal) y
  refine congrArg _ (funext fun a => Fin.ext ?_)
  obtain ⟨e0, e1⟩ := (idx1 t).2.2.2.1
  match a with
  | ⟨0, _⟩ => show win1_3.index t (0 : Fin 2) * 32 + 1 * (y 0).val = (y 0).val; rw [e0]; omega
  | ⟨1, _⟩ => show win1_3.index t (1 : Fin 2) * 32 + 1 * (y 1).val = (y 1).val; rw [e1]; omega

/-- Window 4's block at every point: the whole of the bias row. -/
theorem blk1_4 (c : Dev nD) (t : Fin cfg1.N) :
    (iblk1 V c 4 t : FVec Ideal S1x32 .f32) = (V c main_call0_v39 : S1x32.Idx → EReal) := by
  funext y
  show (V c main_call0_v39 : S1x32.Idx → EReal) (((cfg1.win 4).blk t).view.emb y) = (V c main_call0_v39 : S1x32.Idx → EReal) y
  refine congrArg _ (funext fun a => Fin.ext ?_)
  obtain ⟨e0, e1⟩ := (idx1 t).2.2.2.2.1
  match a with
  | ⟨0, _⟩ => show win1_4.index t (0 : Fin 2) * 1 + 1 * (y 0).val = (y 0).val; rw [e0]; omega
  | ⟨1, _⟩ => show win1_4.index t (1 : Fin 2) * 32 + 1 * (y 1).val = (y 1).val; rw [e1]; omega

/-- Window 5's block at every point: the whole of the second weight matrix. -/
theorem blk1_5 (c : Dev nD) (t : Fin cfg1.N) :
    (iblk1 V c 5 t : FVec Ideal S32x32 .f32) = (V c main_call0_v38 : S32x32.Idx → EReal) := by
  funext y
  show (V c main_call0_v38 : S32x32.Idx → EReal) (((cfg1.win 5).blk t).view.emb y) = (V c main_call0_v38 : S32x32.Idx → EReal) y
  refine congrArg _ (funext fun a => Fin.ext ?_)
  obtain ⟨e0, e1⟩ := (idx1 t).2.2.2.2.2.1
  match a with
  | ⟨0, _⟩ => show win1_5.index t (0 : Fin 2) * 32 + 1 * (y 0).val = (y 0).val; rw [e0]; omega
  | ⟨1, _⟩ => show win1_5.index t (1 : Fin 2) * 32 + 1 * (y 1).val = (y 1).val; rw [e1]; omega

/-- Window 6's block at point t: rows 10000·t … of the features again (the second window on their array). -/
theorem blk1_6 (c : Dev nD) (t : Fin cfg1.N) :
    (iblk1 V c 6 t : FVec Ideal S10000x32 .f32) = rowBlock (t.val * 10000) (rows_le1 t) (V c main_call0_v26 : S100000x32.Idx → EReal) := by
  funext y
  show (V c main_call0_v26 : S100000x32.Idx → EReal) (((cfg1.win 6).blk t).view.emb y) = (V c main_call0_v26 : S100000x32.Idx → EReal) _
  refine congrArg _ (funext fun a => Fin.ext ?_)
  obtain ⟨e0, e1⟩ := (idx1 t).2.2.2.2.2.2.1
  match a with
  | ⟨0, _⟩ => show win1_6.index t (0 : Fin 2) * 10000 + 1 * (y 0).val = t.val * 10000 + (y 0).val; rw [e0]; omega
  | ⟨1, _⟩ => show win1_6.index t (1 : Fin 2) * 32 + 1 * (y 1).val = (y 1).val; rw [e1]; omega

/-- The output window's block at point t, read off any contents of its array: rows 10000·t … of them. -/
theorem read_blk1_7 (t : Fin cfg1.N) (G : S100000x32.Idx → EReal) :
    (((cfg1.win 7).blk t).view.read (Elt Ideal) G : FVec Ideal S10000x32 .f32) = rowBlock (t.val * 10000) (rows_le1 t) G := by
  funext y
  show G (((cfg1.win 7).blk t).view.emb y) = G _
  refine congrArg _ (funext fun a => Fin.ext ?_)
  obtain ⟨e0, e1⟩ := (idx1 t).2.2.2.2.2.2.2
  match a with
  | ⟨0, _⟩ => show win1_7.index t (0 : Fin 2) * 10000 + 1 * (y 0).val = t.val * 10000 + (y 0).val; rw [e0]; omega
  | ⟨1, _⟩ => show win1_7.index t (1 : Fin 2) * 32 + 1 * (y 1).val = (y 1).val; rw [e1]; omega

/-! ## What a point writes back -/

/-- What the body leaves in the output window's buffer, from the seven staged blocks: the scaled-sums layer of the
    blocks plus the seventh block, clamped below at zero. -/
theorem out1_7_eq (x0 : FVec Ideal S10000x32 .f32) (x1 : FVec Ideal S10000x1 .f32) (x2 : FVec Ideal S10000x32 .f32)
    (x3 : FVec Ideal S32x32 .f32) (x4 : FVec Ideal S1x32 .f32) (x5 : FVec Ideal S32x32 .f32) (x6 : FVec Ideal S10000x32 .f32) :
    out1_7 (F := Ideal) x0 x1 x2 x3 x4 x5 x6 = fun i => max (kpre x0 x1 x2 x3 x4 x5 i + x6 i) zeroW := by
  unfold out1_7
  rw [View.canon_unit_zero hz1]
  simp only [View.ld_unit_zero (S := S10000x32) hz1, View.ld_unit_zero (S := S10000x1) hz1,
    View.ld_unit_zero (S := S32x32) hz1, View.ld_unit_zero (S := S1x32) hz1]
  exact k1_pay1_eq x0 x1 x2 x3 x4 x5 x6

/-- The same at row blocks of whole arrays: the row block of the layer of the whole arrays. -/
theorem out1_7_rows (r : ℕ) (hr : r + 10000 ≤ 100000) (s : FVec Ideal S100000x32 .f32) (n : FVec Ideal S100000x1 .f32)
    (h : FVec Ideal S100000x32 .f32) (wl : FVec Ideal S32x32 .f32) (b : FVec Ideal S1x32 .f32) (wr : FVec Ideal S32x32 .f32)
    (x0 : FVec Ideal S10000x32 .f32) (x1 : FVec Ideal S10000x1 .f32) (x2 : FVec Ideal S10000x32 .f32)
    (x3 : FVec Ideal S32x32 .f32) (x4 : FVec Ideal S1x32 .f32) (x5 : FVec Ideal S32x32 .f32) (x6 : FVec Ideal S10000x32 .f32)
    (h0 : x0 = rowBlock r hr s) (h1 : x1 = rowBlock r hr n) (h2 : x2 = rowBlock r hr h) (h3 : x3 = wl) (h4 : x4 = b)
    (h5 : x5 = wr) (h6 : x6 = rowBlock r hr h) :
    out1_7 (F := Ideal) x0 x1 x2 x3 x4 x5 x6 = rowBlock r hr (klayerSkipRelu s n h wl b wr) := by
  subst h0 h1 h2 h3 h4 h5 h6
  rw [out1_7_eq, skipRelu_rowBlock]

/-- What point t writes back is its row block of the layer of the whole arrays. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  refine Eq.trans ?_ (read_blk1_7 t (G1 V c)).symm
  exact out1_7_rows (t.val * 10000) (rows_le1 t) _ _ _ _ _ _ _ _ _ _ _ _ _
    (blk1_0 V c t) (blk1_1 V c t) (blk1_2 V c t) (blk1_3 V c t) (blk1_4 V c t) (blk1_5 V c t) (blk1_6 V c t)

/-! ## The ten row blocks tile the array -/

/-- An index of the output array is in point t's block iff each coordinate is in the block's range on its axis. -/
theorem mem_blk1 (t : Fin cfg1.N) (i : S100000x32.Idx) :
    i ∈ ((cfg1.win 7).blk t).view.set ↔ ∀ a : Fin 2, win1_7.index t a * S10000x32.size a ≤ (i a).val
      ∧ (i a).val < win1_7.index t a * S10000x32.size a + S10000x32.size a := by
  show i ∈ ((View.whole main_call0_v40).slice (win1_7.rect t)).set ↔ _
  rw [View.set_slice_whole, Rect.mem_set_unit]
  exact Iff.rfl

/-- Row r is in the block of point r / 10000, and every point writes back. -/
theorem cover1 (i : S100000x32.Idx) :
    ∃ t : Fin cfg1.N, (cfg1.win 7).flush t = true ∧ i ∈ ((cfg1.win 7).blk t).view.set := by
  have hi0 : (i 0).val < 100000 := (i 0).isLt
  have hi1 : (i 1).val < 32 := (i 1).isLt
  have hN : grid1.N = 10 := N_1
  let t : Fin cfg1.N := ⟨(i 0).val / 10000, by show (i 0).val / 10000 < grid1.N; rw [hN]; omega⟩
  have ht : t.val = (i 0).val / 10000 := rfl
  obtain ⟨e0, e1⟩ := (idx1 t).2.2.2.2.2.2.2
  refine ⟨t, flush1_7 t, ?_⟩
  rw [mem_blk1]
  intro a
  match a with
  | ⟨0, _⟩ => show win1_7.index t (0 : Fin 2) * 10000 ≤ (i 0).val ∧ (i 0).val < win1_7.index t (0 : Fin 2) * 10000 + 10000; rw [e0, ht]; omega
  | ⟨1, _⟩ => show win1_7.index t (1 : Fin 2) * 32 ≤ (i 1).val ∧ (i 1).val < win1_7.index t (1 : Fin 2) * 32 + 32; rw [e1]; omega

/-! ## The arrays after the region -/

/-- The output array after the last point: the layer — scaled sums, plus the features, clamped below at zero — of the
    arrays as the region found them. -/
theorem final1 (c : Dev nD) :
    ((dat1 (F := Ideal) V c).arrAt 7 cfg1.N : S100000x32.Idx → EReal)
      = klayerSkipRelu (V c main_call0_v36 : S100000x32.Idx → EReal) (V c main_call0_v12 : S100000x1.Idx → EReal)
          (V c main_call0_v26 : S100000x32.Idx → EReal) (V c main_call0_v37 : S32x32.Idx → EReal)
          (V c main_call0_v39 : S1x32.Idx → EReal) (V c main_call0_v38 : S32x32.Idx → EReal) :=
  (dat1 V c).arrAt_eq_of_cover 7 (G1 V c) (fun t _ => flushed1_eq V c t) cover1

/-- An input window's array is never written back: after the region it is as the region found it. -/
theorem kept1 (c : Dev nD) (w : Fin cfg1.W) (hin : (cfg1.win w).isOut = false) :
    (dat1 (F := Ideal) V c).arrAt w cfg1.N = V c (Pipeline.arrRef spec1 w) :=
  ((dat1 V c).arrAt_in w hin cfg1.N).trans (A_eq1 V c w)

end Cert.KernelIdeal.HandValue

end
-- ==== Proof.KI.Pay2.lean ====
/-
  The arithmetic of one block of layer 3 (pallas_call 2), at the exact-arithmetic instance, entry by entry.

  The body multiplies each row of the neighbour sums by that row's entry of the reciprocal-degree column, takes the
  matrix product with the first weight matrix into the zero accumulator, adds the bias row to every row, adds the
  matrix product of the features with the second weight matrix, adds the block of the previous layer's output, and
  takes the maximum with zero.  Entry (p, q) is therefore

      max ((Σ_k (s(p,k) · n(p,0)) · wl(k,q) + b(0,q)) + Σ_k h(p,k) · wr(k,q) + prev(p,q)) 0,

  the scaled-sums layer before its activation, plus the previous block, clamped below at zero.  The casts of an
  array to its own shape are the identity; the column of reciprocals spread along the rows reads its one entry of
  the row, the bias row spread down the columns its entry of the column; a matrix product into the zero accumulator
  is the plain sum over the contracted axis.
-/
import proofs.«165607_j15298673509107_2_alg».proof.Proof.Gen.KernelIdeal.Skeleton
import proofs.«165607_j15298673509107_2_alg».proof.Proof.LibGraphLayers

noncomputable section

namespace Cert.KernelIdeal.HandValue

open Cert.KernelIdeal Cert.KernelIdeal.Gen
open Idealize.ShloMosaic Idealize.ShloMosaic.ValueIdx Cert.LibTileOps Cert.GnnSpec
open scoped BigOperators

/-- The contraction of a [10000, 32] block with a [32, 32] weight matrix is a plain matrix product. -/
theorem plain2 : Cert.LibPlainDot.Plain dot_S10000x32_S32x32_S10000x32_1_0_0_1_n_n := ⟨rfl, rfl, rfl, rfl, rfl, rfl⟩

/-- The block the body of pallas_call 2 stores, from the blocks it loaded (in window order: neighbour sums, reciprocal
    degrees, features, first weights, bias row, second weights, previous layer's block): the scaled-sums layer plus the
    previous block, clamped below at zero. -/
theorem k2_pay1_eq (x0 : FVec Ideal S10000x32 .f32) (x1 : FVec Ideal S10000x1 .f32) (x2 : FVec Ideal S10000x32 .f32)
    (x3 : FVec Ideal S32x32 .f32) (x4 : FVec Ideal S1x32 .f32) (x5 : FVec Ideal S32x32 .f32) (x6 : FVec Ideal S10000x32 .f32) :
    k2_pay1 (F := Ideal) x0 x1 x2 x3 x5 x4 x6 = fun i => max (kpre x0 x1 x2 x3 x4 x5 i + x6 i) zeroW := by
  funext i
  obtain ⟨p, q, rfl⟩ : ∃ (p : Fin 10000) (q : Fin 32), i = ix2 p q := ⟨i 0, i 1, eq_ix2 i⟩
  unfold k2_pay1
  simp only [shapeCast_self]
  refine (maximumf_apply _ _ _).trans ?_
  refine congrArg₂ max ?_ rfl
  refine (addf_apply _ _ _).trans ?_
  refine congrArg₂ (· + ·) ?_ rfl
  refine (addf_apply _ _ _).trans ?_
  refine congrArg₂ (· + ·) ?_ ?_
  · refine (addf_apply _ _ _).trans ?_
    refine congrArg₂ (· + ·) ?_ ?_
    · refine (plain2.matmul_zero_apply (some .fp32) _ _ p q).trans ?_
      refine Finset.sum_congr rfl fun k _ => congrArg₂ (· * ·) ?_ rfl
      refine (mulf_apply _ _ _).trans ?_
      exact congrArg₂ (· * ·) rfl (Cert.LibKeepdims.broadcastTo_a1_ab_apply x1 _ p k)
    · exact Cert.LibRowLayout.broadcastTo_1b_ab_apply x4 _ p q
  · exact plain2.matmul_zero_apply (some .fp32) _ _ p q

end Cert.KernelIdeal.HandValue

end
-- ==== Proof.KI.Value2.lean ====
/-
  Layer 3 (pallas_call 2) from blocks to the whole array, at the exact-arithmetic instance.

  The grid has ten points; point t stages rows 10000·t … 10000·t + 9999 of the neighbour sums, of the reciprocal-degree
  column and (twice, through two windows on one array) of the features, and the whole of the two weight matrices and of
  the bias row; it writes back rows 10000·t … 10000·t + 9999 of the output.  The layer is computed row by row, so what
  point t writes back is its row block of ONE array: the scaled-sums layer of the whole arrays plus the features,
  clamped below at zero.  The ten row blocks tile the 100000 rows, so that array is what the output holds after the
  last point.  The input windows are never written back: their arrays stay as the region found them.
-/
import proofs.«165607_j15298673509107_2_alg».proof.Proof.KI.Dat2
import proofs.«165607_j15298673509107_2_alg».proof.Proof.KI.Pay2
import proofs.«165607_j15298673509107_2_alg».proof.Proof.LibMidRows
import Idealize.ShloMosaic.Lib.Pipeline.Value

set_option maxRecDepth 16384

noncomputable section

namespace Cert.KernelIdeal.HandValue

open Cert.KernelIdeal Cert.KernelIdeal.Gen Cert.KernelIdeal.Hand Cert.KernelIdeal.HandValue.Mid
open Idealize.ShloMosaic Idealize.ShloMosaic.TcCoe Idealize.SL.Sem Idealize.ShloMosaic.ValueIdx
open Idealize.ShloMosaic.Pipeline (Dat)
open Cert.GnnSpec

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The grid has ten points, and point t's row block ends inside the 100000 rows. -/
theorem rows_le2 (t : Fin cfg2.N) : t.val * 10000 + 10000 ≤ 100000 := by
  have h : t.val < 10 := lt_of_lt_of_eq t.isLt N_2
  omega

/-- The array the output window ends holding: the layer of the whole input arrays. -/
abbrev G2 (c : Dev nD) : S100000x32.Idx → EReal :=
  klayerSkipRelu (V c main_call0_v50 : S100000x32.Idx → EReal) (V c main_call0_v12 : S100000x1.Idx → EReal)
    (V c main_call0_v40 : S100000x32.Idx → EReal) (V c main_call0_v51 : S32x32.Idx → EReal)
    (V c main_call0_v53 : S1x32.Idx → EReal) (V c main_call0_v52 : S32x32.Idx → EReal)

/-- The printed index maps over the grid: the row-indexed windows (0, 1, 2, 6 and the output 7) are at block t on the row
    axis and block 0 on the column axis; the weights' and the bias's windows stay at block 0. -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-! ## The staged blocks, read off the arrays -/

/-- Window 0's block at point t: rows 10000·t … of the neighbour sums. -/
theorem blk2_0 (c : Dev nD) (t : Fin cfg2.N) :
    (iblk2 V c 0 t : FVec Ideal S10000x32 .f32) = rowBlock (t.val * 10000) (rows_le2 t) (V c main_call0_v50 : S100000x32.Idx → EReal) := by
  funext y
  show (V c main_call0_v50 : S100000x32.Idx → EReal) (((cfg2.win 0).blk t).view.emb y) = (V c main_call0_v50 : S100000x32.Idx → EReal) _
  refine congrArg _ (funext fun a => Fin.ext ?_)
  obtain ⟨e0, e1⟩ := (idx2 t).1
  match a with
  | ⟨0, _⟩ => show win2_0.index t (0 : Fin 2) * 10000 + 1 * (y 0).val = t.val * 10000 + (y 0).val; rw [e0]; omega
  | ⟨1, _⟩ => show win2_0.index t (1 : Fin 2) * 32 + 1 * (y 1).val = (y 1).val; rw [e1]; omega

/-- Window 1's block at point t: rows 10000·t … of the reciprocal-degree column. -/
theorem blk2_1 (c : Dev nD) (t : Fin cfg2.N) :
    (iblk2 V c 1 t : FVec Ideal S10000x1 .f32) = rowBlock (t.val * 10000) (rows_le2 t) (V c main_call0_v12 : S100000x1.Idx → EReal) := by
  funext y
  show (V c main_call0_v12 : S100000x1.Idx → EReal) (((cfg2.win 1).blk t).view.emb y) = (V c main_call0_v12 : S100000x1.Idx → EReal) _
  refine congrArg _ (funext fun a => Fin.ext ?_)
  obtain ⟨e0, e1⟩ := (idx2 t).2.1
  match a with
  | ⟨0, _⟩ => show win2_1.index t (0 : Fin 2) * 10000 + 1 * (y 0).val = t.val * 10000 + (y 0).val; rw [e0]; omega
  | ⟨1, _⟩ => show win2_1.index t (1 : Fin 2) * 1 + 1 * (y 1).val = (y 1).val; rw [e1]; omega

/-- Window 2's block at point t: rows 10000·t … of the features. -/
theorem blk2_2 (c : Dev nD) (t : Fin cfg2.N) :
    (iblk2 V c 2 t : FVec Ideal S10000x32 .f32) = rowBlock (t.val * 10000) (rows_le2 t) (V c main_call0_v40 : S100000x32.Idx → EReal) := by
  funext y
  show (V c main_call0_v40 : S100000x32.Idx → EReal) (((cfg2.win 2).blk t).view.emb y) = (V c main_call0_v40 : S100000x32.Idx → EReal) _
  refine congrArg _ (funext fun a => Fin.ext ?_)
  obtain ⟨e0, e1⟩ := (idx2 t).2.2.1
  match a with
  | ⟨0, _⟩ => show win2_2.index t (0 : Fin 2) * 10000 + 1 * (y 0).val = t.val * 10000 + (y 0).val; rw [e0]; omega
  | ⟨1, _⟩ => show win2_2.index t (1 : Fin 2) * 32 + 1 * (y 1).val = (y 1).val; rw [e1]; omega

/-- Window 3's block at every point: the whole of the first weight matrix. -/
theorem blk2_3 (c : Dev nD) (t : Fin cfg2.N) :
    (iblk2 V c 3 t : FVec Ideal S32x32 .f32) = (V c main_call0_v51 : S32x32.Idx → EReal) := by
  funext y
  show (V c main_call0_v51 : S32x32.Idx → EReal) (((cfg2.win 3).blk t).view.emb y) = (V c main_call0_v51 : S32x32.Idx → EReal) y
  refine congrArg _ (funext fun a => Fin.ext ?_)
  obtain ⟨e0, e1⟩ := (idx2 t).2.2.2.1
  match a with
  | ⟨0, _⟩ => show win2_3.index t (0 : Fin 2) * 32 + 1 * (y 0).val = (y 0).val; rw [e0]; omega
  | ⟨1, _⟩ => show win2_3.index t (1 : Fin 2) * 32 + 1 * (y 1).val = (y 1).val; rw [e1]; omega

/-- Window 4's block at every point: the whole of the bias row. -/
theorem blk2_4 (c : Dev nD) (t : Fin cfg2.N) :
    (iblk2 V c 4 t : FVec Ideal S1x32 .f32) = (V c main_call0_v53 : S1x32.Idx → EReal) := by
  funext y
  show (V c main_call0_v53 : S1x32.Idx → EReal) (((cfg2.win 4).blk t).view.emb y) = (V c main_call0_v53 : S1x32.Idx → EReal) y
  refine congrArg _ (funext fun a => Fin.ext ?_)
  obtain ⟨e0, e1⟩ := (idx2 t).2.2.2.2.1
  match a with
  | ⟨0, _⟩ => show win2_4.index t (0 : Fin 2) * 1 + 1 * (y 0).val = (y 0).val; rw [e0]; omega
  | ⟨1, _⟩ => show win2_4.index t (1 : Fin 2) * 32 + 1 * (y 1).val = (y 1).val; rw [e1]; omega

/-- Window 5's block at every point: the whole of the second weight matrix. -/
theorem blk2_5 (c : Dev nD) (t : Fin cfg2.N) :
    (iblk2 V c 5 t : FVec Ideal S32x32 .f32) = (V c main_call0_v52 : S32x32.Idx → EReal) := by
  funext y
  show (V c main_call0_v52 : S32x32.Idx → EReal) (((cfg2.win 5).blk t).view.emb y) = (V c main_call0_v52 : S32x32.Idx → EReal) y
  refine congrArg _ (funext fun a => Fin.ext ?_)
  obtain ⟨e0, e1⟩ := (idx2 t).2.2.2.2.2.1
  match a with
  | ⟨0, _⟩ => show win2_5.index t (0 : Fin 2) * 32 + 1 * (y 0).val = (y 0).val; rw [e0]; omega
  | ⟨1, _⟩ => show win2_5.index t (1 : Fin 2) * 32 + 1 * (y 1).val = (y 1).val; rw [e1]; omega

/-- Window 6's block at point t: rows 10000·t … of the features again (the second window on their array). -/
theorem blk2_6 (c : Dev nD) (t : Fin cfg2.N) :
    (iblk2 V c 6 t : FVec Ideal S10000x32 .f32) = rowBlock (t.val * 10000) (rows_le2 t) (V c main_call0_v40 : S100000x32.Idx → EReal) := by
  funext y
  show (V c main_call0_v40 : S100000x32.Idx → EReal) (((cfg2.win 6).blk t).view.emb y) = (V c main_call0_v40 : S100000x32.Idx → EReal) _
  refine congrArg _ (funext fun a => Fin.ext ?_)
  obtain ⟨e0, e1⟩ := (idx2 t).2.2.2.2.2.2.1
  match a with
  | ⟨0, _⟩ => show win2_6.index t (0 : Fin 2) * 10000 + 1 * (y 0).val = t.val * 10000 + (y 0).val; rw [e0]; omega
  | ⟨1, _⟩ => show win2_6.index t (1 : Fin 2) * 32 + 1 * (y 1).val = (y 1).val; rw [e1]; omega

/-- The output window's block at point t, read off any contents of its array: rows 10000·t … of them. -/
theorem read_blk2_7 (t : Fin cfg2.N) (G : S100000x32.Idx → EReal) :
    (((cfg2.win 7).blk t).view.read (Elt Ideal) G : FVec Ideal S10000x32 .f32) = rowBlock (t.val * 10000) (rows_le2 t) G := by
  funext y
  show G (((cfg2.win 7).blk t).view.emb y) = G _
  refine congrArg _ (funext fun a => Fin.ext ?_)
  obtain ⟨e0, e1⟩ := (idx2 t).2.2.2.2.2.2.2
  match a with
  | ⟨0, _⟩ => show win2_7.index t (0 : Fin 2) * 10000 + 1 * (y 0).val = t.val * 10000 + (y 0).val; rw [e0]; omega
  | ⟨1, _⟩ => show win2_7.index t (1 : Fin 2) * 32 + 1 * (y 1).val = (y 1).val; rw [e1]; omega

/-! ## What a point writes back -/

/-- What the body leaves in the output window's buffer, from the seven staged blocks: the scaled-sums layer of the
    blocks plus the seventh block, clamped below at zero. -/
theorem out2_7_eq (x0 : FVec Ideal S10000x32 .f32) (x1 : FVec Ideal S10000x1 .f32) (x2 : FVec Ideal S10000x32 .f32)
    (x3 : FVec Ideal S32x32 .f32) (x4 : FVec Ideal S1x32 .f32) (x5 : FVec Ideal S32x32 .f32) (x6 : FVec Ideal S10000x32 .f32) :
    out2_7 (F := Ideal) x0 x1 x2 x3 x4 x5 x6 = fun i => max (kpre x0 x1 x2 x3 x4 x5 i + x6 i) zeroW := by
  unfold out2_7
  rw [View.canon_unit_zero hz2]
  simp only [View.ld_unit_zero (S := S10000x32) hz2, View.ld_unit_zero (S := S10000x1) hz2,
    View.ld_unit_zero (S := S32x32) hz2, View.ld_unit_zero (S := S1x32) hz2]
  exact k2_pay1_eq x0 x1 x2 x3 x4 x5 x6

/-- The same at row blocks of whole arrays: the row block of the layer of the whole arrays. -/
theorem out2_7_rows (r : ℕ) (hr : r + 10000 ≤ 100000) (s : FVec Ideal S100000x32 .f32) (n : FVec Ideal S100000x1 .f32)
    (h : FVec Ideal S100000x32 .f32) (wl : FVec Ideal S32x32 .f32) (b : FVec Ideal S1x32 .f32) (wr : FVec Ideal S32x32 .f32)
    (x0 : FVec Ideal S10000x32 .f32) (x1 : FVec Ideal S10000x1 .f32) (x2 : FVec Ideal S10000x32 .f32)
    (x3 : FVec Ideal S32x32 .f32) (x4 : FVec Ideal S1x32 .f32) (x5 : FVec Ideal S32x32 .f32) (x6 : FVec Ideal S10000x32 .f32)
    (h0 : x0 = rowBlock r hr s) (h1 : x1 = rowBlock r hr n) (h2 : x2 = rowBlock r hr h) (h3 : x3 = wl) (h4 : x4 = b)
    (h5 : x5 = wr) (h6 : x6 = rowBlock r hr h) :
    out2_7 (F := Ideal) x0 x1 x2 x3 x4 x5 x6 = rowBlock r hr (klayerSkipRelu s n h wl b wr) := by
  subst h0 h1 h2 h3 h4 h5 h6
  rw [out2_7_eq, skipRelu_rowBlock]

/-- What point t writes back is its row block of the layer of the whole arrays. -/
theorem flushed2_eq (c : Dev nD) (t : Fin cfg2.N) :
    (dat2 V c).flushed 7 t = ((cfg2.win 7).blk t).view.read (Elt Ideal) (G2 V c) := by
  show (cfg2.win 7).cut (grid2.coords t) ((dat2 V c).after 7 t) = _
  rw [after2_7]
  refine Eq.trans ?_ (read_blk2_7 t (G2 V c)).symm
  exact out2_7_rows (t.val * 10000) (rows_le2 t) _ _ _ _ _ _ _ _ _ _ _ _ _
    (blk2_0 V c t) (blk2_1 V c t) (blk2_2 V c t) (blk2_3 V c t) (blk2_4 V c t) (blk2_5 V c t) (blk2_6 V c t)

/-! ## The ten row blocks tile the array -/

/-- An index of the output array is in point t's block iff each coordinate is in the block's range on its axis. -/
theorem mem_blk2 (t : Fin cfg2.N) (i : S100000x32.Idx) :
    i ∈ ((cfg2.win 7).blk t).view.set ↔ ∀ a : Fin 2, win2_7.index t a * S10000x32.size a ≤ (i a).val
      ∧ (i a).val < win2_7.index t a * S10000x32.size a + S10000x32.size a := by
  show i ∈ ((View.whole main_call0_v54).slice (win2_7.rect t)).set ↔ _
  rw [View.set_slice_whole, Rect.mem_set_unit]
  exact Iff.rfl

/-- Row r is in the block of point r / 10000, and every point writes back. -/
theorem cover2 (i : S100000x32.Idx) :
    ∃ t : Fin cfg2.N, (cfg2.win 7).flush t = true ∧ i ∈ ((cfg2.win 7).blk t).view.set := by
  have hi0 : (i 0).val < 100000 := (i 0).isLt
  have hi1 : (i 1).val < 32 := (i 1).isLt
  have hN : grid2.N = 10 := N_2
  let t : Fin cfg2.N := ⟨(i 0).val / 10000, by show (i 0).val / 10000 < grid2.N; rw [hN]; omega⟩
  have ht : t.val = (i 0).val / 10000 := rfl
  obtain ⟨e0, e1⟩ := (idx2 t).2.2.2.2.2.2.2
  refine ⟨t, flush2_7 t, ?_⟩
  rw [mem_blk2]
  intro a
  match a with
  | ⟨0, _⟩ => show win2_7.index t (0 : Fin 2) * 10000 ≤ (i 0).val ∧ (i 0).val < win2_7.index t (0 : Fin 2) * 10000 + 10000; rw [e0, ht]; omega
  | ⟨1, _⟩ => show win2_7.index t (1 : Fin 2) * 32 ≤ (i 1).val ∧ (i 1).val < win2_7.index t (1 : Fin 2) * 32 + 32; rw [e1]; omega

/-! ## The arrays after the region -/

/-- The output array after the last point: the layer — scaled sums, plus the features, clamped below at zero — of the
    arrays as the region found them. -/
theorem final2 (c : Dev nD) :
    ((dat2 (F := Ideal) V c).arrAt 7 cfg2.N : S100000x32.Idx → EReal)
      = klayerSkipRelu (V c main_call0_v50 : S100000x32.Idx → EReal) (V c main_call0_v12 : S100000x1.Idx → EReal)
          (V c main_call0_v40 : S100000x32.Idx → EReal) (V c main_call0_v51 : S32x32.Idx → EReal)
          (V c main_call0_v53 : S1x32.Idx → EReal) (V c main_call0_v52 : S32x32.Idx → EReal) :=
  (dat2 V c).arrAt_eq_of_cover 7 (G2 V c) (fun t _ => flushed2_eq V c t) cover2

/-- An input window's array is never written back: after the region it is as the region found it. -/
theorem kept2 (c : Dev nD) (w : Fin cfg2.W) (hin : (cfg2.win w).isOut = false) :
    (dat2 (F := Ideal) V c).arrAt w cfg2.N = V c (Pipeline.arrRef spec2 w) :=
  ((dat2 V c).arrAt_in w hin cfg2.N).trans (A_eq2 V c w)

end Cert.KernelIdeal.HandValue

end
-- ==== Proof.KI.Pay3.lean ====
/- Region 3 of the idealized kernel program, the arithmetic of one block at the exact values.

   The body's one stored value, as a function of the six blocks it loads (neighbour sums s, the column n of reciprocal
   clamped in-degrees, features h, the two weight matrices wl and wr laid out input-axis first, the bias row b), is at
   row p and column q

       ( Σ_k (s(p,k) · n(p,0)) · wl(k,q)  +  b(0,q) )  +  Σ_k h(p,k) · wr(k,q),

   with no activation.  Each contraction into the zero accumulator is the plain sum over the contracted axis; the
   column n spread across the 32 columns reads n(p,0) at every column; the row b spread down the 10000 rows reads
   b(0,q) at every row; a cast to the same shape changes nothing.  So the stored block is the last, plain layer of the
   network (scaled-sums grouping) of the loaded blocks, as one equation between whole blocks. -/
import proofs.«165607_j15298673509107_2_alg».proof.Proof.Gen.KernelIdeal.Skeleton
import proofs.«165607_j15298673509107_2_alg».proof.Proof.LibGraphLayers
import proofs.«165607_j15298673509107_2_alg».proof.Proof.LibRowLayout
import proofs.«165607_j15298673509107_2_alg».proof.Proof.LibKeepdims

noncomputable section

namespace Cert.KernelIdeal.HandValue

open Cert.KernelIdeal Cert.KernelIdeal.Gen
open Idealize.ShloMosaic Idealize.ShloMosaic.ValueIdx
open Cert.GnnSpec Cert.LibTileOps
open scoped BigOperators

/-- The contraction of region 3: second axis of a 10000 × 32 operand against the first axis of a 32 × 32 operand. -/
theorem plain_k3 : Cert.LibPlainDot.Plain dot_S10000x32_S32x32_S10000x32_1_0_0_1_n_n := ⟨rfl, rfl, rfl, rfl, rfl, rfl⟩

/-- The block region 3 stores is the plain layer of the blocks it loads.  The payload takes the two weight blocks
    before the bias row; the layer takes the bias between them. -/
theorem k3_pay1_eq (x0 : FVec Ideal S10000x32 .f32) (x1 : FVec Ideal S10000x1 .f32) (x2 : FVec Ideal S10000x32 .f32)
    (x3 : FVec Ideal S32x32 .f32) (x4 : FVec Ideal S1x32 .f32) (x5 : FVec Ideal S32x32 .f32) :
    Gen.k3_pay1 (F := Ideal) x0 x1 x2 x3 x5 x4 = kpre x0 x1 x2 x3 x4 x5 := by
  funext i
  obtain ⟨p, q, rfl⟩ : ∃ (p : Fin 10000) (q : Fin 32), i = ix2 p q := ⟨i 0, i 1, eq_ix2 i⟩
  unfold Gen.k3_pay1
  simp only [shapeCast_self, addf_apply]
  show (_ + _) + _
    = (matProd (scaleRows x0 x1) x3 (ix2 p q) + x4 (ix2 (0 : Fin 1) q)) + matProd x2 x5 (ix2 p q)
  refine congrArg₂ (· + ·) (congrArg₂ (· + ·) ?_ ?_) ?_
  · -- the scaled sums against wl: the contraction is the sum over k, and the spread column reads n(p,0)
    refine (plain_k3.matmul_zero_apply _ _ _ p q).trans (Finset.sum_congr rfl fun k _ => ?_)
    exact congrArg (· * x3 (ix2 k q))
      (congrArg (x0 (ix2 p k) * ·) (Cert.LibKeepdims.broadcastTo_a1_ab_apply x1 _ p k))
  · -- the spread bias row reads b(0,q)
    exact Cert.LibRowLayout.broadcastTo_1b_ab_apply x4 _ p q
  · -- the features against wr
    exact plain_k3.matmul_zero_apply _ x2 x5 p q

end Cert.KernelIdeal.HandValue

end
-- ==== Proof.KI.Value3.lean ====
/- Region 3 of the idealized kernel program at the exact values: from the blocks to the whole array.

   The region runs its body over ten grid points; point t stages rows 10000·t … 10000·t + 9999 of the neighbour sums,
   of the column of reciprocal clamped in-degrees and of the features, the whole of the two weight matrices and of the
   bias row (their block index is 0 at every point), and writes back rows 10000·t … 10000·t + 9999 of the output.
   What the body stores is the last, plain layer of the network of the blocks it loaded; every entry of that layer at row r
   reads only row r of the three row-indexed arrays; so what point t writes back is block t of the plain layer of the
   WHOLE arrays as the region finds them.  Every row r lies in the block of point r / 10000, so after the last point
   the output array is that layer everywhere.  The six input arrays are staged and never written back: they end as
   the region found them. -/
import proofs.«165607_j15298673509107_2_alg».proof.Proof.KI.Dat3
import proofs.«165607_j15298673509107_2_alg».proof.Proof.KI.Pay3
import proofs.«165607_j15298673509107_2_alg».proof.Proof.LibRowBlock
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.GnnSpec

-- the TensorCore's buffer contents when the region is entered
variable (V : (c : Dev nD) → (b : Ref sig .tc) → Buf (Elt Ideal) ((c : Thread nD τ).loc b))

/-! ## The index maps over the grid -/

/-- The two zero offsets of a whole-buffer rectangle, as the constant function. -/
theorem hz3 : (![0, 0] : Fin 2 → Nat) = fun _ => 0 := funext fun a => by fin_cases a <;> rfl

/-- At point t the row-indexed windows (sums, scaling column, features, output) are at block (t, 0); the weight and bias
    windows are at block (0, 0).  Decided over the ten points. -/
theorem idx_facts3 : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = t.val ∧ win3_2.index t (1 : Fin 2) = 0
  ∧ win3_3.index t (0 : Fin 2) = 0 ∧ win3_3.index t (1 : Fin 2) = 0
  ∧ win3_4.index t (0 : Fin 2) = 0 ∧ win3_4.index t (1 : Fin 2) = 0
  ∧ win3_5.index t (0 : Fin 2) = 0 ∧ win3_5.index t (1 : Fin 2) = 0
  ∧ win3_6.index t (0 : Fin 2) = t.val ∧ win3_6.index t (1 : Fin 2) = 0 :=
  (by decide +kernel : ∀ t : Fin grid3.N, _)

/-- Every point writes its output block back. -/
theorem flush3_6 : ∀ t : Fin cfg3.N, (cfg3.win 6).flush t = true :=
  (by decide +kernel : ∀ t : Fin grid3.N, _)

/-! ## Each input block as rows of its array

A block's element sits in the array, on each axis, at block index × block size + 1 × its own coordinate. -/

/-- Row p of the neighbour sums' block at point t is row 10000·t + p of the array. -/
theorem iblk3_0_apply (c : Dev nD) (t : Fin cfg3.N) (p : Fin 10000) (k : Fin 32) (r : Fin 100000)
    (hr : r.val = t.val * 10000 + p.val) :
    (iblk3 V c 0 t : S10000x32.Idx → EReal) (ix2 p k) = (V c main_call0_v64 : S100000x32.Idx → EReal) (ix2 r k) := by
  have hi := idx_facts3 t
  show V c main_call0_v64 (((cfg3.win 0).blk t).view.emb (ix2 p k)) = V c main_call0_v64 (ix2 r k)
  refine congrArg _ ?_
  funext a
  apply Fin.ext
  match a with
  | ⟨0, _⟩ => show win3_0.index t (0 : Fin 2) * 10000 + 1 * p.val = r.val; rw [hi.1, hr]; omega
  | ⟨1, _⟩ => show win3_0.index t (1 : Fin 2) * 32 + 1 * k.val = k.val; rw [hi.2.1]; omega

/-- Entry p of the scaling column's block at point t is entry 10000·t + p of the column. -/
theorem iblk3_1_apply (c : Dev nD) (t : Fin cfg3.N) (p : Fin 10000) (r : Fin 100000)
    (hr : r.val = t.val * 10000 + p.val) :
    (iblk3 V c 1 t : S10000x1.Idx → EReal) (ix2 p (0 : Fin 1)) = (V c main_call0_v12 : S100000x1.Idx → EReal) (ix2 r (0 : Fin 1)) := by
  have hi := idx_facts3 t
  show V c main_call0_v12 (((cfg3.win 1).blk t).view.emb (ix2 p (0 : Fin 1))) = V c main_call0_v12 (ix2 r (0 : Fin 1))
  refine congrArg _ ?_
  funext a
  apply Fin.ext
  match a with
  | ⟨0, _⟩ => show win3_1.index t (0 : Fin 2) * 10000 + 1 * p.val = r.val; rw [hi.2.2.1, hr]; omega
  | ⟨1, _⟩ => show win3_1.index t (1 : Fin 2) * 1 + 1 * 0 = 0; rw [hi.2.2.2.1]

/-- Row p of the features' block at point t is row 10000·t + p of the array. -/
theorem iblk3_2_apply (c : Dev nD) (t : Fin cfg3.N) (p : Fin 10000) (k : Fin 32) (r : Fin 100000)
    (hr : r.val = t.val * 10000 + p.val) :
    (iblk3 V c 2 t : S10000x32.Idx → EReal) (ix2 p k) = (V c main_call0_v54 : S100000x32.Idx → EReal) (ix2 r k) := by
  have hi := idx_facts3 t
  show V c main_call0_v54 (((cfg3.win 2).blk t).view.emb (ix2 p k)) = V c main_call0_v54 (ix2 r k)
  refine congrArg _ ?_
  funext a
  apply Fin.ext
  match a with
  | ⟨0, _⟩ => show win3_2.index t (0 : Fin 2) * 10000 + 1 * p.val = r.val; rw [hi.2.2.2.2.1, hr]; omega
  | ⟨1, _⟩ => show win3_2.index t (1 : Fin 2) * 32 + 1 * k.val = k.val; rw [hi.2.2.2.2.2.1]; omega

/-- The first weight matrix's block is the whole matrix at every point. -/
theorem iblk3_3_eq (c : Dev nD) (t : Fin cfg3.N) :
    (iblk3 V c 3 t : S32x32.Idx → EReal) = (V c main_call0_v65 : S32x32.Idx → EReal) := by
  have hi := idx_facts3 t
  funext y
  show V c main_call0_v65 (((cfg3.win 3).blk t).view.emb y) = V c main_call0_v65 y
  refine congrArg _ ?_
  funext a
  apply Fin.ext
  match a with
  | ⟨0, _⟩ => show win3_3.index t (0 : Fin 2) * 32 + 1 * (y 0).val = (y 0).val; rw [hi.2.2.2.2.2.2.1]; omega
  | ⟨1, _⟩ => show win3_3.index t (1 : Fin 2) * 32 + 1 * (y 1).val = (y 1).val; rw [hi.2.2.2.2.2.2.2.1]; omega

/-- The bias row's block is the whole row at every point. -/
theorem iblk3_4_eq (c : Dev nD) (t : Fin cfg3.N) :
    (iblk3 V c 4 t : S1x32.Idx → EReal) = (V c main_call0_v67 : S1x32.Idx → EReal) := by
  have hi := idx_facts3 t
  funext y
  show V c main_call0_v67 (((cfg3.win 4).blk t).view.emb y) = V c main_call0_v67 y
  refine congrArg _ ?_
  funext a
  apply Fin.ext
  match a with
  | ⟨0, _⟩ => show win3_4.index t (0 : Fin 2) * 1 + 1 * (y 0).val = (y 0).val; rw [hi.2.2.2.2.2.2.2.2.1]; omega
  | ⟨1, _⟩ => show win3_4.index t (1 : Fin 2) * 32 + 1 * (y 1).val = (y 1).val; rw [hi.2.2.2.2.2.2.2.2.2.1]; omega

/-- The second weight matrix's block is the whole matrix at every point. -/
theorem iblk3_5_eq (c : Dev nD) (t : Fin cfg3.N) :
    (iblk3 V c 5 t : S32x32.Idx → EReal) = (V c main_call0_v66 : S32x32.Idx → EReal) := by
  have hi := idx_facts3 t
  funext y
  show V c main_call0_v66 (((cfg3.win 5).blk t).view.emb y) = V c main_call0_v66 y
  refine congrArg _ ?_
  funext a
  apply Fin.ext
  match a with
  | ⟨0, _⟩ => show win3_5.index t (0 : Fin 2) * 32 + 1 * (y 0).val = (y 0).val; rw [hi.2.2.2.2.2.2.2.2.2.2.1]; omega
  | ⟨1, _⟩ => show win3_5.index t (1 : Fin 2) * 32 + 1 * (y 1).val = (y 1).val; rw [hi.2.2.2.2.2.2.2.2.2.2.2.1]; omega

/-! ## What a point writes back -/

/-- Point t writes back block t of the plain layer of the whole arrays: the stored block is the layer of the loaded
    blocks, and the layer at row p of the blocks is the layer at row 10000·t + p of the arrays. -/
theorem flushed3_eq (c : Dev nD) (t : Fin cfg3.N) :
    (dat3 V c).flushed 6 t = ((cfg3.win 6).blk t).view.read (Elt Ideal)
      (kpre (V c main_call0_v64 : S100000x32.Idx → EReal) (V c main_call0_v12 : S100000x1.Idx → EReal)
        (V c main_call0_v54 : S100000x32.Idx → EReal) (V c main_call0_v65 : S32x32.Idx → EReal)
        (V c main_call0_v67 : S1x32.Idx → EReal) (V c main_call0_v66 : S32x32.Idx → EReal)) := by
  show (cfg3.win 6).cut (grid3.coords t) ((dat3 V c).after 6 t) = _
  rw [after3_6]
  unfold out3_6
  rw [View.canon_unit_zero hz3]
  simp only [View.ld_unit_zero (S := S10000x32) hz3, View.ld_unit_zero (S := S10000x1) hz3,
    View.ld_unit_zero (S := S32x32) hz3, View.ld_unit_zero (S := S1x32) hz3]
  rw [k3_pay1_eq (iblk3 V c 0 t) (iblk3 V c 1 t) (iblk3 V c 2 t) (iblk3 V c 3 t) (iblk3 V c 4 t) (iblk3 V c 5 t),
    iblk3_3_eq V c t, iblk3_4_eq V c t, iblk3_5_eq V c t]
  have hi := idx_facts3 t
  have ht : t.val < 10 := lt_of_lt_of_eq t.isLt N_3
  refine funext fun (j : S10000x32.Idx) => ?_
  obtain ⟨p, q, rfl⟩ : ∃ (p : Fin 10000) (q : Fin 32), j = ix2 p q := ⟨j 0, j 1, eq_ix2 j⟩
  have hr : t.val * 10000 + p.val < 100000 := by have := p.isLt; omega
  have he : ((cfg3.win 6).blk t).view.emb (ix2 p q) = (ix2 (⟨t.val * 10000 + p.val, hr⟩ : Fin 100000) q : S100000x32.Idx) := by
    funext a
    apply Fin.ext
    match a with
    | ⟨0, _⟩ => show win3_6.index t (0 : Fin 2) * 10000 + 1 * p.val = t.val * 10000 + p.val; rw [hi.2.2.2.2.2.2.2.2.2.2.2.2.1]; omega
    | ⟨1, _⟩ => show win3_6.index t (1 : Fin 2) * 32 + 1 * q.val = q.val; rw [hi.2.2.2.2.2.2.2.2.2.2.2.2.2]; omega
  show kpre (iblk3 V c 0 t) (iblk3 V c 1 t) (iblk3 V c 2 t) _ _ _ (ix2 p q)
    = kpre _ _ _ _ _ _ (((cfg3.win 6).blk t).view.emb (ix2 p q))
  rw [he]
  exact kpre_rowBlock _ _ _ _ _ _ _ _ _ p ⟨_, hr⟩ (fun k => iblk3_0_apply V c t p k _ rfl)
    (iblk3_1_apply V c t p _ rfl) (fun k => iblk3_2_apply V c t p k _ rfl) q

/-! ## The blocks cover the output array -/

/-- An index is in point t's output block iff each coordinate is in the block's range on its axis. -/
theorem mem_blk3 (t : Fin cfg3.N) (i : S100000x32.Idx) :
    i ∈ ((cfg3.win 6).blk t).view.set ↔ ∀ a : Fin 2, win3_6.index t a * S10000x32.size a ≤ (i a).val
      ∧ (i a).val < win3_6.index t a * S10000x32.size a + S10000x32.size a := by
  show i ∈ ((View.whole main_v0).slice (win3_6.rect t)).set ↔ _
  rw [View.set_slice_whole, Rect.mem_set_unit]
  exact Iff.rfl

/-- Row r is in the block of point r / 10000. -/
theorem cover3 (i : S100000x32.Idx) : ∃ t : Fin cfg3.N, (cfg3.win 6).flush t = true ∧ i ∈ ((cfg3.win 6).blk t).view.set := by
  have hi0 : (i 0).val < 100000 := (i 0).isLt
  have hi1 : (i 1).val < 32 := (i 1).isLt
  have hN : cfg3.N = 10 := N_3
  have hlt : (i 0).val / 10000 < cfg3.N := by rw [hN]; omega
  refine ⟨⟨(i 0).val / 10000, hlt⟩, flush3_6 _, ?_⟩
  obtain ⟨-, -, -, -, -, -, -, -, -, -, -, -, e0, e1⟩ := idx_facts3 ⟨(i 0).val / 10000, hlt⟩
  rw [mem_blk3]
  intro a
  match a with
  | ⟨0, _⟩ =>
    show win3_6.index ⟨(i 0).val / 10000, hlt⟩ (0 : Fin 2) * 10000 ≤ (i 0).val
      ∧ (i 0).val < win3_6.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win3_6.index ⟨(i 0).val / 10000, hlt⟩ (1 : Fin 2) * 32 ≤ (i 1).val
      ∧ (i 1).val < win3_6.index ⟨(i 0).val / 10000, hlt⟩ (1 : Fin 2) * 32 + 32
    rw [e1]
    omega

/-! ## The arrays after the region -/

/-- The output array after the last point is the plain layer of the input arrays as the region finds them. -/
theorem final3 (c : Dev nD) :
    ((dat3 V c).arrAt 6 cfg3.N : S100000x32.Idx → EReal)
      = kpre (V c main_call0_v64 : S100000x32.Idx → EReal) (V c main_call0_v12 : S100000x1.Idx → EReal)
          (V c main_call0_v54 : S100000x32.Idx → EReal) (V c main_call0_v65 : S32x32.Idx → EReal)
          (V c main_call0_v67 : S1x32.Idx → EReal) (V c main_call0_v66 : S32x32.Idx → EReal) :=
  (dat3 V c).arrAt_eq_of_cover 6 _ (fun t _ => flushed3_eq V c t) cover3

/-- An input window's array ends as the region found it: it is staged and never written back. -/
theorem kept3 (c : Dev nD) (w : Fin cfg3.W) (hw : (cfg3.win w).isOut = false) :
    (dat3 V c).arrAt w cfg3.N = V c (Pipeline.arrRef spec3 w) :=
  ((dat3 V c).arrAt_in w hw _).trans (A_eq3 V c w)

end Cert.KernelIdeal.HandValue

end
-- ==== Proof.KI.KNet.lean ====
/-
  The kernel program's whole-network value at the exact values.

  The program runs four kernel regions, each after a stretch of host operations.  Region k's output array holds the
  k-th layer (scaled-sums grouping) of what the region finds in its six input arrays; those are the neighbour sums of
  the previous region's output, the column of reciprocal clamped in-degrees, the previous output itself, and the
  layer's two transposed weight matrices and its bias row.  Substituting region by region, the last region's output is
  the four-layer network of the launch arrays.  The column the program divides out once is the reciprocal of the
  clamped in-degree, which is at least one and so never zero.
-/
import proofs.«165607_j15298673509107_2_alg».proof.Proof.KI.Reads01
import proofs.«165607_j15298673509107_2_alg».proof.Proof.KI.Reads23
import proofs.«165607_j15298673509107_2_alg».proof.Proof.KI.Value0
import proofs.«165607_j15298673509107_2_alg».proof.Proof.KI.Value1
import proofs.«165607_j15298673509107_2_alg».proof.Proof.KI.Value2
import proofs.«165607_j15298673509107_2_alg».proof.Proof.KI.Value3
import proofs.«165607_j15298673509107_2_alg».proof.Proof.LibGraphLayers

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx Cert.GnnSpec

/-! ## The reciprocal column -/

/-- The clamped in-degree is at least one, so never zero. -/
theorem dclK_ne_zero (ei : IVec S2x1600000 32) (r : Fin 100000) : dclK ei (ix1 r) ≠ 0 := by
  unfold dclK
  rw [maximumf_apply, Cert.LibJoinedRows.bcast_scalar_apply, constant_apply, Cert.LibRecipMean.ofBits_one_f32]
  exact Cert.LibRecipMean.clamp_ne_zero _

/-- The column the program builds — one divided by the clamped in-degree, cast to a column — is the column of
    reciprocals: at (r, 0) the cast column reads entry r of the quotient, and the broadcast one-word is one. -/
theorem ncolK_eq (ei : IVec S2x1600000 32) : ncolK ei = recipCol (dclK ei) := by
  funext i
  obtain ⟨r, u, rfl⟩ : ∃ (r : Fin 100000) (u : Fin 1), i = ix2 r u := ⟨i 0, i 1, eq_ix2 i⟩
  show shapeCast S100000x1
      (Host.divf (F := Ideal) (broadcastInDim S100000 ![] bcast_S_S100000 (constant (F := Ideal) S_ .f32 0x3F800000#32)) (dclK ei))
      shapeCasts_S100000_S100000x1 (ix2 r u) = Ideal.div 1 (dclK ei (ix1 r))
  rw [Cert.LibKeepdims.shapeCast_a_a1_apply, Cert.LibRecipMean.hostDivf_apply, Cert.LibJoinedRows.bcast_scalar_apply,
    constant_apply, Cert.LibRecipMean.ofBits_one_f32]

variable (m : (ℓ : Loc nD τ sig) → Buf (Elt Ideal) ℓ) (ρ : Dev nD → PrngReg) (c : Dev nD)

/-! ## Each region's output over the previous one -/

/-- Region 0's output: the first layer of the launch arrays. -/
theorem out0_eq : (V2 m ρ c main_call0_v26 : S100000x32.Idx → EReal)
    = klayerRelu (aggK0 (m ((c.tc : Thread nD τ).loc main_arg1)) (m ((c.tc : Thread nD τ).loc main_arg0))) (ncolK (m ((c.tc : Thread nD τ).loc main_arg1))) (m ((c.tc : Thread nD τ).loc main_arg0))
        (transpose S64x32 [1, 0] (m ((c.tc : Thread nD τ).loc main_arg2)) transposes_S32x64_S64x32_1_0) (shapeCast S1x32 (m ((c.tc : Thread nD τ).loc main_arg3)) shapeCasts_S32_S1x32) (transpose S64x32 [1, 0] (m ((c.tc : Thread nD τ).loc main_arg4)) transposes_S32x64_S64x32_1_0) := by
  refine (W2_out m ρ c).trans ((final0 (V1 m ρ) c).trans ?_)
  rw [reads1_s, reads1_n, reads1_h, reads1_wl, reads1_b, reads1_wr]

/-- Region 1's output: the second layer over region 0's output. -/
theorem out1_eq : (V4 m ρ c main_call0_v40 : S100000x32.Idx → EReal)
    = klayerSkipRelu (aggK (m ((c.tc : Thread nD τ).loc main_arg1)) (V2 m ρ c main_call0_v26)) (ncolK (m ((c.tc : Thread nD τ).loc main_arg1))) (V2 m ρ c main_call0_v26)
        (transpose S32x32 [1, 0] (m ((c.tc : Thread nD τ).loc main_arg5)) transposes_S32x32_S32x32_1_0) (shapeCast S1x32 (m ((c.tc : Thread nD τ).loc main_arg6)) shapeCasts_S32_S1x32) (transpose S32x32 [1, 0] (m ((c.tc : Thread nD τ).loc main_arg7)) transposes_S32x32_S32x32_1_0) := by
  refine (W4_out m ρ c).trans ((final1 (V3 m ρ) c).trans ?_)
  rw [reads3_s, reads3_n, reads3_h, reads3_wl, reads3_b, reads3_wr]

/-- Region 2's output: the third layer over region 1's output. -/
theorem out2_eq : (V6 m ρ c main_call0_v54 : S100000x32.Idx → EReal)
    = klayerSkipRelu (aggK (m ((c.tc : Thread nD τ).loc main_arg1)) (V4 m ρ c main_call0_v40)) (ncolK (m ((c.tc : Thread nD τ).loc main_arg1))) (V4 m ρ c main_call0_v40)
        (transpose S32x32 [1, 0] (m ((c.tc : Thread nD τ).loc main_arg8)) transposes_S32x32_S32x32_1_0) (shapeCast S1x32 (m ((c.tc : Thread nD τ).loc main_arg9)) shapeCasts_S32_S1x32) (transpose S32x32 [1, 0] (m ((c.tc : Thread nD τ).loc main_arg10)) transposes_S32x32_S32x32_1_0) := by
  refine (W6_out m ρ c).trans ((final2 (V5 m ρ) c).trans ?_)
  rw [reads5_s, reads5_n, reads5_h, reads5_wl, reads5_b, reads5_wr]

/-! ## The network -/

/-- The last region's output array after the run is the four-layer network, in the scaled-sums grouping, of the launch
    arrays: weights laid out input-axis first, bias vectors as one-row arrays. -/
theorem kernel_value : ((dat3 (F := Ideal) (V7 m ρ) c).arrAt 6 cfg3.N : S100000x32.Idx → EReal)
    = knet (aggK0 (m ((c.tc : Thread nD τ).loc main_arg1))) (aggK (m ((c.tc : Thread nD τ).loc main_arg1))) (ncolK (m ((c.tc : Thread nD τ).loc main_arg1))) (m ((c.tc : Thread nD τ).loc main_arg0))
        (transpose S64x32 [1, 0] (m ((c.tc : Thread nD τ).loc main_arg2)) transposes_S32x64_S64x32_1_0) (shapeCast S1x32 (m ((c.tc : Thread nD τ).loc main_arg3)) shapeCasts_S32_S1x32) (transpose S64x32 [1, 0] (m ((c.tc : Thread nD τ).loc main_arg4)) transposes_S32x64_S64x32_1_0)
        (transpose S32x32 [1, 0] (m ((c.tc : Thread nD τ).loc main_arg5)) transposes_S32x32_S32x32_1_0) (shapeCast S1x32 (m ((c.tc : Thread nD τ).loc main_arg6)) shapeCasts_S32_S1x32) (transpose S32x32 [1, 0] (m ((c.tc : Thread nD τ).loc main_arg7)) transposes_S32x32_S32x32_1_0)
        (transpose S32x32 [1, 0] (m ((c.tc : Thread nD τ).loc main_arg8)) transposes_S32x32_S32x32_1_0) (shapeCast S1x32 (m ((c.tc : Thread nD τ).loc main_arg9)) shapeCasts_S32_S1x32) (transpose S32x32 [1, 0] (m ((c.tc : Thread nD τ).loc main_arg10)) transposes_S32x32_S32x32_1_0)
        (transpose S32x32 [1, 0] (m ((c.tc : Thread nD τ).loc main_arg11)) transposes_S32x32_S32x32_1_0) (shapeCast S1x32 (m ((c.tc : Thread nD τ).loc main_arg12)) shapeCasts_S32_S1x32) (transpose S32x32 [1, 0] (m ((c.tc : Thread nD τ).loc main_arg13)) transposes_S32x32_S32x32_1_0) := by
  refine (final3 (V7 m ρ) c).trans ?_
  rw [reads7_s, reads7_n, reads7_h, reads7_wl, reads7_b, reads7_wr, out2_eq, out1_eq, out0_eq]
  rfl

end Cert.KernelIdeal.HandValue

end
-- ==== Proof.LibHostLayers.lean ====
/-
  One layer of the mean-aggregating network as a host program spells it, entry by entry.

  The host divides the neighbour sums by the clamped in-degree spread over the row (a vector [N] made a column
  [N, 1] and then spread across the K columns), multiplies the means by one weight matrix, adds the bias row (a
  vector [D] made a row [1, D] and then repeated over the N rows), adds the product of the features with the other
  weight matrix, and then applies nothing, the maximum with a broadcast zero, or the features themselves followed by
  that maximum.  Read at an entry (n, j):

      quotient:   s(n,k) / d(n)                                  (the doubly spread degree reads entry n)
      layer:      (Σ_k mean(n,k) · wl(k,j) + b(j)) + Σ_k h(n,k) · wr(k,j)
                = (Σ_k mean(n,k) · wl(k,j) + Σ_k h(n,k) · wr(k,j)) + b(j)

  by commutativity and associativity of addition on the extended reals; no entry needs to be finite.  Generic in
  the extents N, K, D and in the contraction's record.
-/
import proofs.«165607_j15298673509107_2_alg».proof.Proof.LibGraphLayers

noncomputable section

namespace Cert.RefLayer

open Idealize.ShloMosaic Idealize.ShloMosaic.ValueIdx Cert.LibDenseLayer Cert.LibTileOps Cert.LibPlainDot Cert.GnnSpec
open scoped BigOperators

variable {N K D : ℕ}

/-- The sums divided by a vector spread first to a column and then across the columns: row n divided by entry n. -/
theorem divf_bcast_col_eq_meanRows
    (g1 : (⟨1, ![N]⟩ : Shape).BroadcastsInDim ⟨2, ![N, 1]⟩ (![0] : Fin 1 → Fin 2))
    (g2 : (⟨2, ![N, 1]⟩ : Shape).BroadcastsInDim ⟨2, ![N, K]⟩ (![0, 1] : Fin 2 → Fin 2))
    (s : FVec Ideal ⟨2, ![N, K]⟩ .f32) (d : FVec Ideal ⟨1, ![N]⟩ .f32) :
    Host.divf s (broadcastInDim ⟨2, ![N, K]⟩ ![0, 1] g2 (broadcastInDim ⟨2, ![N, 1]⟩ ![0] g1 d)) = meanRows s d := by
  funext i
  obtain ⟨n, k, rfl⟩ : ∃ (n : Fin N) (k : Fin K), i = ix2 n k := ⟨i 0, i 1, eq_ix2 i⟩
  rw [Cert.LibRecipMean.hostDivf_apply, Cert.LibJoinedRows.bcast_col_rows_apply, Cert.LibJoinedRows.bcast_vec_col_apply]
  rfl

/-- The maximum with a scalar zero spread over the whole array is the entrywise maximum with the zero word's value. -/
theorem maximumf_bcast_zero
    (h0 : (⟨0, ![]⟩ : Shape).BroadcastsInDim ⟨2, ![N, D]⟩ (![] : Fin 0 → Fin 2))
    (y : FVec Ideal ⟨2, ![N, D]⟩ .f32) :
    maximumf y (broadcastInDim ⟨2, ![N, D]⟩ ![] h0 (constant (F := Ideal) ⟨0, ![]⟩ .f32 0x00000000#32))
      = fun i => max (y i) zeroW := by
  funext i
  rw [maximumf_apply, Cert.LibJoinedRows.bcast_scalar_apply, constant_apply]

/-- The host form of one layer before its activation is the means layer. -/
theorem host_rpre {Dd : DotDims ⟨2, ![N, K]⟩ ⟨2, ![K, D]⟩ ⟨2, ![N, D]⟩} (hD : Plain Dd)
    (g1 : (⟨1, ![N]⟩ : Shape).BroadcastsInDim ⟨2, ![N, 1]⟩ (![0] : Fin 1 → Fin 2))
    (g2 : (⟨2, ![N, 1]⟩ : Shape).BroadcastsInDim ⟨2, ![N, K]⟩ (![0, 1] : Fin 2 → Fin 2))
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩)
    (s h : FVec Ideal ⟨2, ![N, K]⟩ .f32) (d : FVec Ideal ⟨1, ![N]⟩ .f32)
    (wl wr : FVec Ideal ⟨2, ![K, D]⟩ .f32) (b : FVec Ideal ⟨1, ![D]⟩ .f32) :
    addf (addf (Host.dotGeneral Dd none
          (Host.divf s (broadcastInDim ⟨2, ![N, K]⟩ ![0, 1] g2 (broadcastInDim ⟨2, ![N, 1]⟩ ![0] g1 d))) wl)
        (broadcastInDim ⟨2, ![N, D]⟩ ![0, 1] h2 (broadcastInDim ⟨2, ![1, D]⟩ ![1] h1 b)))
      (Host.dotGeneral Dd none h wr)
      = rpre s d h wl (shapeCast ⟨2, ![1, D]⟩ b hc) wr := by
  rw [divf_bcast_col_eq_meanRows g1 g2 s d]
  exact host_dense hD (meanRows s d) h wl wr b h1 h2 hc

/-- … followed by the maximum with a broadcast zero. -/
theorem host_rlayerRelu {Dd : DotDims ⟨2, ![N, K]⟩ ⟨2, ![K, D]⟩ ⟨2, ![N, D]⟩} (hD : Plain Dd)
    (g1 : (⟨1, ![N]⟩ : Shape).BroadcastsInDim ⟨2, ![N, 1]⟩ (![0] : Fin 1 → Fin 2))
    (g2 : (⟨2, ![N, 1]⟩ : Shape).BroadcastsInDim ⟨2, ![N, K]⟩ (![0, 1] : Fin 2 → Fin 2))
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩)
    (h0 : (⟨0, ![]⟩ : Shape).BroadcastsInDim ⟨2, ![N, D]⟩ (![] : Fin 0 → Fin 2))
    (s h : FVec Ideal ⟨2, ![N, K]⟩ .f32) (d : FVec Ideal ⟨1, ![N]⟩ .f32)
    (wl wr : FVec Ideal ⟨2, ![K, D]⟩ .f32) (b : FVec Ideal ⟨1, ![D]⟩ .f32) :
    maximumf (addf (addf (Host.dotGeneral Dd none
            (Host.divf s (broadcastInDim ⟨2, ![N, K]⟩ ![0, 1] g2 (broadcastInDim ⟨2, ![N, 1]⟩ ![0] g1 d))) wl)
          (broadcastInDim ⟨2, ![N, D]⟩ ![0, 1] h2 (broadcastInDim ⟨2, ![1, D]⟩ ![1] h1 b)))
        (Host.dotGeneral Dd none h wr))
      (broadcastInDim ⟨2, ![N, D]⟩ ![] h0 (constant (F := Ideal) ⟨0, ![]⟩ .f32 0x00000000#32))
      = rlayerRelu s d h wl (shapeCast ⟨2, ![1, D]⟩ b hc) wr := by
  rw [host_rpre hD g1 g2 h1 h2 hc s h d wl wr b, maximumf_bcast_zero h0]
  rfl

/-- … with the layer's own input added (widths equal) before that maximum. -/
theorem host_rlayerSkipRelu {Dd : DotDims ⟨2, ![N, D]⟩ ⟨2, ![D, D]⟩ ⟨2, ![N, D]⟩} (hD : Plain Dd)
    (g1 : (⟨1, ![N]⟩ : Shape).BroadcastsInDim ⟨2, ![N, 1]⟩ (![0] : Fin 1 → Fin 2))
    (g2 : (⟨2, ![N, 1]⟩ : Shape).BroadcastsInDim ⟨2, ![N, D]⟩ (![0, 1] : Fin 2 → Fin 2))
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩)
    (h0 : (⟨0, ![]⟩ : Shape).BroadcastsInDim ⟨2, ![N, D]⟩ (![] : Fin 0 → Fin 2))
    (s h : FVec Ideal ⟨2, ![N, D]⟩ .f32) (d : FVec Ideal ⟨1, ![N]⟩ .f32)
    (wl wr : FVec Ideal ⟨2, ![D, D]⟩ .f32) (b : FVec Ideal ⟨1, ![D]⟩ .f32) :
    maximumf (addf (addf (addf (Host.dotGeneral Dd none
              (Host.divf s (broadcastInDim ⟨2, ![N, D]⟩ ![0, 1] g2 (broadcastInDim ⟨2, ![N, 1]⟩ ![0] g1 d))) wl)
            (broadcastInDim ⟨2, ![N, D]⟩ ![0, 1] h2 (broadcastInDim ⟨2, ![1, D]⟩ ![1] h1 b)))
          (Host.dotGeneral Dd none h wr)) h)
      (broadcastInDim ⟨2, ![N, D]⟩ ![] h0 (constant (F := Ideal) ⟨0, ![]⟩ .f32 0x00000000#32))
      = rlayerSkipRelu s d h wl (shapeCast ⟨2, ![1, D]⟩ b hc) wr := by
  rw [host_rpre hD g1 g2 h1 h2 hc s h d wl wr b, maximumf_bcast_zero h0]
  rfl

end Cert.RefLayer

end
-- ==== Proof.RefValue.lean ====
/-
  The reference's result, read off its run: the four-layer network in the means grouping.

  The reference program is a straight line of whole-array operations.  Every layer recomputes the same three things
  from the edge list: the column of source nodes (row 0 of the list, a negative entry wrapped round by the node
  count), the column of destination nodes (row 1), and the clamped in-degree (ones added up at the destinations,
  then the maximum with one).  A layer's neighbour sums are the features gathered at the sources and added up at the
  destinations; they enter here as opaque functions `agg0` (width 64) and `agg` (width 32) of the features, and
  the clamped in-degree as the vector `dcl`, nowhere zero because it is at least one.  With these names each layer's
  stretch of operations is one of the three layer forms of the specification, and the four stretches chain into the
  network.
-/
import proofs.«165607_j15298673509107_2_alg».proof.Proof.Gen.ReferenceIdeal.Run
import proofs.«165607_j15298673509107_2_alg».proof.Proof.Gen.ReferenceIdeal.Read
import proofs.«165607_j15298673509107_2_alg».proof.Proof.LibGraphLayers
import proofs.«165607_j15298673509107_2_alg».proof.Proof.LibHostLayers

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.GnnSpec

/-! ## The pieces every layer shares -/

/-- The column of source nodes: row 0 of the edge list, an entry below zero moved up by the node count. -/
def srcCol (ei : IVec S2x1600000 32) : IVec S1600000x1 32 :=
  broadcastInDim S1600000x1 ![0] bcast_S1600000_S1600000x1_0
    (select
      (cmpi .slt
        (shapeCast S1600000 (extractStridedSlice S1x1600000 ![0, 0] ei slices_S2x1600000_S1x1600000_0_0) shapeCasts_S1x1600000_S1600000)
        (broadcastInDim S1600000 ![] bcast_S_S1600000 (constantI S_ 32 0#32)))
      (addi
        (shapeCast S1600000 (extractStridedSlice S1x1600000 ![0, 0] ei slices_S2x1600000_S1x1600000_0_0) shapeCasts_S1x1600000_S1600000)
        (broadcastInDim S1600000 ![] bcast_S_S1600000 (constantI S_ 32 100000#32)))
      (shapeCast S1600000 (extractStridedSlice S1x1600000 ![0, 0] ei slices_S2x1600000_S1x1600000_0_0) shapeCasts_S1x1600000_S1600000))

/-- The column of destination nodes: row 1 of the edge list, as it is. -/
def dstCol (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- Neighbour sums of 64-wide features: the rows gathered at the sources, added up at the destinations from zero. -/
def agg0 (ei : IVec S2x1600000 32) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (dstCol ei)
    (Host.gather gather_S100000x64_S1600000x1_S1600000x64_1_0_n_n_0_1_164 h (srcCol ei))

/-- Neighbour sums of 32-wide features. -/
def agg (ei : IVec S2x1600000 32) (h : FVec Ideal S100000x32 .f32) : FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32))
    (dstCol ei)
    (Host.gather gather_S100000x32_S1600000x1_S1600000x32_1_0_n_n_0_1_132 h (srcCol ei))

/-- The clamped in-degree: a one per edge added up at its destination from zero, then the maximum with one. -/
def dcl (ei : IVec S2x1600000 32) : FVec Ideal S100000 .f32 :=
  maximumf
    (Host.scatterAdd (F := Ideal) scatter_S100000_S1600000x1_S1600000_n_0_0_1
      (broadcastInDim S100000 ![] bcast_S_S100000 (constant (F := Ideal) S_ .f32 0x00000000#32))
      (dstCol ei)
      (broadcastInDim S1600000 ![] bcast_S_S1600000 (constant (F := Ideal) S_ .f32 0x3F800000#32)))
    (broadcastInDim S100000 ![] bcast_S_S100000 (constant (F := Ideal) S_ .f32 0x3F800000#32))

/-- The clamped in-degree is at least one, so never zero. -/
theorem dcl_ne_zero (ei : IVec S2x1600000 32) (r : Fin 100000) : dcl ei (ix1 r) ≠ 0 := by
  unfold dcl
  rw [maximumf_apply, Cert.LibJoinedRows.bcast_scalar_apply, constant_apply, Cert.LibRecipMean.ofBits_one_f32]
  exact Cert.LibRecipMean.clamp_ne_zero _

/-- A bias vector viewed as a one-row array. -/
theorem sc32 : S32.ShapeCasts S1x32 := by decide

/-! ## The four layers, each over the previous layer's stage -/

/-- Layer 0 (64 → 32, rectifier). -/
theorem layer0_eq (x : FVec Ideal S100000x64 .f32) (ei : IVec S2x1600000 32)
    (wl0 : FVec Ideal S32x64 .f32) (bl0 : FVec Ideal S32 .f32) (wr0 : FVec Ideal S32x64 .f32) :
    Read.val_main_v31 (F := Ideal) x ei wl0 bl0 wr0
      = rlayerRelu (agg0 ei x) (dcl ei) x (transpose S64x32 [1, 0] wl0 transposes_S32x64_S64x32_1_0) (shapeCast S1x32 bl0 sc32) (transpose S64x32 [1, 0] wr0 transposes_S32x64_S64x32_1_0) :=
  Cert.RefLayer.host_rlayerRelu (Dd := dot_S100000x64_S64x32_S100000x32_1_0_0_1_n_n) ⟨rfl, rfl, rfl, rfl, rfl, rfl⟩
    bcast_S100000_S100000x1_0 bcast_S100000x1_S100000x64_0_1 bcast_S32_S1x32_1 bcast_S1x32_S100000x32_0_1 sc32
    bcast_S_S100000x32 (agg0 ei x) x (dcl ei) (transpose S64x32 [1, 0] wl0 transposes_S32x64_S64x32_1_0) (transpose S64x32 [1, 0] wr0 transposes_S32x64_S64x32_1_0) bl0

/-- Layer 1 (32 → 32, skip and rectifier) over layer 0's stage. -/
theorem layer1_eq (x : FVec Ideal S100000x64 .f32) (ei : IVec S2x1600000 32)
    (wl0 : FVec Ideal S32x64 .f32) (bl0 : FVec Ideal S32 .f32) (wr0 : FVec Ideal S32x64 .f32)
    (wl1 : FVec Ideal S32x32 .f32) (bl1 : FVec Ideal S32 .f32) (wr1 : FVec Ideal S32x32 .f32) :
    Read.val_main_v60 (F := Ideal) x ei wl0 bl0 wr0 wl1 bl1 wr1
      = rlayerSkipRelu (agg ei (Read.val_main_v31 (F := Ideal) x ei wl0 bl0 wr0)) (dcl ei)
          (Read.val_main_v31 (F := Ideal) x ei wl0 bl0 wr0) (transpose S32x32 [1, 0] wl1 transposes_S32x32_S32x32_1_0) (shapeCast S1x32 bl1 sc32) (transpose S32x32 [1, 0] wr1 transposes_S32x32_S32x32_1_0) :=
  Cert.RefLayer.host_rlayerSkipRelu (Dd := dot_S100000x32_S32x32_S100000x32_1_0_0_1_n_n) ⟨rfl, rfl, rfl, rfl, rfl, rfl⟩
    bcast_S100000_S100000x1_0 bcast_S100000x1_S100000x32_0_1 bcast_S32_S1x32_1 bcast_S1x32_S100000x32_0_1 sc32
    bcast_S_S100000x32 (agg ei (Read.val_main_v31 (F := Ideal) x ei wl0 bl0 wr0))
    (Read.val_main_v31 (F := Ideal) x ei wl0 bl0 wr0) (dcl ei) (transpose S32x32 [1, 0] wl1 transposes_S32x32_S32x32_1_0) (transpose S32x32 [1, 0] wr1 transposes_S32x32_S32x32_1_0) bl1

/-- Layer 2 (32 → 32, skip and rectifier) over layer 1's stage. -/
theorem layer2_eq (x : FVec Ideal S100000x64 .f32) (ei : IVec S2x1600000 32)
    (wl0 : FVec Ideal S32x64 .f32) (bl0 : FVec Ideal S32 .f32) (wr0 : FVec Ideal S32x64 .f32)
    (wl1 : FVec Ideal S32x32 .f32) (bl1 : FVec Ideal S32 .f32) (wr1 : FVec Ideal S32x32 .f32)
    (wl2 : FVec Ideal S32x32 .f32) (bl2 : FVec Ideal S32 .f32) (wr2 : FVec Ideal S32x32 .f32) :
    Read.val_main_v89 (F := Ideal) x ei wl0 bl0 wr0 wl1 bl1 wr1 wl2 bl2 wr2
      = rlayerSkipRelu (agg ei (Read.val_main_v60 (F := Ideal) x ei wl0 bl0 wr0 wl1 bl1 wr1)) (dcl ei)
          (Read.val_main_v60 (F := Ideal) x ei wl0 bl0 wr0 wl1 bl1 wr1) (transpose S32x32 [1, 0] wl2 transposes_S32x32_S32x32_1_0) (shapeCast S1x32 bl2 sc32) (transpose S32x32 [1, 0] wr2 transposes_S32x32_S32x32_1_0) :=
  Cert.RefLayer.host_rlayerSkipRelu (Dd := dot_S100000x32_S32x32_S100000x32_1_0_0_1_n_n) ⟨rfl, rfl, rfl, rfl, rfl, rfl⟩
    bcast_S100000_S100000x1_0 bcast_S100000x1_S100000x32_0_1 bcast_S32_S1x32_1 bcast_S1x32_S100000x32_0_1 sc32
    bcast_S_S100000x32 (agg ei (Read.val_main_v60 (F := Ideal) x ei wl0 bl0 wr0 wl1 bl1 wr1))
    (Read.val_main_v60 (F := Ideal) x ei wl0 bl0 wr0 wl1 bl1 wr1) (dcl ei) (transpose S32x32 [1, 0] wl2 transposes_S32x32_S32x32_1_0) (transpose S32x32 [1, 0] wr2 transposes_S32x32_S32x32_1_0) bl2

/-- Layer 3 (32 → 32, plain) over layer 2's stage. -/
theorem layer3_eq (x : FVec Ideal S100000x64 .f32) (ei : IVec S2x1600000 32)
    (wl0 : FVec Ideal S32x64 .f32) (bl0 : FVec Ideal S32 .f32) (wr0 : FVec Ideal S32x64 .f32)
    (wl1 : FVec Ideal S32x32 .f32) (bl1 : FVec Ideal S32 .f32) (wr1 : FVec Ideal S32x32 .f32)
    (wl2 : FVec Ideal S32x32 .f32) (bl2 : FVec Ideal S32 .f32) (wr2 : FVec Ideal S32x32 .f32)
    (wl3 : FVec Ideal S32x32 .f32) (bl3 : FVec Ideal S32 .f32) (wr3 : FVec Ideal S32x32 .f32) :
    Read.val_main_v116 (F := Ideal) x ei wl0 bl0 wr0 wl1 bl1 wr1 wl2 bl2 wr2 wl3 bl3 wr3
      = rpre (agg ei (Read.val_main_v89 (F := Ideal) x ei wl0 bl0 wr0 wl1 bl1 wr1 wl2 bl2 wr2)) (dcl ei)
          (Read.val_main_v89 (F := Ideal) x ei wl0 bl0 wr0 wl1 bl1 wr1 wl2 bl2 wr2) (transpose S32x32 [1, 0] wl3 transposes_S32x32_S32x32_1_0) (shapeCast S1x32 bl3 sc32) (transpose S32x32 [1, 0] wr3 transposes_S32x32_S32x32_1_0) :=
  Cert.RefLayer.host_rpre (Dd := dot_S100000x32_S32x32_S100000x32_1_0_0_1_n_n) ⟨rfl, rfl, rfl, rfl, rfl, rfl⟩
    bcast_S100000_S100000x1_0 bcast_S100000x1_S100000x32_0_1 bcast_S32_S1x32_1 bcast_S1x32_S100000x32_0_1 sc32
    (agg ei (Read.val_main_v89 (F := Ideal) x ei wl0 bl0 wr0 wl1 bl1 wr1 wl2 bl2 wr2))
    (Read.val_main_v89 (F := Ideal) x ei wl0 bl0 wr0 wl1 bl1 wr1 wl2 bl2 wr2) (dcl ei) (transpose S32x32 [1, 0] wl3 transposes_S32x32_S32x32_1_0) (transpose S32x32 [1, 0] wr3 transposes_S32x32_S32x32_1_0) bl3

/-! ## The network -/

/-- The reference's last stage, as a function of its fourteen arguments, is the network in the means grouping:
    weights laid out input-axis first (the transposes the program applies), bias vectors as one-row arrays. -/
theorem result_eq (x : FVec Ideal S100000x64 .f32) (ei : IVec S2x1600000 32)
    (wl0 : FVec Ideal S32x64 .f32) (bl0 : FVec Ideal S32 .f32) (wr0 : FVec Ideal S32x64 .f32)
    (wl1 : FVec Ideal S32x32 .f32) (bl1 : FVec Ideal S32 .f32) (wr1 : FVec Ideal S32x32 .f32)
    (wl2 : FVec Ideal S32x32 .f32) (bl2 : FVec Ideal S32 .f32) (wr2 : FVec Ideal S32x32 .f32)
    (wl3 : FVec Ideal S32x32 .f32) (bl3 : FVec Ideal S32 .f32) (wr3 : FVec Ideal S32x32 .f32) :
    Read.val_main_v116 (F := Ideal) x ei wl0 bl0 wr0 wl1 bl1 wr1 wl2 bl2 wr2 wl3 bl3 wr3
      = rnet (agg0 ei) (agg ei) (dcl ei) x
        (transpose S64x32 [1, 0] wl0 transposes_S32x64_S64x32_1_0) (shapeCast S1x32 bl0 sc32) (transpose S64x32 [1, 0] wr0 transposes_S32x64_S64x32_1_0)
        (transpose S32x32 [1, 0] wl1 transposes_S32x32_S32x32_1_0) (shapeCast S1x32 bl1 sc32) (transpose S32x32 [1, 0] wr1 transposes_S32x32_S32x32_1_0)
        (transpose S32x32 [1, 0] wl2 transposes_S32x32_S32x32_1_0) (shapeCast S1x32 bl2 sc32) (transpose S32x32 [1, 0] wr2 transposes_S32x32_S32x32_1_0)
        (transpose S32x32 [1, 0] wl3 transposes_S32x32_S32x32_1_0) (shapeCast S1x32 bl3 sc32) (transpose S32x32 [1, 0] wr3 transposes_S32x32_S32x32_1_0) := by
  rw [layer3_eq, layer2_eq, layer1_eq, layer0_eq]
  rfl

/-- The reference's run with its result named: every weakly fair execution terminates with the result buffer at the
    network of the arguments' launch contents, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v116)
        = rnet (agg0 (m ((c.tc : Thread nD τ).loc main_arg1))) (agg (m ((c.tc : Thread nD τ).loc main_arg1))) (dcl (m ((c.tc : Thread nD τ).loc main_arg1))) (m ((c.tc : Thread nD τ).loc main_arg0))
        (transpose S64x32 [1, 0] (m ((c.tc : Thread nD τ).loc main_arg2)) transposes_S32x64_S64x32_1_0) (shapeCast S1x32 (m ((c.tc : Thread nD τ).loc main_arg3)) sc32) (transpose S64x32 [1, 0] (m ((c.tc : Thread nD τ).loc main_arg4)) transposes_S32x64_S64x32_1_0)
        (transpose S32x32 [1, 0] (m ((c.tc : Thread nD τ).loc main_arg5)) transposes_S32x32_S32x32_1_0) (shapeCast S1x32 (m ((c.tc : Thread nD τ).loc main_arg6)) sc32) (transpose S32x32 [1, 0] (m ((c.tc : Thread nD τ).loc main_arg7)) transposes_S32x32_S32x32_1_0)
        (transpose S32x32 [1, 0] (m ((c.tc : Thread nD τ).loc main_arg8)) transposes_S32x32_S32x32_1_0) (shapeCast S1x32 (m ((c.tc : Thread nD τ).loc main_arg9)) sc32) (transpose S32x32 [1, 0] (m ((c.tc : Thread nD τ).loc main_arg10)) transposes_S32x32_S32x32_1_0)
        (transpose S32x32 [1, 0] (m ((c.tc : Thread nD τ).loc main_arg11)) transposes_S32x32_S32x32_1_0) (shapeCast S1x32 (m ((c.tc : Thread nD τ).loc main_arg12)) sc32) (transpose S32x32 [1, 0] (m ((c.tc : Thread nD τ).loc main_arg13)) transposes_S32x32_S32x32_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono
    (fun _ h c => ⟨(h c).1.trans ((Read.val_main_v116_eq m c).trans (result_eq _ _ _ _ _ _ _ _ _ _ _ _ _ _)), (h c).2⟩)
    (Value.run (F := Ideal) m ρ)

end Cert.ReferenceIdeal.RefValue

end
-- ==== Proof.Bridge.lean ====
/-
  The kernel program's result array and the reference's result are one array. The kernel's is the network in the
  scaled-sums grouping with the column of reciprocal clamped in-degrees; that column is the reciprocal of a vector
  that is nowhere zero (every entry is at least one), so the scaled-sums network is the means network; and the two
  programs' neighbour sums, in-degree vector, weight layouts and bias rows are the same host operations applied to
  the same argument arrays.
-/
import proofs.«165607_j15298673509107_2_alg».proof.Proof.KI.KNet
import proofs.«165607_j15298673509107_2_alg».proof.Proof.RefValue

noncomputable section

namespace Cert.Bridge

open Idealize.ShloMosaic Idealize.SL.Sem
open Cert.ReferenceIdeal Cert.ReferenceIdeal.Gen Cert.ReferenceIdeal.RefValue

/-- What region 3 leaves in the kernel program's result array is the means network of the launch arrays. -/
theorem kernel_eq_reference (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Hand.dat3 (F := Ideal) (Cert.KernelIdeal.Hand.V7 m ρ) c).arrAt 6 Cert.KernelIdeal.cfg3.N
      = Cert.GnnSpec.rnet (agg0 (m ((c.tc : Thread Cert.KernelIdeal.nD Cert.KernelIdeal.τ).loc Cert.KernelIdeal.main_arg1))) (agg (m ((c.tc : Thread Cert.KernelIdeal.nD Cert.KernelIdeal.τ).loc Cert.KernelIdeal.main_arg1))) (dcl (m ((c.tc : Thread Cert.KernelIdeal.nD Cert.KernelIdeal.τ).loc Cert.KernelIdeal.main_arg1))) (m ((c.tc : Thread Cert.KernelIdeal.nD Cert.KernelIdeal.τ).loc Cert.KernelIdeal.main_arg0))
        (transpose S64x32 [1, 0] (m ((c.tc : Thread Cert.KernelIdeal.nD Cert.KernelIdeal.τ).loc Cert.KernelIdeal.main_arg2)) transposes_S32x64_S64x32_1_0) (shapeCast S1x32 (m ((c.tc : Thread Cert.KernelIdeal.nD Cert.KernelIdeal.τ).loc Cert.KernelIdeal.main_arg3)) sc32) (transpose S64x32 [1, 0] (m ((c.tc : Thread Cert.KernelIdeal.nD Cert.KernelIdeal.τ).loc Cert.KernelIdeal.main_arg4)) transposes_S32x64_S64x32_1_0)
        (transpose S32x32 [1, 0] (m ((c.tc : Thread Cert.KernelIdeal.nD Cert.KernelIdeal.τ).loc Cert.KernelIdeal.main_arg5)) transposes_S32x32_S32x32_1_0) (shapeCast S1x32 (m ((c.tc : Thread Cert.KernelIdeal.nD Cert.KernelIdeal.τ).loc Cert.KernelIdeal.main_arg6)) sc32) (transpose S32x32 [1, 0] (m ((c.tc : Thread Cert.KernelIdeal.nD Cert.KernelIdeal.τ).loc Cert.KernelIdeal.main_arg7)) transposes_S32x32_S32x32_1_0)
        (transpose S32x32 [1, 0] (m ((c.tc : Thread Cert.KernelIdeal.nD Cert.KernelIdeal.τ).loc Cert.KernelIdeal.main_arg8)) transposes_S32x32_S32x32_1_0) (shapeCast S1x32 (m ((c.tc : Thread Cert.KernelIdeal.nD Cert.KernelIdeal.τ).loc Cert.KernelIdeal.main_arg9)) sc32) (transpose S32x32 [1, 0] (m ((c.tc : Thread Cert.KernelIdeal.nD Cert.KernelIdeal.τ).loc Cert.KernelIdeal.main_arg10)) transposes_S32x32_S32x32_1_0)
        (transpose S32x32 [1, 0] (m ((c.tc : Thread Cert.KernelIdeal.nD Cert.KernelIdeal.τ).loc Cert.KernelIdeal.main_arg11)) transposes_S32x32_S32x32_1_0) (shapeCast S1x32 (m ((c.tc : Thread Cert.KernelIdeal.nD Cert.KernelIdeal.τ).loc Cert.KernelIdeal.main_arg12)) sc32) (transpose S32x32 [1, 0] (m ((c.tc : Thread Cert.KernelIdeal.nD Cert.KernelIdeal.τ).loc Cert.KernelIdeal.main_arg13)) transposes_S32x32_S32x32_1_0) := by
  refine (Cert.KernelIdeal.HandValue.kernel_value m ρ c).trans ?_
  rw [Cert.KernelIdeal.HandValue.ncolK_eq, Cert.GnnSpec.knet_recipCol _ _ _ (Cert.KernelIdeal.HandValue.dclK_ne_zero _)]
  rfl

end Cert.Bridge

end
-- ==== Proof.lean ====
/-
  A four-layer mean-aggregating graph network: a tiled kernel program (four pipelined regions, one per layer, between
  stretches of host operations that gather neighbour rows and sum them per destination) against a whole-array
  reference.

  Frames. The kernel program runs as eight segments; between two segments every unscoped buffer holds a known
  valuation, a region changing only its output array (Proof/KI/Run.lean at the exact-arithmetic reading, Proof/K/Run.lean
  at the word level: the same text). The reference is a straight line of host operations and its frame is its run
  with the result dropped.

  Values. Region by region the kernel's output array is one layer in the scaled-sums grouping, entry (n, j) being
  Σ_k (s(n,k) · (1 / d(n))) · wl(k,j) + b(j) + Σ_k h(n,k) · wr(k,j), with s the neighbour sums and d the in-degree
  clamped below by one; the reference computes Σ_k (s(n,k) / d(n)) · wl(k,j) + Σ_k h(n,k) · wr(k,j) + b(j). Since
  d(n) ≥ 1 is never zero, the product with its reciprocal is the quotient on all extended reals, and the summands are
  only regrouped; the gathers and segment sums are the same host operations in both programs. No finiteness of the
  inputs is used.
-/
import proofs.«165607_j15298673509107_2_alg».proof.Defs
import proofs.«165607_j15298673509107_2_alg».proof.Proof.Gen.Kernel
import proofs.«165607_j15298673509107_2_alg».proof.Proof.Gen.KernelIdeal
import proofs.«165607_j15298673509107_2_alg».proof.Proof.Gen.ReferenceIdeal
import proofs.«165607_j15298673509107_2_alg».proof.Proof.Gen.Pre_finite_inputs
import proofs.«165607_j15298673509107_2_alg».proof.Proof.K.Run
import proofs.«165607_j15298673509107_2_alg».proof.Proof.KI.Run
import proofs.«165607_j15298673509107_2_alg».proof.Proof.KI.KNet
import proofs.«165607_j15298673509107_2_alg».proof.Proof.RefValue
import proofs.«165607_j15298673509107_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_spec m ρ)

/-- Both programs end with the same result array: the kernel's is the network in the scaled-sums grouping of its
    launch arrays, the reference's the network in the means grouping of arrays that agree with them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Hand.dat3 (F := Ideal) (Cert.KernelIdeal.Hand.V7 m ρ) c).arrAt 6 Cert.KernelIdeal.cfg3.N,
    Cert.KernelIdeal.Hand.result_mem (F := Ideal) m ρ, ?_⟩
  refine (θ_run Cert.ReferenceIdeal.defs _ _).mono (fun _ h c => ⟨(h c).1.trans ?_, (h c).2⟩) (Cert.ReferenceIdeal.RefValue.run_spec m' ρ')
  obtain ⟨e0, e1, e2, e3, e4, e5, e6, e7, e8, e9, e10, e11, e12, e13⟩ := hagree c
  rw [e0, e1, e2, e3, e4, e5, e6, e7, e8, e9, e10, e11, e12, e13]
  exact (Cert.Bridge.kernel_eq_reference m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
